-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8x512 : Shape := ⟨3, ![8192, 8, 512]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8x512 : S_.BroadcastsInDim S8192x8x512 (![] : Fin 0 → Fin S8192x8x512.rank)
  reducesTo_S8192x8x512_S_d0_1_2 : S8192x8x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part5 {F : FTy → Type} [FloatOps F] (main_arg18 : FVec F S512 .f32) (main_v83 : IVec S_ 1) (main_v84 : FVec F S512x512 .f32) (main_cst_32 : FVec F S_ .f32) : IVec S_ 1 :=
  let main_v85 : FVec F S512x512 .f32 := broadcastInDim S512x512 ![] bcast_S_S512x512 main_cst_32
  let main_v86 : IVec S512x512 1 := cmpf .olt main_v84 main_v85
  let main_c_33 : IVec S_ 1 := constantI S_ 1 1#1
  let main_v87 : IVec S_ 1 := (fun x v => Host.reduce IntOp.andi x v reducesTo_S512x512_S_d0_1 h_S_) main_v86 main_c_33
  let main_v88 : IVec S_ 1 := andi main_v83 main_v87
  let main_v89 : FVec F S512 .f32 := Host.absf main_arg18
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  main_v93

def fn_part4 {F : FTy → Type} [FloatOps F] (main_arg14 : FVec F S512 .f32) (main_arg15 : FVec F S512x512 .f32) (main_arg16 : FVec F S512 .f32) (main_arg17 : FVec F S512x512 .f32) (main_arg18 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512x512 .f32 := Host.absf main_arg15
  let main_cst_28 : FVec F S_ .f32 := constant S_ .f32 0x7F800000#32
  let main_v75 : FVec F S512x512 .f32 := broadcastInDim S512x512 ![] bcast_S_S512x512 main_cst_28
  let main_v76 : IVec S512x512 1 := cmpf .olt main_v74 main_v75
  let main_c_29 : IVec S_ 1 := constantI S_ 1 1#1
  let main_v77 : IVec S_ 1 := (fun x v => Host.reduce IntOp.andi x v reducesTo_S512x512_S_d0_1 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512x512 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg14 main_arg15 main_arg16 main_arg17 main_arg18 main_v63 main_v67

def fn_part2 {F : FTy → Type} [FloatOps F] (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_arg17 main_arg18 main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x512 .f32) (main_arg1 : FVec F S8192x8x512 .f32) (main_arg2 : FVec F S8192x8x512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8x512 .f32 := Host.absf main_arg1
  let main_cst_0 : FVec F S_ .f32 := constant S_ .f32 0x7F800000#32
  let main_v5 : FVec F S8192x8x512 .f32 := broadcastInDim S8192x8x512 ![] bcast_S_S8192x8x512 main_cst_0
  let main_v6 : IVec S8192x8x512 1 := cmpf .olt main_v4 main_v5
  let main_c_1 : IVec S_ 1 := constantI S_ 1 1#1
  let main_v7 : IVec S_ 1 := (fun x v => Host.reduce IntOp.andi x v reducesTo_S8192x8x512_S_d0_1_2 h_S_) main_v6 main_c_1
  let main_v8 : IVec S_ 1 := andi main_v3 main_v7
  let main_v9 : FVec F S8192x8x512 .f32 := Host.absf main_arg2
  let main_cst_2 : FVec F S_ .f32 := constant S_ .f32 0x7F800000#32
  let main_v10 : FVec F S8192x8x512 .f32 := broadcastInDim S8192x8x512 ![] bcast_S_S8192x8x512 main_cst_2
  let main_v11 : IVec S8192x8x512 1 := cmpf .olt main_v9 main_v10
  let main_c_3 : IVec S_ 1 := constantI S_ 1 1#1
  let main_v12 : IVec S_ 1 := (fun x v => Host.reduce IntOp.andi x v reducesTo_S8192x8x512_S_d0_1_2 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x512 : Shape := ⟨2, ![8192, 512]⟩
abbrev S8192x8x512 : Shape := ⟨3, ![8192, 8, 512]⟩
abbrev S512x512 : Shape := ⟨2, ![512, 512]⟩
abbrev S512 : Shape := ⟨1, ![512]⟩
abbrev S512x2048 : Shape := ⟨2, ![512, 2048]⟩
abbrev S2048 : Shape := ⟨1, ![2048]⟩
abbrev S1x2048 : Shape := ⟨2, ![1, 2048]⟩
abbrev S512x1536 : Shape := ⟨2, ![512, 1536]⟩
abbrev S1536 : Shape := ⟨1, ![1536]⟩
abbrev S1x1536 : Shape := ⟨2, ![1, 1536]⟩
abbrev S1x512 : Shape := ⟨2, ![1, 512]⟩
abbrev S256x512 : Shape := ⟨2, ![256, 512]⟩
abbrev S256x8x512 : Shape := ⟨3, ![256, 8, 512]⟩
abbrev S256x2048 : Shape := ⟨2, ![256, 2048]⟩
abbrev S256x1x512 : Shape := ⟨3, ![256, 1, 512]⟩
abbrev S256x1536 : Shape := ⟨2, ![256, 1536]⟩
abbrev S1x8192x512 : Shape := ⟨3, ![1, 8192, 512]⟩
abbrev S2x8192x512 : Shape := ⟨3, ![2, 8192, 512]⟩

abbrev nBuf : Space → Nat
  | .hbm => 34
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S8192x8x512, .f32⟩
  | .hbm, ⟨2, _⟩ => ⟨S8192x8x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512x512, .f32⟩
  | .hbm, ⟨18, _⟩ => ⟨S512, .f32⟩
  | .hbm, ⟨19, _⟩ => ⟨S512x2048, .f32⟩
  | .hbm, ⟨20, _⟩ => ⟨S512x2048, .bf16⟩
  | .hbm, ⟨21, _⟩ => ⟨S2048, .f32⟩
  | .hbm, ⟨22, _⟩ => ⟨S1x2048, .f32⟩
  | .hbm, ⟨23, _⟩ => ⟨S512x1536, .f32⟩
  | .hbm, ⟨24, _⟩ => ⟨S512x1536, .bf16⟩
  | .hbm, ⟨25, _⟩ => ⟨S1536, .f32⟩
  | .hbm, ⟨26, _⟩ => ⟨S1x1536, .f32⟩
  | .hbm, ⟨27, _⟩ => ⟨S512x512, .bf16⟩
  | .hbm, ⟨28, _⟩ => ⟨S1x512, .f32⟩
  | .hbm, ⟨29, _⟩ => ⟨S8192x512, .f32⟩
  | .hbm, ⟨30, _⟩ => ⟨S8192x512, .f32⟩
  | .hbm, ⟨31, _⟩ => ⟨S1x8192x512, .f32⟩
  | .hbm, ⟨32, _⟩ => ⟨S1x8192x512, .f32⟩
  | .hbm, ⟨33, _⟩ => ⟨S2x8192x512, .f32⟩
  | .local _ .vmem, ⟨0, _⟩ => ⟨S256x512, .f32⟩
  | .local _ .vmem, ⟨1, _⟩ => ⟨S256x512, .f32⟩
  | .local _ .vmem, ⟨2, _⟩ => ⟨S256x8x512, .f32⟩
  | .local _ .vmem, ⟨3, _⟩ => ⟨S256x8x512, .f32⟩
  | .local _ .vmem, ⟨4, _⟩ => ⟨S256x8x512, .f32⟩
  | .local _ .vmem, ⟨5, _⟩ => ⟨S256x8x512, .f32⟩
  | .local _ .vmem, ⟨6, _⟩ => ⟨S512x2048, .bf16⟩
  | .local _ .vmem, ⟨7, _⟩ => ⟨S1x2048, .f32⟩
  | .local _ .vmem, ⟨8, _⟩ => ⟨S512x1536, .bf16⟩
  | .local _ .vmem, ⟨9, _⟩ => ⟨S1x1536, .f32⟩
  | .local _ .vmem, ⟨10, _⟩ => ⟨S512x512, .bf16⟩
  | .local _ .vmem, ⟨11, _⟩ => ⟨S1x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10_0 : Ref sig .tc := ⟨.hbm, 29, rfl⟩
abbrev main_v10_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  concatenates_S512x512_S512x512_S512x512_S512x512_S512x2048_d1 : Shape.Concatenates [S512x512, S512x512, S512x512, S512x512] S512x2048 1
  bitsLt_bf16_f32 : FTy.bits .bf16 < FTy.bits .f32
  concatenates_S512_S512_S512_S512_S2048_d0 : Shape.Concatenates [S512, S512, S512, S512] S2048 0
  shapeCasts_S2048_S1x2048 : S2048.ShapeCasts S1x2048
  concatenates_S512x512_S512x512_S512x512_S512x1536_d1 : Shape.Concatenates [S512x512, S512x512, S512x512] S512x1536 1
  concatenates_S512_S512_S512_S1536_d0 : Shape.Concatenates [S512, S512, S512] S1536 0
  shapeCasts_S1536_S1x1536 : S1536.ShapeCasts S1x1536
  shapeCasts_S512_S1x512 : S512.ShapeCasts S1x512
  inb_S256x512_S256x512_0_0 : ∀ a, (![0, 0] : Fin 2 → Nat) a + S256x512.size a ≤ S256x512.size a
  h_S256x512 : 0 < S256x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  slices_S256x2048_o0_0_S256x512 : S256x2048.Slices ![0, 0] S256x512
  slices_S256x2048_o0_512_S256x512 : S256x2048.Slices ![0, 512] S256x512
  slices_S256x2048_o0_1024_S256x512 : S256x2048.Slices ![0, 1024] S256x512
  slices_S256x2048_o0_1536_S256x512 : S256x2048.Slices ![0, 1536] S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S256x8x512_S256x1x512_0_0_0 : ∀ a, (![0, 0, 0] : Fin 3 → Nat) a + S256x1x512.size a ≤ S256x8x512.size a
  h_S256x1x512 : 0 < S256x1x512.numel
  shapeCasts_S256x1x512_S256x512 : S256x1x512.ShapeCasts S256x512
  broadcasts_S1x512_S256x512 : S1x512.Broadcasts S256x512
  inb_S256x8x512_S256x1x512_0_1_0 : ∀ a, (![0, 1, 0] : Fin 3 → Nat) a + S256x1x512.size a ≤ S256x8x512.size a
  inb_S256x8x512_S256x1x512_0_2_0 : ∀ a, (![0, 2, 0] : Fin 3 → Nat) a + S256x1x512.size a ≤ S256x8x512.size a
  inb_S256x8x512_S256x1x512_0_3_0 : ∀ a, (![0, 3, 0] : Fin 3 → Nat) a + S256x1x512.size a ≤ S256x8x512.size a
  inb_S256x8x512_S256x1x512_0_4_0 : ∀ a, (![0, 4, 0] : Fin 3 → Nat) a + S256x1x512.size a ≤ S256x8x512.size a
  inb_S256x8x512_S256x1x512_0_5_0 : ∀ a, (![0, 5, 0] : Fin 3 → Nat) a + S256x1x512.size a ≤ S256x8x512.size a
  inb_S256x8x512_S256x1x512_0_6_0 : ∀ a, (![0, 6, 0] : Fin 3 → Nat) a + S256x1x512.size a ≤ S256x8x512.size a
  inb_S256x8x512_S256x1x512_0_7_0 : ∀ a, (![0, 7, 0] : Fin 3 → Nat) a + S256x1x512.size a ≤ S256x8x512.size a
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S256x1536 : S1x1536.Broadcasts S256x1536
  slices_S256x1536_o0_0_S256x512 : S256x1536.Slices ![0, 0] S256x512
  slices_S256x1536_o0_512_S256x512 : S256x1536.Slices ![0, 512] S256x512
  slices_S256x1536_o0_1024_S256x512 : S256x1536.Slices ![0, 1024] S256x512
  bcast_S8192x512_S1x8192x512_1_2 : S8192x512.BroadcastsInDim S1x8192x512 (![1, 2] : Fin 2 → Fin S1x8192x512.rank)
  concatenates_S1x8192x512_S1x8192x512_S2x8192x512_d0 : Shape.Concatenates [S1x8192x512, S1x8192x512] S2x8192x512 0
  dot_S256x512_S512x2048_S256x2048_1_0_0_1_n_n_wf : DotDims.WF S256x512 S512x2048 S256x2048 [1] [0] [0] [1] [] []
  dot_S256x512_S512x512_S256x512_1_0_0_1_n_n_wf : DotDims.WF S256x512 S512x512 S256x512 [1] [0] [0] [1] [] []
  dot_S256x512_S512x1536_S256x1536_1_0_0_1_n_n_wf : DotDims.WF S256x512 S512x1536 S256x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x512.size a
  hwx0_0 : ∀ i : grid0.Coords, EltTy.bits .f32 = 32 ∨ (Rect.block (s := S8192x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8x512.size a ≤ S8192x8x512.size a
  hwx0_1 : ∀ i : grid0.Coords, EltTy.bits .f32 = 32 ∨ (Rect.block (s := S8192x8x512) S256x8x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8x512.size a ≤ S8192x8x512.size a
  hwx0_2 : ∀ i : grid0.Coords, EltTy.bits .f32 = 32 ∨ (Rect.block (s := S8192x8x512) S256x8x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1536.size a ≤ S512x1536.size a
  hwx0_5 : ∀ i : grid0.Coords, EltTy.bits .bf16 = 32 ∨ (Rect.block (s := S512x1536) S512x1536.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1536.size a ≤ S1x1536.size a
  hwx0_6 : ∀ i : grid0.Coords, EltTy.bits .f32 = 32 ∨ (Rect.block (s := S1x1536) S1x1536.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x512.size a ≤ S8192x512.size a
  hwx0_9 : ∀ i : grid0.Coords, EltTy.bits .f32 = 32 ∨ (Rect.block (s := S8192x512) S256x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x512.size a ≤ S8192x512.size a
  hwx0_10 : ∀ i : grid0.Coords, EltTy.bits .f32 = 32 ∨ (Rect.block (s := S8192x512) S256x512.size (cc0_transform_10 i) (hinb0_10 i)).WholeWords (EltTy.packing .f32)

variable [Facts₀]

def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S512x1536_S256x1536_1_0_0_1_n_n : DotDims S256x512 S512x1536 S256x1536 where
  lhsContracting := [1]
  rhsContracting := [0]
  lhsNonContracting := [0]
  rhsNonContracting := [1]
  lhsBatch := []
  rhsBatch := []
  wf := dot_S256x512_S512x1536_S256x1536_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x1536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1536.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10_0) S256x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10_1) S256x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x8x512 : Shape := ⟨3, ![8192, 8, 512]⟩
abbrev S512x512 : Shape := ⟨2, ![512, 512]⟩
abbrev S512 : Shape := ⟨1, ![512]⟩
abbrev S_ : Shape := ⟨0, ![]⟩
abbrev S1x512 : Shape := ⟨2, ![1, 512]⟩
abbrev S8192x1x512 : Shape := ⟨3, ![8192, 1, 512]⟩
abbrev S1x1x512 : Shape := ⟨3, ![1, 1, 512]⟩
abbrev S1x8192x512 : Shape := ⟨3, ![1, 8192, 512]⟩
abbrev S2x8192x512 : Shape := ⟨3, ![2, 8192, 512]⟩

abbrev nBuf : Space → Nat
  | .hbm => 94
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8x512, .f32⟩
  | .hbm, ⟨2, _⟩ => ⟨S8192x8x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512x512, .f32⟩
  | .hbm, ⟨18, _⟩ => ⟨S512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S1x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S1x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S_, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S1x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S1x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S_, .f32⟩
  | .hbm, ⟨50, _⟩ => ⟨S8192x512, .f32⟩
  | .hbm, ⟨51, _⟩ => ⟨S8192x512, .f32⟩
  | .hbm, ⟨52, _⟩ => ⟨S_, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S1x512, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S1x512, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S8192x512, .f32⟩
  | .hbm, ⟨66, _⟩ => ⟨S1x512, .f32⟩
  | .hbm, ⟨67, _⟩ => ⟨S8192x512, .f32⟩
  | .hbm, ⟨68, _⟩ => ⟨S8192x512, .f32⟩
  | .hbm, ⟨69, _⟩ => ⟨S8192x1x512, .f32⟩
  | .hbm, ⟨70, _⟩ => ⟨S8192x8x512, .f32⟩
  | .hbm, ⟨71, _⟩ => ⟨S8192x8x512, .f32⟩
  | .hbm, ⟨72, _⟩ => ⟨S8192x8x512, .f32⟩
  | .hbm, ⟨73, _⟩ => ⟨S1x1x512, .f32⟩
  | .hbm, ⟨74, _⟩ => ⟨S8192x8x512, .f32⟩
  | .hbm, ⟨75, _⟩ => ⟨S8192x8x512, .f32⟩
  | .hbm, ⟨76, _⟩ => ⟨S8192x8x512, .f32⟩
  | .hbm, ⟨77, _⟩ => ⟨S8192x8x512, .f32⟩
  | .hbm, ⟨78, _⟩ => ⟨S_, .f32⟩
  | .hbm, ⟨79, _⟩ => ⟨S8192x8x512, .f32⟩
  | .hbm, ⟨80, _⟩ => ⟨S8192x8x512, .f32⟩
  | .hbm, ⟨81, _⟩ => ⟨S_, .f32⟩
  | .hbm, ⟨82, _⟩ => ⟨S8192x8x512, .f32⟩
  | .hbm, ⟨83, _⟩ => ⟨S8192x8x512, .f32⟩
  | .hbm, ⟨84, _⟩ => ⟨S8192x512, .f32⟩
  | .hbm, ⟨85, _⟩ => ⟨S8192x8x512, .f32⟩
  | .hbm, ⟨86, _⟩ => ⟨S_, .f32⟩
  | .hbm, ⟨87, _⟩ => ⟨S8192x512, .f32⟩
  | .hbm, ⟨88, _⟩ => ⟨S8192x512, .f32⟩
  | .hbm, ⟨89, _⟩ => ⟨S8192x512, .f32⟩
  | .hbm, ⟨90, _⟩ => ⟨S8192x512, .f32⟩
  | .hbm, ⟨91, _⟩ => ⟨S1x8192x512, .f32⟩
  | .hbm, ⟨92, _⟩ => ⟨S1x8192x512, .f32⟩
  | .hbm, ⟨93, _⟩ => ⟨S2x8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_0 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_4 : Ref sig .tc := ⟨.hbm, 78, rfl⟩
abbrev main_v54 : Ref sig .tc := ⟨.hbm, 79, rfl⟩
abbrev main_v55 : Ref sig .tc := ⟨.hbm, 80, rfl⟩
abbrev main_cst_5 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_6 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩

abbrev nD : Nat := 1
abbrev τ : Topo := Topo.v7x

variable {F : FTy → Type} [FloatOps F]

class Facts₀ : Prop where
  reducesTo_S8192x8x512_S8192x512_d1 : S8192x8x512.ReducesTo [1] S8192x512
  h_S_ : 0 < S_.numel
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  bcast_S8192x512_S8192x1x512_0_2 : S8192x512.BroadcastsInDim S8192x1x512 (![0, 2] : Fin 2 → Fin S8192x1x512.rank)
  bcast_S8192x1x512_S8192x8x512_0_1_2 : S8192x1x512.BroadcastsInDim S8192x8x512 (![0, 1, 2] : Fin 3 → Fin S8192x8x512.rank)
  bcast_S512_S1x1x512_2 : S512.BroadcastsInDim S1x1x512 (![2] : Fin 1 → Fin S1x1x512.rank)
  bcast_S1x1x512_S8192x8x512_0_1_2 : S1x1x512.BroadcastsInDim S8192x8x512 (![0, 1, 2] : Fin 3 → Fin S8192x8x512.rank)
  bcast_S_S8192x8x512 : S_.BroadcastsInDim S8192x8x512 (![] : Fin 0 → Fin S8192x8x512.rank)
  bcast_S8192x512_S1x8192x512_1_2 : S8192x512.BroadcastsInDim S1x8192x512 (![1, 2] : Fin 2 → Fin S1x8192x512.rank)
  concatenates_S1x8192x512_S1x8192x512_S2x8192x512_d0 : Shape.Concatenates [S1x8192x512, S1x8192x512] S2x8192x512 0
  dot_S8192x512_S512x512_S8192x512_1_0_0_1_n_n_wf : DotDims.WF S8192x512 S512x512 S8192x512 [1] [0] [0] [1] [] []
  dot_S8192x8x512_S512x512_S8192x8x512_2_0_01_1_n_n_wf : DotDims.WF S8192x8x512 S512x512 S8192x8x512 [2] [0] [0, 1] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x8x512_S512x512_S8192x8x512_2_0_01_1_n_n : DotDims S8192x8x512 S512x512 S8192x8x512 where
  lhsContracting := [2]
  rhsContracting := [0]
  lhsNonContracting := [0, 1]
  rhsNonContracting := [1]
  lhsBatch := []
  rhsBatch := []
  wf := dot_S8192x8x512_S512x512_S8192x8x512_2_0_01_1_n_n_wf

class Facts : Prop extends Facts₀ where

variable [Facts]
-- ==== Proof.BodyTermsK.lean ====
/-
  What the cell kernel's body stores, as two pure functions of the nine input blocks.

  The body reads the node rows' block `x0` [256,512], the children's hidden and cell blocks `x1`, `x2` [256,8,512]
  (child `k` through the rectangle at offset (0,k,0) of extent [256,1,512]), the four gates' input weights side by
  side `x3` [512,2048] with their biases `x4` [1,2048], the three node gates' recurrent weights side by side `x5`
  [512,1536] with their biases `x6` [1,1536], and the forget gate's recurrent weights `x7` [512,512] with bias `x8`
  [1,512]. It stores the new hidden block (`hTerm`) and the new cell block (`cTerm`), each [256,512], once, whole.
  The two terms compose the generated payload names in the order the body's parts hand values on: the projections
  of the node rows (`xWi` … `xWf`), the running sum of the children's hidden rows and the running forget-weighted sum
  of their cell rows after children 0, 0–3, 0–6, and the last child inside the final payloads.
-/
import proofs.«116957_j34574486733551_2_alg».proof.Proof.Gen.Kernel.Skeleton
import Idealize.ShloMosaic.Lib.Pipeline.FrameBody

noncomputable section

namespace Cert.Kernel.Body

open Idealize.ShloMosaic Idealize.SL.Sem Cert.Kernel Cert.Kernel.Gen

variable {F : FTy → Type} [FloatOps F]

/-! ## The body's rectangles -/

/-- The whole [256,512] block. -/
abbrev rX : Rect S256x512 := Rect.unit (s := S256x512) ![0, 0] S256x512.size inb_S256x512_S256x512_0_0
/-- The whole [512,2048] block. -/
abbrev rW : Rect S512x2048 := Rect.unit (s := S512x2048) ![0, 0] S512x2048.size inb_S512x2048_S512x2048_0_0
/-- The whole [1,2048] block. -/
abbrev rbW : Rect S1x2048 := Rect.unit (s := S1x2048) ![0, 0] S1x2048.size inb_S1x2048_S1x2048_0_0
/-- The whole [512,1536] block. -/
abbrev rU : Rect S512x1536 := Rect.unit (s := S512x1536) ![0, 0] S512x1536.size inb_S512x1536_S512x1536_0_0
/-- The whole [1,1536] block. -/
abbrev rbU : Rect S1x1536 := Rect.unit (s := S1x1536) ![0, 0] S1x1536.size inb_S1x1536_S1x1536_0_0
/-- The whole [512,512] block. -/
abbrev rUf : Rect S512x512 := Rect.unit (s := S512x512) ![0, 0] S512x512.size inb_S512x512_S512x512_0_0
/-- The whole [1,512] block. -/
abbrev rbUf : Rect S1x512 := Rect.unit (s := S1x512) ![0, 0] S1x512.size inb_S1x512_S1x512_0_0
/-- Child `k`'s [256,1,512] slab of a [256,8,512] block. -/
abbrev rK0 : Rect S256x8x512 := Rect.unit (s := S256x8x512) ![0, 0, 0] S256x1x512.size inb_S256x8x512_S256x1x512_0_0_0
abbrev rK1 : Rect S256x8x512 := Rect.unit (s := S256x8x512) ![0, 1, 0] S256x1x512.size inb_S256x8x512_S256x1x512_0_1_0
abbrev rK2 : Rect S256x8x512 := Rect.unit (s := S256x8x512) ![0, 2, 0] S256x1x512.size inb_S256x8x512_S256x1x512_0_2_0
abbrev rK3 : Rect S256x8x512 := Rect.unit (s := S256x8x512) ![0, 3, 0] S256x1x512.size inb_S256x8x512_S256x1x512_0_3_0
abbrev rK4 : Rect S256x8x512 := Rect.unit (s := S256x8x512) ![0, 4, 0] S256x1x512.size inb_S256x8x512_S256x1x512_0_4_0
abbrev rK5 : Rect S256x8x512 := Rect.unit (s := S256x8x512) ![0, 5, 0] S256x1x512.size inb_S256x8x512_S256x1x512_0_5_0
abbrev rK6 : Rect S256x8x512 := Rect.unit (s := S256x8x512) ![0, 6, 0] S256x1x512.size inb_S256x8x512_S256x1x512_0_6_0
abbrev rK7 : Rect S256x8x512 := Rect.unit (s := S256x8x512) ![0, 7, 0] S256x1x512.size inb_S256x8x512_S256x1x512_0_7_0

variable (x0 : Vec F S256x512 .f32) (x1 x2 : Vec F S256x8x512 .f32) (x3 : Vec F S512x2048 .bf16) (x4 : Vec F S1x2048 .f32)
  (x5 : Vec F S512x1536 .bf16) (x6 : Vec F S1x1536 .f32) (x7 : Vec F S512x512 .bf16) (x8 : Vec F S1x512 .f32)

/-! ## The values the body's parts hand on -/

/-- The node rows through the input gate's weights, plus its bias. -/
def xWi : FVec F S256x512 .f32 := k0_pay5 (View.ld x0 rX) (View.ld x3 rW) (View.ld x4 rbW)
/-- The node rows through the output gate's weights, plus its bias. -/
def xWo : FVec F S256x512 .f32 := k0_pay6 (View.ld x0 rX) (View.ld x3 rW) (View.ld x4 rbW)
/-- The node rows through the update gate's weights, plus its bias. -/
def xWu : FVec F S256x512 .f32 := k0_pay7 (View.ld x0 rX) (View.ld x3 rW) (View.ld x4 rbW)
/-- The node rows through the forget gate's weights, plus its bias. -/
def xWf : FVec F S256x512 .f32 := k0_pay8 (View.ld x0 rX) (View.ld x3 rW) (View.ld x4 rbW)
/-- The forget gate's recurrent weights as loaded. -/
def uf : FVec F S512x512 .bf16 := k0_pay9 (View.ld x7 rUf)
/-- The forget gate's recurrent bias as loaded. -/
def buf : FVec F S1x512 .f32 := k0_pay10 (View.ld x8 rbUf)
/-- The children's hidden rows summed over child 0. -/
def hsum0 : FVec F S256x512 .f32 := k0_pay12 (View.ld x1 rK0)
/-- The forget-weighted cell rows summed over child 0. -/
def cf0 : FVec F S256x512 .f32 :=
  k0_pay13 (View.ld x0 rX) (View.ld x3 rW) (View.ld x4 rbW) (View.ld x7 rUf) (View.ld x8 rbUf) (View.ld x1 rK0) (View.ld x2 rK0)
/-- Child 1's hidden rows. -/
def kid1 : FVec F S256x512 .f32 := k0_pay14 (View.ld x1 rK1)
/-- The children's hidden rows summed over children 0–3. -/
def hsum3 : FVec F S256x512 .f32 := k0_pay17 (hsum0 x1) (kid1 x1) (View.ld x1 rK2) (View.ld x1 rK3)
/-- The forget-weighted cell rows summed over children 0–3. -/
def cf3 : FVec F S256x512 .f32 :=
  k0_pay18 (xWf x0 x3 x4) (uf x7) (buf x8) (cf0 x0 x1 x2 x3 x4 x7 x8) (kid1 x1) (View.ld x2 rK1) (View.ld x1 rK2) (View.ld x2 rK2)
    (View.ld x1 rK3) (View.ld x2 rK3)
/-- Child 4's hidden rows. -/
def kid4 : FVec F S256x512 .f32 := k0_pay19 (View.ld x1 rK4)
/-- The children's hidden rows summed over children 0–6. -/
def hsum6 : FVec F S256x512 .f32 := k0_pay22 (hsum3 x1) (kid4 x1) (View.ld x1 rK5) (View.ld x1 rK6)
/-- The forget-weighted cell rows summed over children 0–6. -/
def cf6 : FVec F S256x512 .f32 :=
  k0_pay23 (xWf x0 x3 x4) (uf x7) (buf x8) (cf3 x0 x1 x2 x3 x4 x7 x8) (kid4 x1) (View.ld x2 rK4) (View.ld x1 rK5) (View.ld x2 rK5)
    (View.ld x1 rK6) (View.ld x2 rK6)
/-- Child 7's hidden rows. -/
def kid7 : FVec F S256x512 .f32 := k0_pay24 (View.ld x1 rK7)

/-! ## The two stored blocks -/

/-- The new cell block the body stores. -/
def cTerm : Vec F S256x512 .f32 :=
  k0_pay2 (xWi x0 x3 x4) (xWu x0 x3 x4) (xWf x0 x3 x4) (uf x7) (buf x8) (hsum6 x1) (cf6 x0 x1 x2 x3 x4 x7 x8) (kid7 x1)
    (View.ld x2 rK7) (View.ld x5 rU) (View.ld x6 rbU)

/-- The new hidden block the body stores. -/
def hTerm : Vec F S256x512 .f32 :=
  k0_pay3 (xWi x0 x3 x4) (xWo x0 x3 x4) (xWu x0 x3 x4) (xWf x0 x3 x4) (uf x7) (buf x8) (hsum6 x1) (cf6 x0 x1 x2 x3 x4 x7 x8) (kid7 x1)
    (View.ld x2 rK7) (View.ld x5 rU) (View.ld x6 rbU)

end Cert.Kernel.Body

end
-- ==== Proof.BodyK.lean ====
/-
  The cell kernel's body as a triple: run on whole staging buffers holding the nine input blocks, it leaves the
  inputs as they were and the two output buffers at the new hidden block and the new cell block, whatever the output
  buffers held before. Each output buffer is stored once through the rectangle of the whole block, so what it holds
  afterwards is the stored value alone.
-/
import proofs.«116957_j34574486733551_2_alg».proof.Proof.Gen.Kernel.Launch
import proofs.«116957_j34574486733551_2_alg».proof.Proof.Gen.Kernel.Skeleton
import proofs.«116957_j34574486733551_2_alg».proof.Proof.Gen.Kernel.Points
import proofs.«116957_j34574486733551_2_alg».proof.Proof.BodyTermsK
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Body

variable {F : FTy → Type} [FloatOps F]

local notation "𝕄" => MT nD τ sig Unit (Elt F) ℕ (UR sig nD τ) ℕ

/-! ## What the body leaves in each output buffer -/

/-- The hidden-state output buffer after the body: its one store, of the new hidden block, through the whole block. -/
def out0_9 (x0 : Vec F S256x512 .f32) (x1 x2 : Vec F S256x8x512 .f32) (x3 : Vec F S512x2048 .bf16) (x4 : Vec F S1x2048 .f32) (x5 : Vec F S512x1536 .bf16) (x6 : Vec F S1x1536 .f32) (x7 : Vec F S512x512 .bf16) (x8 : Vec F S1x512 .f32) : Vec F S256x512 .f32 :=
  View.canon [⟨rX, hTerm x0 x1 x2 x3 x4 x5 x6 x7 x8⟩]

/-- The cell-state output buffer after the body: its one store, of the new cell block, through the whole block. -/
def out0_10 (x0 : Vec F S256x512 .f32) (x1 x2 : Vec F S256x8x512 .f32) (x3 : Vec F S512x2048 .bf16) (x4 : Vec F S1x2048 .f32) (x5 : Vec F S512x1536 .bf16) (x6 : Vec F S1x1536 .f32) (x7 : Vec F S512x512 .bf16) (x8 : Vec F S1x512 .f32) : Vec F S256x512 .f32 :=
  View.canon [⟨rX, cTerm x0 x1 x2 x3 x4 x5 x6 x7 x8⟩]

/-- One store through the whole block covers the buffer. -/
theorem cover_out (p0 : Vec F S256x512 .f32) (y : S256x512.Idx) :
    ∃ pc ∈ ([⟨rX, p0⟩] : List (View.Piece (Elt F) S256x512 .f32)), y ∈ pc.1.set :=
  View.cover_of_tiled [⟨rX, p0⟩] S256x512.size (by rfl) y

/-! ## The body's triple -/

set_option maxHeartbeats 4000000 in
/-- The body on whole staging buffers, the inputs' at contents reading `x0` … `x8` and the outputs' at anything, runs to
    the continuation holding the inputs' as they were and the outputs' at the new hidden and cell blocks. -/
theorem sound_kernel (c : Dev nD) (E : Set ℕ) (i : grid0.Coords) (arg1 : Memref sig .tc .vmem S256x512 .f32) (harg1 : arg1.IsWhole) (arg2 : Memref sig .tc .vmem S256x8x512 .f32) (harg2 : arg2.IsWhole) (arg3 : Memref sig .tc .vmem S256x8x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S512x1536 .bf16) (harg6 : arg6.IsWhole) (arg7 : Memref sig .tc .vmem S1x1536 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S256x512 .f32) (harg10 : arg10.IsWhole) (arg11 : Memref sig .tc .vmem S256x512 .f32) (harg11 : arg11.IsWhole)
    (x0 : Vec F S256x512 .f32) (x1 x2 : Vec F S256x8x512 .f32) (x3 : Vec F S512x2048 .bf16) (x4 : Vec F S1x2048 .f32) (x5 : Vec F S512x1536 .bf16) (x6 : Vec F S1x1536 .f32) (x7 : Vec F S512x512 .bf16) (x8 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out0_9 x0 x1 x2 x3 x4 x5 x6 x7 x8) ∗ owns (c : Thread nD τ) arg11 fullShare (out0_10 x0 x1 x2 x3 x4 x5 x6 x7 x8)) -∗ K ⟨⟩))
      ⊢ wp frame (wpE (defs₀ (F := F)) Variants.none c none) E (cc0__cell_kernel i arg1 harg1 arg2 harg2 arg3 harg3 arg4 harg4 arg5 harg5 arg6 harg6 arg7 harg7 arg8 harg8 arg9 harg9 arg10 harg10 arg11 harg11) K := by
  simp only [cc0__cell_kernel_eq_skeleton]; unfold cc0__cell_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover_out _)
  iexists _; isplitr
  swap; · iexact H10
  ipureintro
  exact View.read_writes_eq_canon _ _ _ (cover_out _)

end Cert.Kernel.Frame

end
-- ==== Proof.MainK.lean ====
/-
  The host program around the cell kernel's one region, for any proof data of the pipeline.

  Before the region the host lays the four gates' input weights side by side and casts them to bf16, lays their biases
  end to end as one row, does the same for the three node gates' recurrent weights and biases, and casts / reshapes
  the forget gate's; after it, it stacks the two results. None of these lines writes an argument array, and none of
  the later lines writes an array of the pipeline; so every argument is found by the region as launched and ends as
  launched, and an input window's staging buffer holds, at every grid point, the block of its array that the
  point's index names — whether the point fetched it or an earlier one did (the weights' index never moves).
-/
import proofs.«116957_j34574486733551_2_alg».proof.Proof.Gen.Kernel.Launch
import proofs.«116957_j34574486733551_2_alg».proof.Proof.Gen.Kernel.Skeleton
import proofs.«116957_j34574486733551_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## The host program around the region -/

/-- Core `c`'s buffer contents when the region is entered: the launch contents after the host lines before it. -/
abbrev V0 (c : Dev nD) : Valuation τ sig (Elt F) := StableHlo.after (List.flatten [hostOps0]) (fun b => m (c, b))
/-- The same read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The host program is its lines before the region, the region, its lines after it: run from the launch memory it
    reduces to the region entered at `V` and continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-! ## The arguments, before and after -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation after the region writes `main_arg3`, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes `main_arg4`, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation after the region writes `main_arg5`, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation after the region writes `main_arg6`, and no window stages it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation after the region writes `main_arg7`, and no window stages it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation after the region writes `main_arg8`, and no window stages it: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host operation after the region writes `main_arg9`, and no window stages it: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host operation after the region writes `main_arg10`, and no window stages it: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No host operation after the region writes `main_arg11`, and no window stages it: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- No host operation after the region writes `main_arg12`, and no window stages it: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- No host operation after the region writes `main_arg13`, and no window stages it: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

/-- No host operation after the region writes `main_arg14`, and no window stages it: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c

/-- No host operation after the region writes `main_arg15`, and no window stages it: it ends as launched. -/
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c

/-- No host operation after the region writes `main_arg16`, and no window stages it: it ends as launched. -/
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c

/-- No host operation after the region writes `main_arg17`, and no window stages it: it ends as launched. -/
theorem W_main_arg17 (dats : (p : Fin _) → (c : Dev nD) → Dat τ (Elt F) Unit ℕ (UR sig nD τ) ℕ (cfgs p) c) (c : Dev nD) :
    Pipeline.afterTail₀ cfgs dats 0 (V0 m) [hostOps1] c main_arg17 = m ((c : Thread nD τ).loc main_arg17) := by
  unfold Pipeline.afterTail₀
  rw [StableHlo.after_of_forall_not_mem (b := Proc.devRef .tc main_arg17) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg17 (by exact (by decide : ∀ w, Pipeline.arrRef spec0 w ≠ main_arg17))]
  exact V_main_arg17 m c

/-- No host operation after the region writes `main_arg18`, and no window stages it: it ends as launched. -/
theorem W_main_arg18 (dats : (p : Fin _) → (c : Dev nD) → Dat τ (Elt F) Unit ℕ (UR sig nD τ) ℕ (cfgs p) c) (c : Dev nD) :
    Pipeline.afterTail₀ cfgs dats 0 (V0 m) [hostOps1] c main_arg18 = m ((c : Thread nD τ).loc main_arg18) := by
  unfold Pipeline.afterTail₀
  rw [StableHlo.after_of_forall_not_mem (b := Proc.devRef .tc main_arg18) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg18 (by exact (by decide : ∀ w, Pipeline.arrRef spec0 w ≠ main_arg18))]
  exact V_main_arg18 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof data
    whose array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not, for any proof data
    whose array is the region-entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not, for any proof data
    whose array is the region-entry contents and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not, for any proof data
    whose array is the region-entry contents and whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run ending with every array of the pipeline at
    what the proof data computes and every other buffer as the later lines leave it, read at the nineteen arguments:
    the three staged ones are inputs, never written back; the other sixteen are touched by no line and no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c),
      ((h c).2 main_arg11 (Pipeline.mem_restRefs_of main_arg11 (by decide) (by decide))).trans (W_main_arg11 m dats c),
      ((h c).2 main_arg12 (Pipeline.mem_restRefs_of main_arg12 (by decide) (by decide))).trans (W_main_arg12 m dats c),
      ((h c).2 main_arg13 (Pipeline.mem_restRefs_of main_arg13 (by decide) (by decide))).trans (W_main_arg13 m dats c),
      ((h c).2 main_arg14 (Pipeline.mem_restRefs_of main_arg14 (by decide) (by decide))).trans (W_main_arg14 m dats c),
      ((h c).2 main_arg15 (Pipeline.mem_restRefs_of main_arg15 (by decide) (by decide))).trans (W_main_arg15 m dats c),
      ((h c).2 main_arg16 (Pipeline.mem_restRefs_of main_arg16 (by decide) (by decide))).trans (W_main_arg16 m dats c),
      ((h c).2 main_arg17 (Pipeline.mem_restRefs_of main_arg17 (by decide) (by decide))).trans (W_main_arg17 m dats c),
      ((h c).2 main_arg18 (Pipeline.mem_restRefs_of main_arg18 (by decide) (by decide))).trans (W_main_arg18 m dats c)⟩) h

end Cert.Kernel.Frame

end
-- ==== Proof.RunK.lean ====
/-
  The cell kernel's program run to its end: the proof data of its one pipeline, the body's obligation at every grid
  point, the run, and the frame.

  The arrays are the region-entry contents; after the body at a point each input buffer still holds its block and the
  two output buffers hold the new hidden and cell blocks of the nine input blocks at that point; the body needs
  nothing else, owes no one, and holds every buffer whole.
-/
import proofs.«116957_j34574486733551_2_alg».proof.Proof.BodyK
import proofs.«116957_j34574486733551_2_alg».proof.Proof.MainK

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
    | ⟨10, _⟩ => out0_10 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body's obligation to the pipeline, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the host program terminates, and every final
    state has every array of the pipeline at what the proof data computes and every other unscoped buffer as the
    lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to its end and its nineteen argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Frame

end
-- ==== Proof.BodyTermsKI.lean ====
/-
  What the cell kernel's body stores, as two pure functions of the nine input blocks.

  The body reads the node rows' block `x0` [256,512], the children's hidden and cell blocks `x1`, `x2` [256,8,512]
  (child `k` through the rectangle at offset (0,k,0) of extent [256,1,512]), the four gates' input weights side by
  side `x3` [512,2048] with their biases `x4` [1,2048], the three node gates' recurrent weights side by side `x5`
  [512,1536] with their biases `x6` [1,1536], and the forget gate's recurrent weights `x7` [512,512] with bias `x8`
  [1,512]. It stores the new hidden block (`hTerm`) and the new cell block (`cTerm`), each [256,512], once, whole.
  The two terms compose the generated payload names in the order the body's parts hand values on: the projections
  of the node rows (`xWi` … `xWf`), the running sum of the children's hidden rows and the running forget-weighted sum
  of their cell rows after children 0, 0–3, 0–6, and the last child inside the final payloads.
-/
import proofs.«116957_j34574486733551_2_alg».proof.Proof.Gen.KernelIdeal.Skeleton
import Idealize.ShloMosaic.Lib.Pipeline.FrameBody

noncomputable section

namespace Cert.KernelIdeal.Body

open Idealize.ShloMosaic Idealize.SL.Sem Cert.KernelIdeal Cert.KernelIdeal.Gen

variable {F : FTy → Type} [FloatOps F]

/-! ## The body's rectangles -/

/-- The whole [256,512] block. -/
abbrev rX : Rect S256x512 := Rect.unit (s := S256x512) ![0, 0] S256x512.size inb_S256x512_S256x512_0_0
/-- The whole [512,2048] block. -/
abbrev rW : Rect S512x2048 := Rect.unit (s := S512x2048) ![0, 0] S512x2048.size inb_S512x2048_S512x2048_0_0
/-- The whole [1,2048] block. -/
abbrev rbW : Rect S1x2048 := Rect.unit (s := S1x2048) ![0, 0] S1x2048.size inb_S1x2048_S1x2048_0_0
/-- The whole [512,1536] block. -/
abbrev rU : Rect S512x1536 := Rect.unit (s := S512x1536) ![0, 0] S512x1536.size inb_S512x1536_S512x1536_0_0
/-- The whole [1,1536] block. -/
abbrev rbU : Rect S1x1536 := Rect.unit (s := S1x1536) ![0, 0] S1x1536.size inb_S1x1536_S1x1536_0_0
/-- The whole [512,512] block. -/
abbrev rUf : Rect S512x512 := Rect.unit (s := S512x512) ![0, 0] S512x512.size inb_S512x512_S512x512_0_0
/-- The whole [1,512] block. -/
abbrev rbUf : Rect S1x512 := Rect.unit (s := S1x512) ![0, 0] S1x512.size inb_S1x512_S1x512_0_0
/-- Child `k`'s [256,1,512] slab of a [256,8,512] block. -/
abbrev rK0 : Rect S256x8x512 := Rect.unit (s := S256x8x512) ![0, 0, 0] S256x1x512.size inb_S256x8x512_S256x1x512_0_0_0
abbrev rK1 : Rect S256x8x512 := Rect.unit (s := S256x8x512) ![0, 1, 0] S256x1x512.size inb_S256x8x512_S256x1x512_0_1_0
abbrev rK2 : Rect S256x8x512 := Rect.unit (s := S256x8x512) ![0, 2, 0] S256x1x512.size inb_S256x8x512_S256x1x512_0_2_0
abbrev rK3 : Rect S256x8x512 := Rect.unit (s := S256x8x512) ![0, 3, 0] S256x1x512.size inb_S256x8x512_S256x1x512_0_3_0
abbrev rK4 : Rect S256x8x512 := Rect.unit (s := S256x8x512) ![0, 4, 0] S256x1x512.size inb_S256x8x512_S256x1x512_0_4_0
abbrev rK5 : Rect S256x8x512 := Rect.unit (s := S256x8x512) ![0, 5, 0] S256x1x512.size inb_S256x8x512_S256x1x512_0_5_0
abbrev rK6 : Rect S256x8x512 := Rect.unit (s := S256x8x512) ![0, 6, 0] S256x1x512.size inb_S256x8x512_S256x1x512_0_6_0
abbrev rK7 : Rect S256x8x512 := Rect.unit (s := S256x8x512) ![0, 7, 0] S256x1x512.size inb_S256x8x512_S256x1x512_0_7_0

variable (x0 : Vec F S256x512 .f32) (x1 x2 : Vec F S256x8x512 .f32) (x3 : Vec F S512x2048 .bf16) (x4 : Vec F S1x2048 .f32)
  (x5 : Vec F S512x1536 .bf16) (x6 : Vec F S1x1536 .f32) (x7 : Vec F S512x512 .bf16) (x8 : Vec F S1x512 .f32)

/-! ## The values the body's parts hand on -/

/-- The node rows through the input gate's weights, plus its bias. -/
def xWi : FVec F S256x512 .f32 := k0_pay5 (View.ld x0 rX) (View.ld x3 rW) (View.ld x4 rbW)
/-- The node rows through the output gate's weights, plus its bias. -/
def xWo : FVec F S256x512 .f32 := k0_pay6 (View.ld x0 rX) (View.ld x3 rW) (View.ld x4 rbW)
/-- The node rows through the update gate's weights, plus its bias. -/
def xWu : FVec F S256x512 .f32 := k0_pay7 (View.ld x0 rX) (View.ld x3 rW) (View.ld x4 rbW)
/-- The node rows through the forget gate's weights, plus its bias. -/
def xWf : FVec F S256x512 .f32 := k0_pay8 (View.ld x0 rX) (View.ld x3 rW) (View.ld x4 rbW)
/-- The forget gate's recurrent weights as loaded. -/
def uf : FVec F S512x512 .bf16 := k0_pay9 (View.ld x7 rUf)
/-- The forget gate's recurrent bias as loaded. -/
def buf : FVec F S1x512 .f32 := k0_pay10 (View.ld x8 rbUf)
/-- The children's hidden rows summed over child 0. -/
def hsum0 : FVec F S256x512 .f32 := k0_pay12 (View.ld x1 rK0)
/-- The forget-weighted cell rows summed over child 0. -/
def cf0 : FVec F S256x512 .f32 :=
  k0_pay13 (View.ld x0 rX) (View.ld x3 rW) (View.ld x4 rbW) (View.ld x7 rUf) (View.ld x8 rbUf) (View.ld x1 rK0) (View.ld x2 rK0)
/-- Child 1's hidden rows. -/
def kid1 : FVec F S256x512 .f32 := k0_pay14 (View.ld x1 rK1)
/-- The children's hidden rows summed over children 0–3. -/
def hsum3 : FVec F S256x512 .f32 := k0_pay17 (hsum0 x1) (kid1 x1) (View.ld x1 rK2) (View.ld x1 rK3)
/-- The forget-weighted cell rows summed over children 0–3. -/
def cf3 : FVec F S256x512 .f32 :=
  k0_pay18 (xWf x0 x3 x4) (uf x7) (buf x8) (cf0 x0 x1 x2 x3 x4 x7 x8) (kid1 x1) (View.ld x2 rK1) (View.ld x1 rK2) (View.ld x2 rK2)
    (View.ld x1 rK3) (View.ld x2 rK3)
/-- Child 4's hidden rows. -/
def kid4 : FVec F S256x512 .f32 := k0_pay19 (View.ld x1 rK4)
/-- The children's hidden rows summed over children 0–6. -/
def hsum6 : FVec F S256x512 .f32 := k0_pay22 (hsum3 x1) (kid4 x1) (View.ld x1 rK5) (View.ld x1 rK6)
/-- The forget-weighted cell rows summed over children 0–6. -/
def cf6 : FVec F S256x512 .f32 :=
  k0_pay23 (xWf x0 x3 x4) (uf x7) (buf x8) (cf3 x0 x1 x2 x3 x4 x7 x8) (kid4 x1) (View.ld x2 rK4) (View.ld x1 rK5) (View.ld x2 rK5)
    (View.ld x1 rK6) (View.ld x2 rK6)
/-- Child 7's hidden rows. -/
def kid7 : FVec F S256x512 .f32 := k0_pay24 (View.ld x1 rK7)

/-! ## The two stored blocks -/

/-- The new cell block the body stores. -/
def cTerm : Vec F S256x512 .f32 :=
  k0_pay2 (xWi x0 x3 x4) (xWu x0 x3 x4) (xWf x0 x3 x4) (uf x7) (buf x8) (hsum6 x1) (cf6 x0 x1 x2 x3 x4 x7 x8) (kid7 x1)
    (View.ld x2 rK7) (View.ld x5 rU) (View.ld x6 rbU)

/-- The new hidden block the body stores. -/
def hTerm : Vec F S256x512 .f32 :=
  k0_pay3 (xWi x0 x3 x4) (xWo x0 x3 x4) (xWu x0 x3 x4) (xWf x0 x3 x4) (uf x7) (buf x8) (hsum6 x1) (cf6 x0 x1 x2 x3 x4 x7 x8) (kid7 x1)
    (View.ld x2 rK7) (View.ld x5 rU) (View.ld x6 rbU)

end Cert.KernelIdeal.Body

end
-- ==== Proof.BodyKI.lean ====
/-
  The cell kernel's body as a triple: run on whole staging buffers holding the nine input blocks, it leaves the
  inputs as they were and the two output buffers at the new hidden block and the new cell block, whatever the output
  buffers held before. Each output buffer is stored once through the rectangle of the whole block, so what it holds
  afterwards is the stored value alone.
-/
import proofs.«116957_j34574486733551_2_alg».proof.Proof.Gen.KernelIdeal.Launch
import proofs.«116957_j34574486733551_2_alg».proof.Proof.Gen.KernelIdeal.Skeleton
import proofs.«116957_j34574486733551_2_alg».proof.Proof.Gen.KernelIdeal.Points
import proofs.«116957_j34574486733551_2_alg».proof.Proof.BodyTermsKI
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body

variable {F : FTy → Type} [FloatOps F]

local notation "𝕄" => MT nD τ sig Unit (Elt F) ℕ (UR sig nD τ) ℕ

/-! ## What the body leaves in each output buffer -/

/-- The hidden-state output buffer after the body: its one store, of the new hidden block, through the whole block. -/
def out0_9 (x0 : Vec F S256x512 .f32) (x1 x2 : Vec F S256x8x512 .f32) (x3 : Vec F S512x2048 .bf16) (x4 : Vec F S1x2048 .f32) (x5 : Vec F S512x1536 .bf16) (x6 : Vec F S1x1536 .f32) (x7 : Vec F S512x512 .bf16) (x8 : Vec F S1x512 .f32) : Vec F S256x512 .f32 :=
  View.canon [⟨rX, hTerm x0 x1 x2 x3 x4 x5 x6 x7 x8⟩]

/-- The cell-state output buffer after the body: its one store, of the new cell block, through the whole block. -/
def out0_10 (x0 : Vec F S256x512 .f32) (x1 x2 : Vec F S256x8x512 .f32) (x3 : Vec F S512x2048 .bf16) (x4 : Vec F S1x2048 .f32) (x5 : Vec F S512x1536 .bf16) (x6 : Vec F S1x1536 .f32) (x7 : Vec F S512x512 .bf16) (x8 : Vec F S1x512 .f32) : Vec F S256x512 .f32 :=
  View.canon [⟨rX, cTerm x0 x1 x2 x3 x4 x5 x6 x7 x8⟩]

/-- One store through the whole block covers the buffer. -/
theorem cover_out (p0 : Vec F S256x512 .f32) (y : S256x512.Idx) :
    ∃ pc ∈ ([⟨rX, p0⟩] : List (View.Piece (Elt F) S256x512 .f32)), y ∈ pc.1.set :=
  View.cover_of_tiled [⟨rX, p0⟩] S256x512.size (by rfl) y

/-! ## The body's triple -/

set_option maxHeartbeats 4000000 in
/-- The body on whole staging buffers, the inputs' at contents reading `x0` … `x8` and the outputs' at anything, runs to
    the continuation holding the inputs' as they were and the outputs' at the new hidden and cell blocks. -/
theorem sound_kernel (c : Dev nD) (E : Set ℕ) (i : grid0.Coords) (arg1 : Memref sig .tc .vmem S256x512 .f32) (harg1 : arg1.IsWhole) (arg2 : Memref sig .tc .vmem S256x8x512 .f32) (harg2 : arg2.IsWhole) (arg3 : Memref sig .tc .vmem S256x8x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S512x1536 .bf16) (harg6 : arg6.IsWhole) (arg7 : Memref sig .tc .vmem S1x1536 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S256x512 .f32) (harg10 : arg10.IsWhole) (arg11 : Memref sig .tc .vmem S256x512 .f32) (harg11 : arg11.IsWhole)
    (x0 : Vec F S256x512 .f32) (x1 x2 : Vec F S256x8x512 .f32) (x3 : Vec F S512x2048 .bf16) (x4 : Vec F S1x2048 .f32) (x5 : Vec F S512x1536 .bf16) (x6 : Vec F S1x1536 .f32) (x7 : Vec F S512x512 .bf16) (x8 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out0_9 x0 x1 x2 x3 x4 x5 x6 x7 x8) ∗ owns (c : Thread nD τ) arg11 fullShare (out0_10 x0 x1 x2 x3 x4 x5 x6 x7 x8)) -∗ K ⟨⟩))
      ⊢ wp frame (wpE (defs₀ (F := F)) Variants.none c none) E (cc0__cell_kernel i arg1 harg1 arg2 harg2 arg3 harg3 arg4 harg4 arg5 harg5 arg6 harg6 arg7 harg7 arg8 harg8 arg9 harg9 arg10 harg10 arg11 harg11) K := by
  simp only [cc0__cell_kernel_eq_skeleton]; unfold cc0__cell_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover_out _)
  iexists _; isplitr
  swap; · iexact H10
  ipureintro
  exact View.read_writes_eq_canon _ _ _ (cover_out _)

end Cert.KernelIdeal.Frame

end
-- ==== Proof.MainKI.lean ====
/-
  The host program around the cell kernel's one region, for any proof data of the pipeline.

  Before the region the host lays the four gates' input weights side by side and casts them to bf16, lays their biases
  end to end as one row, does the same for the three node gates' recurrent weights and biases, and casts / reshapes
  the forget gate's; after it, it stacks the two results. None of these lines writes an argument array, and none of
  the later lines writes an array of the pipeline; so every argument is found by the region as launched and ends as
  launched, and an input window's staging buffer holds, at every grid point, the block of its array that the
  point's index names — whether the point fetched it or an earlier one did (the weights' index never moves).
-/
import proofs.«116957_j34574486733551_2_alg».proof.Proof.Gen.KernelIdeal.Launch
import proofs.«116957_j34574486733551_2_alg».proof.Proof.Gen.KernelIdeal.Skeleton
import proofs.«116957_j34574486733551_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## The host program around the region -/

/-- Core `c`'s buffer contents when the region is entered: the launch contents after the host lines before it. -/
abbrev V0 (c : Dev nD) : Valuation τ sig (Elt F) := StableHlo.after (List.flatten [hostOps0]) (fun b => m (c, b))
/-- The same read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The host program is its lines before the region, the region, its lines after it: run from the launch memory it
    reduces to the region entered at `V` and continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-! ## The arguments, before and after -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation after the region writes `main_arg3`, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes `main_arg4`, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation after the region writes `main_arg5`, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation after the region writes `main_arg6`, and no window stages it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation after the region writes `main_arg7`, and no window stages it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation after the region writes `main_arg8`, and no window stages it: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host operation after the region writes `main_arg9`, and no window stages it: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host operation after the region writes `main_arg10`, and no window stages it: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No host operation after the region writes `main_arg11`, and no window stages it: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- No host operation after the region writes `main_arg12`, and no window stages it: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- No host operation after the region writes `main_arg13`, and no window stages it: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

/-- No host operation after the region writes `main_arg14`, and no window stages it: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c

/-- No host operation after the region writes `main_arg15`, and no window stages it: it ends as launched. -/
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c

/-- No host operation after the region writes `main_arg16`, and no window stages it: it ends as launched. -/
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c

/-- No host operation after the region writes `main_arg17`, and no window stages it: it ends as launched. -/
theorem W_main_arg17 (dats : (p : Fin _) → (c : Dev nD) → Dat τ (Elt F) Unit ℕ (UR sig nD τ) ℕ (cfgs p) c) (c : Dev nD) :
    Pipeline.afterTail₀ cfgs dats 0 (V0 m) [hostOps1] c main_arg17 = m ((c : Thread nD τ).loc main_arg17) := by
  unfold Pipeline.afterTail₀
  rw [StableHlo.after_of_forall_not_mem (b := Proc.devRef .tc main_arg17) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg17 (by exact (by decide : ∀ w, Pipeline.arrRef spec0 w ≠ main_arg17))]
  exact V_main_arg17 m c

/-- No host operation after the region writes `main_arg18`, and no window stages it: it ends as launched. -/
theorem W_main_arg18 (dats : (p : Fin _) → (c : Dev nD) → Dat τ (Elt F) Unit ℕ (UR sig nD τ) ℕ (cfgs p) c) (c : Dev nD) :
    Pipeline.afterTail₀ cfgs dats 0 (V0 m) [hostOps1] c main_arg18 = m ((c : Thread nD τ).loc main_arg18) := by
  unfold Pipeline.afterTail₀
  rw [StableHlo.after_of_forall_not_mem (b := Proc.devRef .tc main_arg18) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg18 (by exact (by decide : ∀ w, Pipeline.arrRef spec0 w ≠ main_arg18))]
  exact V_main_arg18 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof data
    whose array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not, for any proof data
    whose array is the region-entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not, for any proof data
    whose array is the region-entry contents and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not, for any proof data
    whose array is the region-entry contents and whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run ending with every array of the pipeline at
    what the proof data computes and every other buffer as the later lines leave it, read at the nineteen arguments:
    the three staged ones are inputs, never written back; the other sixteen are touched by no line and no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c),
      ((h c).2 main_arg11 (Pipeline.mem_restRefs_of main_arg11 (by decide) (by decide))).trans (W_main_arg11 m dats c),
      ((h c).2 main_arg12 (Pipeline.mem_restRefs_of main_arg12 (by decide) (by decide))).trans (W_main_arg12 m dats c),
      ((h c).2 main_arg13 (Pipeline.mem_restRefs_of main_arg13 (by decide) (by decide))).trans (W_main_arg13 m dats c),
      ((h c).2 main_arg14 (Pipeline.mem_restRefs_of main_arg14 (by decide) (by decide))).trans (W_main_arg14 m dats c),
      ((h c).2 main_arg15 (Pipeline.mem_restRefs_of main_arg15 (by decide) (by decide))).trans (W_main_arg15 m dats c),
      ((h c).2 main_arg16 (Pipeline.mem_restRefs_of main_arg16 (by decide) (by decide))).trans (W_main_arg16 m dats c),
      ((h c).2 main_arg17 (Pipeline.mem_restRefs_of main_arg17 (by decide) (by decide))).trans (W_main_arg17 m dats c),
      ((h c).2 main_arg18 (Pipeline.mem_restRefs_of main_arg18 (by decide) (by decide))).trans (W_main_arg18 m dats c)⟩) h

end Cert.KernelIdeal.Frame

end
-- ==== Proof.RunKI.lean ====
/-
  The cell kernel's program run to its end: the proof data of its one pipeline, the body's obligation at every grid
  point, the run, and the frame.

  The arrays are the region-entry contents; after the body at a point each input buffer still holds its block and the
  two output buffers hold the new hidden and cell blocks of the nine input blocks at that point; the body needs
  nothing else, owes no one, and holds every buffer whole.
-/
import proofs.«116957_j34574486733551_2_alg».proof.Proof.BodyKI
import proofs.«116957_j34574486733551_2_alg».proof.Proof.MainKI

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
    | ⟨10, _⟩ => out0_10 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body's obligation to the pipeline, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the host program terminates, and every final
    state has every array of the pipeline at what the proof data computes and every other unscoped buffer as the
    lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to its end and its nineteen argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Frame

end
-- ==== Proof.LibStack3.lean ====
import Idealize.ShloMosaic.Lib.StableHlo.Run
import Idealize.ShloMosaic.Lib.Pipeline.Value
import Idealize.ShloMosaic.Lib.ValueIdx
import Idealize.ShloMosaic.Lib.ValueLayout

/-!
# Three arrays stacked along a new leading axis, and a member sliced back out, read at an index

General facts about the host operations `jnp.stack` of three arrays and the slicing of one member lower to, over any
element type and any extents:

* an `[m, a, b]` array reshaped to `[m·a, b]` reads, at `(r, j)` with `r = n · a + i`, the operand at `(n, i, j)`, and
  the reshape back reads the other way; a `[p, b]` array reshaped to `[p, 1, b]` reads the operand at `(p, d)`;
* an `[a, b]` array (a `[b]` vector) given a leading unit axis reads the operand at the remaining coordinates;
* member `p` of a `[P, a, b]` array sliced out as `[1, a, b]` reads, at `(0, r, d)`, the array at `(p, r, d)`;
* the concatenation of three `[1, a, b]` (or `[1, b]`) pieces along axis 0 reads, at leading coordinate `0`, `1`, `2`,
  the first, second, third piece;
* a host operation of THREE operands has, as its result, its function of the three operands' contents each read at its
  own reference (`nary3_result`), so that a stretch of host operations containing such a concatenation still rewrites,
  operation by operation, to one composed term over the contents the stretch is entered from (`host_results`).
-/

noncomputable section

namespace Cert.Stack3

open Idealize.ShloMosaic Idealize.ShloMosaic.ValueIdx

/-! ## Layout operations at explicit coordinates -/

section Layout
variable {α : Type}

/-- An `[m, a, b]` array reshaped to `[M, b]` reads, at `(r, j)` with `r = n · a + i`, the operand at `(n, i, j)`:
    the two indices have the same row-major position. -/
theorem shapeCast_mab_Mb_apply {m a b M : ℕ} (x : (⟨3, ![m, a, b]⟩ : Shape).Idx → α)
    (h : (⟨3, ![m, a, b]⟩ : Shape).ShapeCasts ⟨2, ![M, b]⟩) (n : Fin m) (i : Fin a) (j : Fin b) (r : Fin M)
    (hr : r.val = n.val * a + i.val) : shapeCast ⟨2, ![M, b]⟩ x h (ix2 r j) = x (ix3 n i j) :=
  shapeCast_apply x h _ _ (by
    rw [Shape.rowMajor_val_three, Shape.rowMajor_val_two]
    show (n.val * a + i.val) * b + j.val = r.val * b + j.val
    rw [hr])

/-- An `[M, b]` array reshaped to `[m, a, b]` reads, at `(n, i, j)`, the operand at `(r, j)` with `r = n · a + i`. -/
theorem shapeCast_Mb_mab_apply {m a b M : ℕ} (x : (⟨2, ![M, b]⟩ : Shape).Idx → α)
    (h : (⟨2, ![M, b]⟩ : Shape).ShapeCasts ⟨3, ![m, a, b]⟩) (n : Fin m) (i : Fin a) (j : Fin b) (r : Fin M)
    (hr : r.val = n.val * a + i.val) : shapeCast ⟨3, ![m, a, b]⟩ x h (ix3 n i j) = x (ix2 r j) :=
  shapeCast_apply x h _ _ (by
    rw [Shape.rowMajor_val_three, Shape.rowMajor_val_two]
    show r.val * b + j.val = (n.val * a + i.val) * b + j.val
    rw [hr])

/-- A `[p, b]` array reshaped to `[p, 1, b]` reads, at `(q, u, d)`, the operand at `(q, d)`. -/
theorem shapeCast_pb_p1b_apply {p b : ℕ} (x : (⟨2, ![p, b]⟩ : Shape).Idx → α)
    (h : (⟨2, ![p, b]⟩ : Shape).ShapeCasts ⟨3, ![p, 1, b]⟩) (q : Fin p) (u : Fin 1) (d : Fin b) :
    shapeCast ⟨3, ![p, 1, b]⟩ x h (ix3 q u d) = x (ix2 q d) :=
  shapeCast_apply x h _ _ (by
    have hu : u.val = 0 := by omega
    rw [Shape.rowMajor_val_three, Shape.rowMajor_val_two]
    show q.val * b + d.val = (q.val * 1 + u.val) * b + d.val
    rw [hu, Nat.mul_one, Nat.add_zero])

/-- An `[a, b]` array broadcast to `[1, a, b]` along its two axes reads, at `(u, i, j)`, the operand at `(i, j)`. -/
theorem broadcastInDim_ab_1ab_apply {a b : ℕ} (x : (⟨2, ![a, b]⟩ : Shape).Idx → α)
    (h : (⟨2, ![a, b]⟩ : Shape).BroadcastsInDim ⟨3, ![1, a, b]⟩ ![1, 2]) (u : Fin 1) (i : Fin a) (j : Fin b) :
    broadcastInDim ⟨3, ![1, a, b]⟩ ![1, 2] h x (ix3 u i j) = x (ix2 i j) := by
  refine broadcastInDim_apply ![1, 2] h x (ix3 u i j) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- A `[b]` vector broadcast to `[1, b]` along its axis reads, at `(u, j)`, the operand at `j`. -/
theorem broadcastInDim_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply ![1] h x (ix2 u j) (ix1 j) fun ax => ?_
  match ax with
  | ⟨0, _⟩ =>
    show j.val = if b = 1 then 0 else j.val
    split
    · have := j.isLt; omega
    · rfl

/-- Member `p` of a `[P, a, b]` array sliced out as `[1, a, b]` reads, at `(u, i, j)`, the operand at `(p, i, j)`. -/
theorem slice_member_apply {P a b : ℕ} (p : Fin P) (x : (⟨3, ![P, a, b]⟩ : Shape).Idx → α)
    (h : (⟨3, ![P, a, b]⟩ : Shape).Slices ![p.val, 0, 0] ⟨3, ![1, a, b]⟩) (u : Fin 1) (i : Fin a) (j : Fin b) :
    extractStridedSlice ⟨3, ![1, a, b]⟩ ![p.val, 0, 0] x h (ix3 u i j) = x (ix3 p i j) := by
  refine extractStridedSlice_apply ![p.val, 0, 0] x h (ix3 u i j) (ix3 p i j) fun ax => ?_
  match ax with
  | ⟨0, _⟩ => show p.val = p.val + u.val; omega
  | ⟨1, _⟩ => show i.val = 0 + i.val; omega
  | ⟨2, _⟩ => show j.val = 0 + j.val; omega

/-- Three `[1, a, b]` pieces concatenated along the leading axis into `[3, a, b]`: member 0 is the first piece. -/
theorem concat3_1ab_apply_0 {a b : ℕ} (x0 x1 x2 : (⟨3, ![1, a, b]⟩ : Shape).Idx → α)
    (h : Shape.Concatenates (([⟨⟨3, ![1, a, b]⟩, x0⟩, ⟨⟨3, ![1, a, b]⟩, x1⟩, ⟨⟨3, ![1, a, b]⟩, x2⟩] :
      List ((s : Shape) × (s.Idx → α))).map (·.1)) ⟨3, ![3, a, b]⟩ 0) (i : Fin a) (j : Fin b) :
    concatenate ⟨3, ![3, a, b]⟩ 0 [⟨⟨3, ![1, a, b]⟩, x0⟩, ⟨⟨3, ![1, a, b]⟩, x1⟩, ⟨⟨3, ![1, a, b]⟩, x2⟩] h (ix3 (0 : Fin 3) i j)
      = x0 (ix3 (0 : Fin 1) i j) := by
  refine concatenate_apply_piece (t := ⟨3, ![3, a, b]⟩) (0 : Fin 3) [⟨⟨3, ![1, a, b]⟩, x0⟩, ⟨⟨3, ![1, a, b]⟩, x1⟩, ⟨⟨3, ![1, a, b]⟩, x2⟩] h (ix3 (0 : Fin 3) i j)
    0 (by show 0 < 3; decide) ⟨3, ![1, a, b]⟩ x0 rfl rfl 0 rfl (ix3 (0 : Fin 1) i j) (fun c hc => ?_) rfl
  match c, hc with
  | ⟨0, _⟩, hc => exact absurd rfl hc
  | ⟨1, _⟩, _ => rfl
  | ⟨2, _⟩, _ => rfl

/-- Three `[1, a, b]` pieces concatenated along the leading axis into `[3, a, b]`: member 1 is the second piece. -/
theorem concat3_1ab_apply_1 {a b : ℕ} (x0 x1 x2 : (⟨3, ![1, a, b]⟩ : Shape).Idx → α)
    (h : Shape.Concatenates (([⟨⟨3, ![1, a, b]⟩, x0⟩, ⟨⟨3, ![1, a, b]⟩, x1⟩, ⟨⟨3, ![1, a, b]⟩, x2⟩] :
      List ((s : Shape) × (s.Idx → α))).map (·.1)) ⟨3, ![3, a, b]⟩ 0) (i : Fin a) (j : Fin b) :
    concatenate ⟨3, ![3, a, b]⟩ 0 [⟨⟨3, ![1, a, b]⟩, x0⟩, ⟨⟨3, ![1, a, b]⟩, x1⟩, ⟨⟨3, ![1, a, b]⟩, x2⟩] h (ix3 (1 : Fin 3) i j)
      = x1 (ix3 (0 : Fin 1) i j) := by
  refine concatenate_apply_piece (t := ⟨3, ![3, a, b]⟩) (0 : Fin 3) [⟨⟨3, ![1, a, b]⟩, x0⟩, ⟨⟨3, ![1, a, b]⟩, x1⟩, ⟨⟨3, ![1, a, b]⟩, x2⟩] h (ix3 (1 : Fin 3) i j)
    1 (by show 1 < 3; decide) ⟨3, ![1, a, b]⟩ x1 rfl rfl 1 rfl (ix3 (0 : Fin 1) i j) (fun c hc => ?_) rfl
  match c, hc with
  | ⟨0, _⟩, hc => exact absurd rfl hc
  | ⟨1, _⟩, _ => rfl
  | ⟨2, _⟩, _ => rfl

/-- Three `[1, a, b]` pieces concatenated along the leading axis into `[3, a, b]`: member 2 is the third piece. -/
theorem concat3_1ab_apply_2 {a b : ℕ} (x0 x1 x2 : (⟨3, ![1, a, b]⟩ : Shape).Idx → α)
    (h : Shape.Concatenates (([⟨⟨3, ![1, a, b]⟩, x0⟩, ⟨⟨3, ![1, a, b]⟩, x1⟩, ⟨⟨3, ![1, a, b]⟩, x2⟩] :
      List ((s : Shape) × (s.Idx → α))).map (·.1)) ⟨3, ![3, a, b]⟩ 0) (i : Fin a) (j : Fin b) :
    concatenate ⟨3, ![3, a, b]⟩ 0 [⟨⟨3, ![1, a, b]⟩, x0⟩, ⟨⟨3, ![1, a, b]⟩, x1⟩, ⟨⟨3, ![1, a, b]⟩, x2⟩] h (ix3 (2 : Fin 3) i j)
      = x2 (ix3 (0 : Fin 1) i j) := by
  refine concatenate_apply_piece (t := ⟨3, ![3, a, b]⟩) (0 : Fin 3) [⟨⟨3, ![1, a, b]⟩, x0⟩, ⟨⟨3, ![1, a, b]⟩, x1⟩, ⟨⟨3, ![1, a, b]⟩, x2⟩] h (ix3 (2 : Fin 3) i j)
    2 (by show 2 < 3; decide) ⟨3, ![1, a, b]⟩ x2 rfl rfl 2 rfl (ix3 (0 : Fin 1) i j) (fun c hc => ?_) rfl
  match c, hc with
  | ⟨0, _⟩, hc => exact absurd rfl hc
  | ⟨1, _⟩, _ => rfl
  | ⟨2, _⟩, _ => rfl

/-- Three `[1, b]` rows concatenated along the leading axis into `[3, b]`: row 0 is the first piece. -/
theorem concat3_1b_apply_0 {b : ℕ} (x0 x1 x2 : (⟨2, ![1, b]⟩ : Shape).Idx → α)
    (h : Shape.Concatenates (([⟨⟨2, ![1, b]⟩, x0⟩, ⟨⟨2, ![1, b]⟩, x1⟩, ⟨⟨2, ![1, b]⟩, x2⟩] :
      List ((s : Shape) × (s.Idx → α))).map (·.1)) ⟨2, ![3, b]⟩ 0) (j : Fin b) :
    concatenate ⟨2, ![3, b]⟩ 0 [⟨⟨2, ![1, b]⟩, x0⟩, ⟨⟨2, ![1, b]⟩, x1⟩, ⟨⟨2, ![1, b]⟩, x2⟩] h (ix2 (0 : Fin 3) j)
      = x0 (ix2 (0 : Fin 1) j) := by
  refine concatenate_apply_piece (t := ⟨2, ![3, b]⟩) (0 : Fin 2) [⟨⟨2, ![1, b]⟩, x0⟩, ⟨⟨2, ![1, b]⟩, x1⟩, ⟨⟨2, ![1, b]⟩, x2⟩] h (ix2 (0 : Fin 3) j)
    0 (by show 0 < 3; decide) ⟨2, ![1, b]⟩ x0 rfl rfl 0 rfl (ix2 (0 : Fin 1) j) (fun c hc => ?_) rfl
  match c, hc with
  | ⟨0, _⟩, hc => exact absurd rfl hc
  | ⟨1, _⟩, _ => rfl

/-- Three `[1, b]` rows concatenated along the leading axis into `[3, b]`: row 1 is the second piece. -/
theorem concat3_1b_apply_1 {b : ℕ} (x0 x1 x2 : (⟨2, ![1, b]⟩ : Shape).Idx → α)
    (h : Shape.Concatenates (([⟨⟨2, ![1, b]⟩, x0⟩, ⟨⟨2, ![1, b]⟩, x1⟩, ⟨⟨2, ![1, b]⟩, x2⟩] :
      List ((s : Shape) × (s.Idx → α))).map (·.1)) ⟨2, ![3, b]⟩ 0) (j : Fin b) :
    concatenate ⟨2, ![3, b]⟩ 0 [⟨⟨2, ![1, b]⟩, x0⟩, ⟨⟨2, ![1, b]⟩, x1⟩, ⟨⟨2, ![1, b]⟩, x2⟩] h (ix2 (1 : Fin 3) j)
      = x1 (ix2 (0 : Fin 1) j) := by
  refine concatenate_apply_piece (t := ⟨2, ![3, b]⟩) (0 : Fin 2) [⟨⟨2, ![1, b]⟩, x0⟩, ⟨⟨2, ![1, b]⟩, x1⟩, ⟨⟨2, ![1, b]⟩, x2⟩] h (ix2 (1 : Fin 3) j)
    1 (by show 1 < 3; decide) ⟨2, ![1, b]⟩ x1 rfl rfl 1 rfl (ix2 (0 : Fin 1) j) (fun c hc => ?_) rfl
  match c, hc with
  | ⟨0, _⟩, hc => exact absurd rfl hc
  | ⟨1, _⟩, _ => rfl

/-- Three `[1, b]` rows concatenated along the leading axis into `[3, b]`: row 2 is the third piece. -/
theorem concat3_1b_apply_2 {b : ℕ} (x0 x1 x2 : (⟨2, ![1, b]⟩ : Shape).Idx → α)
    (h : Shape.Concatenates (([⟨⟨2, ![1, b]⟩, x0⟩, ⟨⟨2, ![1, b]⟩, x1⟩, ⟨⟨2, ![1, b]⟩, x2⟩] :
      List ((s : Shape) × (s.Idx → α))).map (·.1)) ⟨2, ![3, b]⟩ 0) (j : Fin b) :
    concatenate ⟨2, ![3, b]⟩ 0 [⟨⟨2, ![1, b]⟩, x0⟩, ⟨⟨2, ![1, b]⟩, x1⟩, ⟨⟨2, ![1, b]⟩, x2⟩] h (ix2 (2 : Fin 3) j)
      = x2 (ix2 (0 : Fin 1) j) := by
  refine concatenate_apply_piece (t := ⟨2, ![3, b]⟩) (0 : Fin 2) [⟨⟨2, ![1, b]⟩, x0⟩, ⟨⟨2, ![1, b]⟩, x1⟩, ⟨⟨2, ![1, b]⟩, x2⟩] h (ix2 (2 : Fin 3) j)
    2 (by show 2 < 3; decide) ⟨2, ![1, b]⟩ x2 rfl rfl 2 rfl (ix2 (0 : Fin 1) j) (fun c hc => ?_) rfl
  match c, hc with
  | ⟨0, _⟩, hc => exact absurd rfl hc
  | ⟨1, _⟩, _ => rfl

end Layout

/-! ## A three-operand host operation's result -/

/-- A three-operand operation's result with each operand's contents at its own reference. -/
theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (V : Valuation τ sig Val) :
    (StableHlo.nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]; congr 1; funext k; fin_cases k <;> rfl

/-- Rewrites a stretch's result at one reference to the operations' composed term over the entry contents. -/
macro "host_results" : tactic =>
  `(tactic| (simp only [StableHlo.after_cons, StableHlo.after_nil]
             repeat (first
               | rw [nary3_result] | rw [StableHlo.unary_result] | rw [StableHlo.reshape_result]
               | (rw [StableHlo.unary_result_ne]; rotate_left; decide)
               | (rw [StableHlo.reshape_result_ne]; rotate_left; decide)
               | (rw [StableHlo.nary_result_ne]; rotate_left; decide))))

end Cert.Stack3

end
-- ==== Proof.HostPrefixKI.lean ====
/-
  What the region finds in the six buffers the host packs before it, at the ideal instance, as terms over the launch
  memory: the four gates' input weights side by side (cast to bf16), their biases end to end as one row, the three
  node gates' recurrent weights and biases likewise, and the forget gate's recurrent weights (cast) and bias (as a row).
  Each is the host lines' composed function of the argument arrays as launched.
-/
import proofs.«116957_j34574486733551_2_alg».proof.Proof.MainKI
import proofs.«116957_j34574486733551_2_alg».proof.Proof.LibStack3
import Idealize.ShloMosaic.Lib.StableHlo.Run
import Idealize.ShloMosaic.PureOps.Ideal

set_option maxRecDepth 16384

noncomputable section

namespace Cert.KernelIdeal.Frame

open Idealize.ShloMosaic Idealize.ShloMosaic.TcCoe Idealize.SL.Sem
open Cert.KernelIdeal Cert.KernelIdeal.Gen

variable (m : (ℓ : Loc nD τ sig) → Buf (Elt Ideal) ℓ)

/-- Rewrites a stretch's result at one reference to the host lines' composed term over the entry contents, through
    lines of one, three and four operands. -/
macro "prefix_results" : tactic =>
  `(tactic| (simp only [StableHlo.after_cons, StableHlo.after_nil]
             repeat (first
               | rw [Cert.Stack3.nary3_result] | rw [StableHlo.nary4_result] | rw [StableHlo.unary_result] | rw [StableHlo.reshape_result]
               | (rw [StableHlo.unary_result_ne]; rotate_left; decide)
               | (rw [StableHlo.reshape_result_ne]; rotate_left; decide)
               | (rw [StableHlo.nary_result_ne]; rotate_left; decide))))

/-- The four gates' input weights side by side, in the order input, output, update, forget. -/
theorem V_v1 (c : Dev nD) : (V m c main_v1 : S512x2048.Idx → EReal) =
    truncf (F := Ideal) .bf16 (concatenate S512x2048 1 [⟨S512x512, (m ((c : Thread nD τ).loc main_arg3))⟩, ⟨S512x512, (m ((c : Thread nD τ).loc main_arg11))⟩, ⟨S512x512, (m ((c : Thread nD τ).loc main_arg15))⟩, ⟨S512x512, (m ((c : Thread nD τ).loc main_arg7))⟩]
      concatenates_S512x512_S512x512_S512x512_S512x512_S512x2048_d1) bitsLt_bf16_f32 := by
  show StableHlo.after (List.flatten [hostOps0]) (fun b => m (c, b)) (Proc.devRef .tc main_v1) = _
  simp only [hostOps0, List.flatten_cons, List.flatten_nil, List.append_nil]
  prefix_results
  rfl

/-- Their biases end to end, as one row. -/
theorem V_v3 (c : Dev nD) : (V m c main_v3 : S1x2048.Idx → EReal) =
    shapeCast S1x2048 (concatenate S2048 0 [⟨S512, (m ((c : Thread nD τ).loc main_arg4))⟩, ⟨S512, (m ((c : Thread nD τ).loc main_arg12))⟩, ⟨S512, (m ((c : Thread nD τ).loc main_arg16))⟩, ⟨S512, (m ((c : Thread nD τ).loc main_arg8))⟩]
      concatenates_S512_S512_S512_S512_S2048_d0) shapeCasts_S2048_S1x2048 := by
  show StableHlo.after (List.flatten [hostOps0]) (fun b => m (c, b)) (Proc.devRef .tc main_v3) = _
  simp only [hostOps0, List.flatten_cons, List.flatten_nil, List.append_nil]
  prefix_results
  rfl

/-- The three node gates' recurrent weights side by side, in the order input, output, update. -/
theorem V_v5 (c : Dev nD) : (V m c main_v5 : S512x1536.Idx → EReal) =
    truncf (F := Ideal) .bf16 (concatenate S512x1536 1 [⟨S512x512, (m ((c : Thread nD τ).loc main_arg5))⟩, ⟨S512x512, (m ((c : Thread nD τ).loc main_arg13))⟩, ⟨S512x512, (m ((c : Thread nD τ).loc main_arg17))⟩]
      concatenates_S512x512_S512x512_S512x512_S512x1536_d1) bitsLt_bf16_f32 := by
  show StableHlo.after (List.flatten [hostOps0]) (fun b => m (c, b)) (Proc.devRef .tc main_v5) = _
  simp only [hostOps0, List.flatten_cons, List.flatten_nil, List.append_nil]
  prefix_results
  rfl

/-- Their biases end to end, as one row. -/
theorem V_v7 (c : Dev nD) : (V m c main_v7 : S1x1536.Idx → EReal) =
    shapeCast S1x1536 (concatenate S1536 0 [⟨S512, (m ((c : Thread nD τ).loc main_arg6))⟩, ⟨S512, (m ((c : Thread nD τ).loc main_arg14))⟩, ⟨S512, (m ((c : Thread nD τ).loc main_arg18))⟩]
      concatenates_S512_S512_S512_S1536_d0) shapeCasts_S1536_S1x1536 := by
  show StableHlo.after (List.flatten [hostOps0]) (fun b => m (c, b)) (Proc.devRef .tc main_v7) = _
  simp only [hostOps0, List.flatten_cons, List.flatten_nil, List.append_nil]
  prefix_results
  rfl

/-- The forget gate's recurrent weights. -/
theorem V_v8 (c : Dev nD) : (V m c main_v8 : S512x512.Idx → EReal) = truncf (F := Ideal) .bf16 (m ((c : Thread nD τ).loc main_arg9)) bitsLt_bf16_f32 := by
  show StableHlo.after (List.flatten [hostOps0]) (fun b => m (c, b)) (Proc.devRef .tc main_v8) = _
  simp only [hostOps0, List.flatten_cons, List.flatten_nil, List.append_nil]
  prefix_results

/-- The forget gate's recurrent bias, as a row. -/
theorem V_v9 (c : Dev nD) : (V m c main_v9 : S1x512.Idx → EReal) = shapeCast S1x512 (m ((c : Thread nD τ).loc main_arg10)) shapeCasts_S512_S1x512 := by
  show StableHlo.after (List.flatten [hostOps0]) (fun b => m (c, b)) (Proc.devRef .tc main_v9) = _
  simp only [hostOps0, List.flatten_cons, List.flatten_nil, List.append_nil]
  prefix_results
  rfl

end Cert.KernelIdeal.Frame

end
-- ==== Proof.Spec.lean ====
/-
  One row of a Child-Sum Tree-LSTM cell on the extended reals.

  A node has an input row `xr` (512 entries) and eight children, child `j` carrying a hidden row `chr j` and a cell row
  `ccr j`. With `hs` the sum of the children's hidden rows, the input, output and update gates read the node's row and
  `hs` through their own pair of weight matrices and biases; each child has its own forget gate reading the node's row
  and that child's hidden row; the new cell row is `i * u` plus the children's cell rows weighted by their forget
  gates, and the new hidden row is `o * tanh c`. A matrix product is the plain sum over the contracted coordinate,
  the logistic function and tanh are the extended reals' (`Ideal.logistic`, `Ideal.tanh`).

  The array forms `cArr` / `hArr` read a row of each of the nineteen argument arrays at literal shapes and apply the
  row functions: the one function of the arguments that both programs' results are compared with.
-/
import Idealize.ShloMosaic.PureOps.Ideal
import Idealize.ShloMosaic.Lib.ValueIdx

noncomputable section

open scoped BigOperators

namespace Cert.TreeCell

open Idealize.ShloMosaic Idealize.ShloMosaic.ValueIdx

/-- Entry `g` of a row times a matrix: the sum over the contracted coordinate. -/
def dot (a : Fin 512 → EReal) (W : Fin 512 → Fin 512 → EReal) (g : Fin 512) : EReal :=
  ∑ k : Fin 512, a k * W k g

/-- The sum of the eight children's rows, entry by entry. -/
def hs (chr : Fin 8 → Fin 512 → EReal) (k : Fin 512) : EReal := ∑ j : Fin 8, chr j k

/-- What a gate of the node applies its nonlinearity to: the node's row through `W`, plus `bW`, plus the children's
    summed row through `U`, plus `bU`, added in this order. -/
def gatePre (W : Fin 512 → Fin 512 → EReal) (bW : Fin 512 → EReal) (U : Fin 512 → Fin 512 → EReal) (bU : Fin 512 → EReal)
    (xr : Fin 512 → EReal) (chr : Fin 8 → Fin 512 → EReal) (g : Fin 512) : EReal :=
  ((dot xr W g + bW g) + dot (hs chr) U g) + bU g

/-- What child `j`'s forget gate applies the logistic function to: the node's row through `Wf`, plus `bWf`, plus
    that child's own hidden row through `Uf`, plus `bUf`. -/
def forgetPre (Wf : Fin 512 → Fin 512 → EReal) (bWf : Fin 512 → EReal) (Uf : Fin 512 → Fin 512 → EReal) (bUf : Fin 512 → EReal)
    (xr : Fin 512 → EReal) (chr : Fin 8 → Fin 512 → EReal) (j : Fin 8) (g : Fin 512) : EReal :=
  ((dot xr Wf g + bWf g) + dot (chr j) Uf g) + bUf g

/-- The new cell row: `i * u` plus the children's cell rows weighted by their forget gates. -/
def cRow (Wi : Fin 512 → Fin 512 → EReal) (bWi : Fin 512 → EReal) (Ui : Fin 512 → Fin 512 → EReal) (bUi : Fin 512 → EReal)
    (Wf : Fin 512 → Fin 512 → EReal) (bWf : Fin 512 → EReal) (Uf : Fin 512 → Fin 512 → EReal) (bUf : Fin 512 → EReal)
    (Wu : Fin 512 → Fin 512 → EReal) (bWu : Fin 512 → EReal) (Uu : Fin 512 → Fin 512 → EReal) (bUu : Fin 512 → EReal)
    (xr : Fin 512 → EReal) (chr ccr : Fin 8 → Fin 512 → EReal) (g : Fin 512) : EReal :=
  Ideal.logistic (gatePre Wi bWi Ui bUi xr chr g) * Ideal.tanh (gatePre Wu bWu Uu bUu xr chr g)
    + ∑ j : Fin 8, Ideal.logistic (forgetPre Wf bWf Uf bUf xr chr j g) * ccr j g

/-- The new hidden row: the output gate times tanh of the new cell row. -/
def hRow (Wi : Fin 512 → Fin 512 → EReal) (bWi : Fin 512 → EReal) (Ui : Fin 512 → Fin 512 → EReal) (bUi : Fin 512 → EReal)
    (Wf : Fin 512 → Fin 512 → EReal) (bWf : Fin 512 → EReal) (Uf : Fin 512 → Fin 512 → EReal) (bUf : Fin 512 → EReal)
    (Wo : Fin 512 → Fin 512 → EReal) (bWo : Fin 512 → EReal) (Uo : Fin 512 → Fin 512 → EReal) (bUo : Fin 512 → EReal)
    (Wu : Fin 512 → Fin 512 → EReal) (bWu : Fin 512 → EReal) (Uu : Fin 512 → Fin 512 → EReal) (bUu : Fin 512 → EReal)
    (xr : Fin 512 → EReal) (chr ccr : Fin 8 → Fin 512 → EReal) (g : Fin 512) : EReal :=
  Ideal.logistic (gatePre Wo bWo Uo bUo xr chr g)
    * Ideal.tanh (cRow Wi bWi Ui bUi Wf bWf Uf bUf Wu bWu Uu bUu xr chr ccr g)

/-! ## The array forms, at the arguments' literal shapes -/

/-- A [512,512] array as a function of its two coordinates. -/
abbrev mat (W : (⟨2, ![512, 512]⟩ : Shape).Idx → EReal) : Fin 512 → Fin 512 → EReal := fun k g => W (ix2 k g)
/-- A [512] array as a function of its coordinate. -/
abbrev vec (b : (⟨1, ![512]⟩ : Shape).Idx → EReal) : Fin 512 → EReal := fun g => b (ix1 g)
/-- Row `n` of an [N,512] array. -/
abbrev rowOf {N : Nat} (x : (⟨2, ![N, 512]⟩ : Shape).Idx → EReal) (n : Fin N) : Fin 512 → EReal := fun k => x (ix2 n k)
/-- Node `n`'s eight child rows in an [N,8,512] array. -/
abbrev kidsOf {N : Nat} (ch : (⟨3, ![N, 8, 512]⟩ : Shape).Idx → EReal) (n : Fin N) : Fin 8 → Fin 512 → EReal :=
  fun j k => ch (ix3 n j k)

/-- Columns `o` … `o + 511` of a [512,n] array, as a function of a row and a column inside the band: one gate's weights
    inside several gates' weights laid side by side. -/
def colsAt {n : Nat} (o : Nat) (h : o + 512 ≤ n) (W : (⟨2, ![512, n]⟩ : Shape).Idx → EReal) : Fin 512 → Fin 512 → EReal :=
  fun k g => W (ix2 k ⟨o + g.val, by omega⟩)
/-- Entries `o` … `o + 511` of the one row of a [1,n] array: one gate's bias inside several gates' biases laid end to end. -/
def rowAt {n : Nat} (o : Nat) (h : o + 512 ≤ n) (b : (⟨2, ![1, n]⟩ : Shape).Idx → EReal) : Fin 512 → EReal :=
  fun g => b (ix2 (0 : Fin 1) ⟨o + g.val, by omega⟩)

/-- The new cell array [8192,512] as a function of the nineteen arguments, in the entry point's order. -/
def cArr (x : (⟨2, ![8192, 512]⟩ : Shape).Idx → EReal) (ch cc : (⟨3, ![8192, 8, 512]⟩ : Shape).Idx → EReal)
    (Wi : (⟨2, ![512, 512]⟩ : Shape).Idx → EReal) (bWi : (⟨1, ![512]⟩ : Shape).Idx → EReal)
    (Ui : (⟨2, ![512, 512]⟩ : Shape).Idx → EReal) (bUi : (⟨1, ![512]⟩ : Shape).Idx → EReal)
    (Wf : (⟨2, ![512, 512]⟩ : Shape).Idx → EReal) (bWf : (⟨1, ![512]⟩ : Shape).Idx → EReal)
    (Uf : (⟨2, ![512, 512]⟩ : Shape).Idx → EReal) (bUf : (⟨1, ![512]⟩ : Shape).Idx → EReal)
    (Wo : (⟨2, ![512, 512]⟩ : Shape).Idx → EReal) (bWo : (⟨1, ![512]⟩ : Shape).Idx → EReal)
    (Uo : (⟨2, ![512, 512]⟩ : Shape).Idx → EReal) (bUo : (⟨1, ![512]⟩ : Shape).Idx → EReal)
    (Wu : (⟨2, ![512, 512]⟩ : Shape).Idx → EReal) (bWu : (⟨1, ![512]⟩ : Shape).Idx → EReal)
    (Uu : (⟨2, ![512, 512]⟩ : Shape).Idx → EReal) (bUu : (⟨1, ![512]⟩ : Shape).Idx → EReal) :
    (⟨2, ![8192, 512]⟩ : Shape).Idx → EReal := fun i =>
  cRow (mat Wi) (vec bWi) (mat Ui) (vec bUi) (mat Wf) (vec bWf) (mat Uf) (vec bUf) (mat Wu) (vec bWu) (mat Uu) (vec bUu)
    (rowOf x (i 0)) (kidsOf ch (i 0)) (kidsOf cc (i 0)) (i 1)

/-- The new hidden array [8192,512] as a function of the nineteen arguments, in the entry point's order. -/
def hArr (x : (⟨2, ![8192, 512]⟩ : Shape).Idx → EReal) (ch cc : (⟨3, ![8192, 8, 512]⟩ : Shape).Idx → EReal)
    (Wi : (⟨2, ![512, 512]⟩ : Shape).Idx → EReal) (bWi : (⟨1, ![512]⟩ : Shape).Idx → EReal)
    (Ui : (⟨2, ![512, 512]⟩ : Shape).Idx → EReal) (bUi : (⟨1, ![512]⟩ : Shape).Idx → EReal)
    (Wf : (⟨2, ![512, 512]⟩ : Shape).Idx → EReal) (bWf : (⟨1, ![512]⟩ : Shape).Idx → EReal)
    (Uf : (⟨2, ![512, 512]⟩ : Shape).Idx → EReal) (bUf : (⟨1, ![512]⟩ : Shape).Idx → EReal)
    (Wo : (⟨2, ![512, 512]⟩ : Shape).Idx → EReal) (bWo : (⟨1, ![512]⟩ : Shape).Idx → EReal)
    (Uo : (⟨2, ![512, 512]⟩ : Shape).Idx → EReal) (bUo : (⟨1, ![512]⟩ : Shape).Idx → EReal)
    (Wu : (⟨2, ![512, 512]⟩ : Shape).Idx → EReal) (bWu : (⟨1, ![512]⟩ : Shape).Idx → EReal)
    (Uu : (⟨2, ![512, 512]⟩ : Shape).Idx → EReal) (bUu : (⟨1, ![512]⟩ : Shape).Idx → EReal) :
    (⟨2, ![8192, 512]⟩ : Shape).Idx → EReal := fun i =>
  hRow (mat Wi) (vec bWi) (mat Ui) (vec bUi) (mat Wf) (vec bWf) (mat Uf) (vec bUf) (mat Wo) (vec bWo) (mat Uo) (vec bUo)
    (mat Wu) (vec bWu) (mat Uu) (vec bUu) (rowOf x (i 0)) (kidsOf ch (i 0)) (kidsOf cc (i 0)) (i 1)

end Cert.TreeCell

end
-- ==== Proof.BodyValue.lean ====
/-
  The cell kernel's two stored blocks read at an entry.

  The body projects the node rows through the four gates' input weights laid side by side and adds the biases, then
  cuts the result into the four gates' bands; it adds the eight children's hidden rows one after another onto a zero
  row, and onto a zero row the eight children's cell rows, each weighted by the logistic of that child's forget
  pre-activation (the node's forget band plus the child's hidden row through the forget gate's recurrent weights plus
  the recurrent bias); it sends the summed hidden row through the three node gates' recurrent weights laid side by
  side, adds the recurrent biases and cuts the result into three bands; the new cell entry is
  logistic(input band + recurrent input band) * tanh(update band + recurrent update band) + the weighted cell sum, and
  the new hidden entry is logistic(output band + recurrent output band) * tanh(new cell entry).

  Against the specification's row functions the only differences are the grouping (a + b) + (c + d) of a gate's four
  summands where the specification has ((a + b) + c) + d, and the eight-term sums written as left-nested additions
  starting from zero where the specification has a sum over the eight children. Both are closed on the extended reals
  by associativity of addition and `0 + a = a`; nothing needs finiteness. A matrix product onto a zero block is read as
  the sum over the contracted coordinate, a band as the product's entry at the shifted column, a child's slab viewed as
  rows as the block's entry at that child.
-/
import proofs.«116957_j34574486733551_2_alg».proof.Proof.Spec
import proofs.«116957_j34574486733551_2_alg».proof.Proof.BodyTermsKI
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.BodyValue

open Idealize.ShloMosaic Idealize.SL.Sem Cert.KernelIdeal Cert.KernelIdeal.Gen Cert.TreeCell Idealize.ShloMosaic.ValueIdx

theorem mm2048_l0 (i : S256x2048.Idx) (q : dot_S256x512_S512x2048_S256x2048_1_0_0_1_n_n.contr.Idx) : (dot_S256x512_S512x2048_S256x2048_1_0_0_1_n_n.lhsIdx i q 0).val = (i 0).val := by
  unfold DotDims.lhsIdx
  rw [dif_neg (show ¬(0 : Fin S256x512.rank) ∈ dot_S256x512_S512x2048_S256x2048_1_0_0_1_n_n.lhsBatch by decide), dif_pos (show (0 : Fin S256x512.rank) ∈ dot_S256x512_S512x2048_S256x2048_1_0_0_1_n_n.lhsNonContracting by decide)]
  rfl
theorem mm2048_r1 (i : S256x2048.Idx) (q : dot_S256x512_S512x2048_S256x2048_1_0_0_1_n_n.contr.Idx) : (dot_S256x512_S512x2048_S256x2048_1_0_0_1_n_n.rhsIdx i q 1).val = (i 1).val := by
  unfold DotDims.rhsIdx
  rw [dif_neg (show ¬(1 : Fin S512x2048.rank) ∈ dot_S256x512_S512x2048_S256x2048_1_0_0_1_n_n.rhsBatch by decide), dif_pos (show (1 : Fin S512x2048.rank) ∈ dot_S256x512_S512x2048_S256x2048_1_0_0_1_n_n.rhsNonContracting by decide)]
  rfl

/-- The product onto the zero block read at an entry: the sum over the contracted coordinate. -/
theorem mm2048 (a : FVec Ideal S256x512 .bf16) (b : FVec Ideal S512x2048 .bf16) (p : Fin 256) (c : Fin 2048) :
    matmul dot_S256x512_S512x2048_S256x2048_1_0_0_1_n_n none a b (constant (F := Ideal) S256x2048 .f32 0x00000000#32) (ix2 p c)
      = ∑ k : Fin 512, a (ix2 p k) * b (ix2 k c) := by
  refine (Ideal.matmul_constant_zero_apply dot_S256x512_S512x2048_S256x2048_1_0_0_1_n_n none a b (ix2 p c)).trans ?_
  rw [← Equiv.sum_comp (contrEquiv1 dot_S256x512_S512x2048_S256x2048_1_0_0_1_n_n 512 rfl rfl).symm]
  refine Finset.sum_congr rfl fun k _ => ?_
  have hk := contrEquiv1_symm_val dot_S256x512_S512x2048_S256x2048_1_0_0_1_n_n 512 rfl rfl k
  have el : dot_S256x512_S512x2048_S256x2048_1_0_0_1_n_n.lhsIdx (ix2 p c) ((contrEquiv1 dot_S256x512_S512x2048_S256x2048_1_0_0_1_n_n 512 rfl rfl).symm k) = ix2 p k := funext fun x => Fin.ext (by
    match x with
    | ⟨0, _⟩ => exact mm2048_l0 _ _
    | ⟨1, _⟩ => exact (dot_S256x512_S512x2048_S256x2048_1_0_0_1_n_n.lhsIdx_val_of_single rfl _ _).trans hk)
  have er : dot_S256x512_S512x2048_S256x2048_1_0_0_1_n_n.rhsIdx (ix2 p c) ((contrEquiv1 dot_S256x512_S512x2048_S256x2048_1_0_0_1_n_n 512 rfl rfl).symm k) = ix2 k c := funext fun x => Fin.ext (by
    match x with
    | ⟨0, _⟩ => exact (dot_S256x512_S512x2048_S256x2048_1_0_0_1_n_n.rhsIdx_val_of_single rfl _ _).trans hk
    | ⟨1, _⟩ => exact mm2048_r1 _ _)
  rw [el, er]

theorem mm512_l0 (i : S256x512.Idx) (q : dot_S256x512_S512x512_S256x512_1_0_0_1_n_n.contr.Idx) : (dot_S256x512_S512x512_S256x512_1_0_0_1_n_n.lhsIdx i q 0).val = (i 0).val := by
  unfold DotDims.lhsIdx
  rw [dif_neg (show ¬(0 : Fin S256x512.rank) ∈ dot_S256x512_S512x512_S256x512_1_0_0_1_n_n.lhsBatch by decide), dif_pos (show (0 : Fin S256x512.rank) ∈ dot_S256x512_S512x512_S256x512_1_0_0_1_n_n.lhsNonContracting by decide)]
  rfl
theorem mm512_r1 (i : S256x512.Idx) (q : dot_S256x512_S512x512_S256x512_1_0_0_1_n_n.contr.Idx) : (dot_S256x512_S512x512_S256x512_1_0_0_1_n_n.rhsIdx i q 1).val = (i 1).val := by
  unfold DotDims.rhsIdx
  rw [dif_neg (show ¬(1 : Fin S512x512.rank) ∈ dot_S256x512_S512x512_S256x512_1_0_0_1_n_n.rhsBatch by decide), dif_pos (show (1 : Fin S512x512.rank) ∈ dot_S256x512_S512x512_S256x512_1_0_0_1_n_n.rhsNonContracting by decide)]
  rfl

/-- The product onto the zero block read at an entry: the sum over the contracted coordinate. -/
theorem mm512 (a : FVec Ideal S256x512 .bf16) (b : FVec Ideal S512x512 .bf16) (p : Fin 256) (c : Fin 512) :
    matmul dot_S256x512_S512x512_S256x512_1_0_0_1_n_n none a b (constant (F := Ideal) S256x512 .f32 0x00000000#32) (ix2 p c)
      = ∑ k : Fin 512, a (ix2 p k) * b (ix2 k c) := by
  refine (Ideal.matmul_constant_zero_apply dot_S256x512_S512x512_S256x512_1_0_0_1_n_n none a b (ix2 p c)).trans ?_
  rw [← Equiv.sum_comp (contrEquiv1 dot_S256x512_S512x512_S256x512_1_0_0_1_n_n 512 rfl rfl).symm]
  refine Finset.sum_congr rfl fun k _ => ?_
  have hk := contrEquiv1_symm_val dot_S256x512_S512x512_S256x512_1_0_0_1_n_n 512 rfl rfl k
  have el : dot_S256x512_S512x512_S256x512_1_0_0_1_n_n.lhsIdx (ix2 p c) ((contrEquiv1 dot_S256x512_S512x512_S256x512_1_0_0_1_n_n 512 rfl rfl).symm k) = ix2 p k := funext fun x => Fin.ext (by
    match x with
    | ⟨0, _⟩ => exact mm512_l0 _ _
    | ⟨1, _⟩ => exact (dot_S256x512_S512x512_S256x512_1_0_0_1_n_n.lhsIdx_val_of_single rfl _ _).trans hk)
  have er : dot_S256x512_S512x512_S256x512_1_0_0_1_n_n.rhsIdx (ix2 p c) ((contrEquiv1 dot_S256x512_S512x512_S256x512_1_0_0_1_n_n 512 rfl rfl).symm k) = ix2 k c := funext fun x => Fin.ext (by
    match x with
    | ⟨0, _⟩ => exact (dot_S256x512_S512x512_S256x512_1_0_0_1_n_n.rhsIdx_val_of_single rfl _ _).trans hk
    | ⟨1, _⟩ => exact mm512_r1 _ _)
  rw [el, er]

theorem mm1536_l0 (i : S256x1536.Idx) (q : dot_S256x512_S512x1536_S256x1536_1_0_0_1_n_n.contr.Idx) : (dot_S256x512_S512x1536_S256x1536_1_0_0_1_n_n.lhsIdx i q 0).val = (i 0).val := by
  unfold DotDims.lhsIdx
  rw [dif_neg (show ¬(0 : Fin S256x512.rank) ∈ dot_S256x512_S512x1536_S256x1536_1_0_0_1_n_n.lhsBatch by decide), dif_pos (show (0 : Fin S256x512.rank) ∈ dot_S256x512_S512x1536_S256x1536_1_0_0_1_n_n.lhsNonContracting by decide)]
  rfl
theorem mm1536_r1 (i : S256x1536.Idx) (q : dot_S256x512_S512x1536_S256x1536_1_0_0_1_n_n.contr.Idx) : (dot_S256x512_S512x1536_S256x1536_1_0_0_1_n_n.rhsIdx i q 1).val = (i 1).val := by
  unfold DotDims.rhsIdx
  rw [dif_neg (show ¬(1 : Fin S512x1536.rank) ∈ dot_S256x512_S512x1536_S256x1536_1_0_0_1_n_n.rhsBatch by decide), dif_pos (show (1 : Fin S512x1536.rank) ∈ dot_S256x512_S512x1536_S256x1536_1_0_0_1_n_n.rhsNonContracting by decide)]
  rfl

/-- The product onto the zero block read at an entry: the sum over the contracted coordinate. -/
theorem mm1536 (a : FVec Ideal S256x512 .bf16) (b : FVec Ideal S512x1536 .bf16) (p : Fin 256) (c : Fin 1536) :
    matmul dot_S256x512_S512x1536_S256x1536_1_0_0_1_n_n none a b (constant (F := Ideal) S256x1536 .f32 0x00000000#32) (ix2 p c)
      = ∑ k : Fin 512, a (ix2 p k) * b (ix2 k c) := by
  refine (Ideal.matmul_constant_zero_apply dot_S256x512_S512x1536_S256x1536_1_0_0_1_n_n none a b (ix2 p c)).trans ?_
  rw [← Equiv.sum_comp (contrEquiv1 dot_S256x512_S512x1536_S256x1536_1_0_0_1_n_n 512 rfl rfl).symm]
  refine Finset.sum_congr rfl fun k _ => ?_
  have hk := contrEquiv1_symm_val dot_S256x512_S512x1536_S256x1536_1_0_0_1_n_n 512 rfl rfl k
  have el : dot_S256x512_S512x1536_S256x1536_1_0_0_1_n_n.lhsIdx (ix2 p c) ((contrEquiv1 dot_S256x512_S512x1536_S256x1536_1_0_0_1_n_n 512 rfl rfl).symm k) = ix2 p k := funext fun x => Fin.ext (by
    match x with
    | ⟨0, _⟩ => exact mm1536_l0 _ _
    | ⟨1, _⟩ => exact (dot_S256x512_S512x1536_S256x1536_1_0_0_1_n_n.lhsIdx_val_of_single rfl _ _).trans hk)
  have er : dot_S256x512_S512x1536_S256x1536_1_0_0_1_n_n.rhsIdx (ix2 p c) ((contrEquiv1 dot_S256x512_S512x1536_S256x1536_1_0_0_1_n_n 512 rfl rfl).symm k) = ix2 k c := funext fun x => Fin.ext (by
    match x with
    | ⟨0, _⟩ => exact (dot_S256x512_S512x1536_S256x1536_1_0_0_1_n_n.rhsIdx_val_of_single rfl _ _).trans hk
    | ⟨1, _⟩ => exact mm1536_r1 _ _)
  rw [el, er]

/-- The zero offsets of a whole-block rectangle, rank 2. -/
theorem hz2 : (![0, 0] : Fin 2 → Nat) = fun _ => 0 := funext fun a => by fin_cases a <;> rfl

/-- The node rows through all four gates' weights side by side, plus the biases, at an entry. -/
theorem pay4_apply (v0 : Vec Ideal S256x512 .f32) (v2 : Vec Ideal S512x2048 .bf16) (v4 : Vec Ideal S1x2048 .f32)
    (p : Fin 256) (c : Fin 2048) :
    k0_pay4 (F := Ideal) v0 v2 v4 (ix2 p c) = (∑ k : Fin 512, v0 (ix2 p k) * v2 (ix2 k c)) + v4 (ix2 (0 : Fin 1) c) := by
  unfold k0_pay4
  refine congrArg₂ (· + ·) ((mm2048 _ _ p c).trans ?_) ((broadcastTo_1b_ab_apply _ _ p c).trans ?_)
  · rw [shapeCast_self]; rfl
  · rw [shapeCast_self]

/-- One gate's band of the projected node rows: the row through that gate's weights, plus its bias. -/
theorem band_apply (o : Nat) (h : o + 512 ≤ 2048) (hs : S256x2048.Slices ![0, o] S256x512)
    (v0 : Vec Ideal S256x512 .f32) (v2 : Vec Ideal S512x2048 .bf16) (v4 : Vec Ideal S1x2048 .f32) (p : Fin 256) (g : Fin 512) :
    extractStridedSlice S256x512 ![0, o] (k0_pay4 (F := Ideal) v0 v2 v4) hs (ix2 p g)
      = dot (rowOf v0 p) (colsAt o h v2) g + rowAt o h v4 g :=
  (slice2_axis1_eq o _ hs p g).trans (pay4_apply v0 v2 v4 p _)

section Loads
variable (x0 : Vec Ideal S256x512 .f32) (x1 x2 : Vec Ideal S256x8x512 .f32) (x3 : Vec Ideal S512x2048 .bf16) (x4 : Vec Ideal S1x2048 .f32)
  (x5 : Vec Ideal S512x1536 .bf16) (x6 : Vec Ideal S1x1536 .f32) (x7 : Vec Ideal S512x512 .bf16) (x8 : Vec Ideal S1x512 .f32)

theorem ld_rX : View.ld x0 Body.rX = x0 := View.ld_unit_zero (S := S256x512) hz2 _ x0
theorem ld_rW : View.ld x3 Body.rW = x3 := View.ld_unit_zero (S := S512x2048) hz2 _ x3
theorem ld_rbW : View.ld x4 Body.rbW = x4 := View.ld_unit_zero (S := S1x2048) hz2 _ x4
theorem ld_rU : View.ld x5 Body.rU = x5 := View.ld_unit_zero (S := S512x1536) hz2 _ x5
theorem ld_rbU : View.ld x6 Body.rbU = x6 := View.ld_unit_zero (S := S1x1536) hz2 _ x6
theorem ld_rUf : View.ld x7 Body.rUf = x7 := View.ld_unit_zero (S := S512x512) hz2 _ x7
theorem ld_rbUf : View.ld x8 Body.rbUf = x8 := View.ld_unit_zero (S := S1x512) hz2 _ x8

variable (p : Fin 256) (g : Fin 512)

theorem xWi_apply : Body.xWi (F := Ideal) x0 x3 x4 (ix2 p g)
    = dot (rowOf x0 p) (colsAt 0 (by omega) x3) g + rowAt 0 (by omega) x4 g := by
  unfold Body.xWi k0_pay5
  rw [ld_rX, ld_rW, ld_rbW]
  exact band_apply 0 _ _ x0 x3 x4 p g

theorem xWo_apply : Body.xWo (F := Ideal) x0 x3 x4 (ix2 p g)
    = dot (rowOf x0 p) (colsAt 512 (by omega) x3) g + rowAt 512 (by omega) x4 g := by
  unfold Body.xWo k0_pay6
  rw [ld_rX, ld_rW, ld_rbW]
  exact band_apply 512 _ _ x0 x3 x4 p g

theorem xWu_apply : Body.xWu (F := Ideal) x0 x3 x4 (ix2 p g)
    = dot (rowOf x0 p) (colsAt 1024 (by omega) x3) g + rowAt 1024 (by omega) x4 g := by
  unfold Body.xWu k0_pay7
  rw [ld_rX, ld_rW, ld_rbW]
  exact band_apply 1024 _ _ x0 x3 x4 p g

theorem xWf_apply : Body.xWf (F := Ideal) x0 x3 x4 (ix2 p g)
    = dot (rowOf x0 p) (colsAt 1536 (by omega) x3) g + rowAt 1536 (by omega) x4 g := by
  unfold Body.xWf k0_pay8
  rw [ld_rX, ld_rW, ld_rbW]
  exact band_apply 1536 _ _ x0 x3 x4 p g

theorem uf_eq : Body.uf (F := Ideal) x7 = x7 := by
  unfold Body.uf k0_pay9
  rw [ld_rUf, shapeCast_self]

theorem buf_eq : Body.buf (F := Ideal) x8 = x8 := by
  unfold Body.buf k0_pay10
  rw [ld_rbUf, shapeCast_self]

end Loads

/-- Child `k`'s slab of a children block, viewed as rows, at an entry: the block at `(p, k, k')`. -/
theorem slab_apply (x : Vec Ideal S256x8x512 .f32) (k : Fin 8)
    (inb : ∀ a, (![0, k.val, 0] : Fin 3 → Nat) a + S256x1x512.size a ≤ S256x8x512.size a) (p : Fin 256) (k' : Fin 512) :
    shapeCast S256x512 (View.ld x (Rect.unit (s := S256x8x512) ![0, k.val, 0] S256x1x512.size inb)) shapeCasts_S256x1x512_S256x512 (ix2 p k')
      = x (ix3 p k k') := by
  refine (shapeCast_apply _ _ (ix2 p k') (ix3 p (0 : Fin 1) k') ?_).trans ?_
  · rw [Shape.rowMajor_val_three, Shape.rowMajor_val_two]
    show (p.val * 1 + 0) * 512 + k'.val = p.val * 512 + k'.val
    omega
  · show x _ = x _
    refine congrArg x (funext fun a => Fin.ext ?_)
    match a with
    | ⟨0, _⟩ => show 0 + 1 * p.val = p.val; omega
    | ⟨1, _⟩ => show k.val + 1 * 0 = k.val; omega
    | ⟨2, _⟩ => show 0 + 1 * k'.val = k'.val; omega

section Sums
variable (x1 : Vec Ideal S256x8x512 .f32) (p : Fin 256) (k : Fin 512)

theorem hsum0_apply : Body.hsum0 (F := Ideal) x1 (ix2 p k) = x1 (ix3 p 0 k) := by
  unfold Body.hsum0 k0_pay12 k0_pay11
  exact (congrArg₂ (· + ·) Ideal.ofBits_zero_f32 (slab_apply x1 0 _ p k)).trans (zero_add _)

theorem kid1_apply : Body.kid1 (F := Ideal) x1 (ix2 p k) = x1 (ix3 p 1 k) := by
  unfold Body.kid1 k0_pay14
  exact slab_apply x1 1 _ p k

theorem kid4_apply : Body.kid4 (F := Ideal) x1 (ix2 p k) = x1 (ix3 p 4 k) := by
  unfold Body.kid4 k0_pay19
  exact slab_apply x1 4 _ p k

theorem kid7_apply : Body.kid7 (F := Ideal) x1 (ix2 p k) = x1 (ix3 p 7 k) := by
  unfold Body.kid7 k0_pay24
  exact slab_apply x1 7 _ p k

theorem hsum3_apply : Body.hsum3 (F := Ideal) x1 (ix2 p k)
    = ((x1 (ix3 p 0 k) + x1 (ix3 p 1 k)) + x1 (ix3 p 2 k)) + x1 (ix3 p 3 k) := by
  unfold Body.hsum3 k0_pay17 k0_pay15 k0_pay16
  exact congrArg₂ (· + ·) (congrArg₂ (· + ·) (congrArg₂ (· + ·) (hsum0_apply x1 p k) (kid1_apply x1 p k))
    (slab_apply x1 2 _ p k)) (slab_apply x1 3 _ p k)

theorem hsum6_apply : Body.hsum6 (F := Ideal) x1 (ix2 p k)
    = (((((x1 (ix3 p 0 k) + x1 (ix3 p 1 k)) + x1 (ix3 p 2 k)) + x1 (ix3 p 3 k)) + x1 (ix3 p 4 k)) + x1 (ix3 p 5 k))
        + x1 (ix3 p 6 k) := by
  unfold Body.hsum6 k0_pay22 k0_pay20 k0_pay21
  exact congrArg₂ (· + ·) (congrArg₂ (· + ·) (congrArg₂ (· + ·) (hsum3_apply x1 p k) (kid4_apply x1 p k))
    (slab_apply x1 5 _ p k)) (slab_apply x1 6 _ p k)

/-- The running sum after the last child is the sum of the eight children's rows. -/
theorem hsAll_apply : Body.hsum6 (F := Ideal) x1 (ix2 p k) + Body.kid7 (F := Ideal) x1 (ix2 p k) = hs (kidsOf x1 p) k := by
  unfold hs
  rw [Fin.sum_univ_eight]
  exact congrArg₂ (· + ·) (hsum6_apply x1 p k) (kid7_apply x1 p k)

end Sums

/-- One child's forget-weighted cell entry as the body computes it: the logistic of the projected node row plus the
    child's hidden row through the recurrent weights plus the recurrent bias, times the child's cell entry. -/
theorem fterm_apply (v12 : FVec Ideal S256x512 .f32) (v14 : FVec Ideal S512x512 .bf16) (v16 : FVec Ideal S1x512 .f32)
    (h c : FVec Ideal S256x512 .f32) (p : Fin 256) (g : Fin 512) :
    mulf (logistic (addf (addf v12 (matmul dot_S256x512_S512x512_S256x512_1_0_0_1_n_n none (truncf .bf16 h bitsLt_bf16_f32) v14
        (constant (F := Ideal) S256x512 .f32 0x00000000#32))) (broadcastTo S256x512 v16 broadcasts_S1x512_S256x512))) c (ix2 p g)
      = Ideal.logistic ((v12 (ix2 p g) + ∑ k : Fin 512, h (ix2 p k) * v14 (ix2 k g)) + v16 (ix2 (0 : Fin 1) g)) * c (ix2 p g) :=
  congrArg₂ (· * ·) (congrArg Ideal.logistic (congrArg₂ (· + ·) (congrArg₂ (· + ·) rfl (mm512 _ _ p g))
    (broadcastTo_1b_ab_apply _ _ p g))) rfl

section Forget
variable (x0 : Vec Ideal S256x512 .f32) (x1 x2 : Vec Ideal S256x8x512 .f32) (x3 : Vec Ideal S512x2048 .bf16) (x4 : Vec Ideal S1x2048 .f32)
  (x7 : Vec Ideal S512x512 .bf16) (x8 : Vec Ideal S1x512 .f32) (p : Fin 256) (g : Fin 512)

/-- Child `j`'s cell entry weighted by its forget gate, in the specification's terms. -/
def fgt (j : Fin 8) : EReal :=
  Ideal.logistic (forgetPre (colsAt 1536 (by omega) x3) (rowAt 1536 (by omega) x4) (fun k g' => x7 (ix2 k g'))
      (fun g' => x8 (ix2 (0 : Fin 1) g')) (rowOf x0 p) (kidsOf x1 p) j g) * kidsOf x2 p j g

/-- The body's forget-weighted term of a child whose hidden rows are `h` and whose cell rows are `c`. -/
theorem fchild (j : Fin 8) (v12 : FVec Ideal S256x512 .f32) (v14 : FVec Ideal S512x512 .bf16) (v16 : FVec Ideal S1x512 .f32)
    (h c : FVec Ideal S256x512 .f32)
    (h12 : v12 (ix2 p g) = dot (rowOf x0 p) (colsAt 1536 (by omega) x3) g + rowAt 1536 (by omega) x4 g)
    (h14 : v14 = x7) (h16 : v16 = x8) (hh : ∀ k, h (ix2 p k) = x1 (ix3 p j k)) (hc : c (ix2 p g) = x2 (ix3 p j g)) :
    mulf (logistic (addf (addf v12 (matmul dot_S256x512_S512x512_S256x512_1_0_0_1_n_n none (truncf .bf16 h bitsLt_bf16_f32) v14
        (constant (F := Ideal) S256x512 .f32 0x00000000#32))) (broadcastTo S256x512 v16 broadcasts_S1x512_S256x512))) c (ix2 p g)
      = fgt x0 x1 x2 x3 x4 x7 x8 p g j := by
  subst h14 h16
  refine (fterm_apply v12 v14 v16 h c p g).trans ?_
  unfold fgt forgetPre
  rw [h12, hc]
  refine congrArg₂ (· * ·) (congrArg Ideal.logistic (congrArg₂ (· + ·) (congrArg₂ (· + ·) rfl ?_) rfl)) rfl
  exact Finset.sum_congr rfl fun k _ => congrArg₂ (· * ·) (hh k) rfl

theorem cf0_apply : Body.cf0 (F := Ideal) x0 x1 x2 x3 x4 x7 x8 (ix2 p g) = fgt x0 x1 x2 x3 x4 x7 x8 p g 0 := by
  unfold Body.cf0 k0_pay13
  exact (congrArg₂ (· + ·) Ideal.ofBits_zero_f32
    (fchild x0 x1 x2 x3 x4 x7 x8 p g 0 _ _ _ _ _ (xWf_apply x0 x3 x4 p g) (uf_eq x7) (buf_eq x8)
      (fun k => slab_apply x1 0 _ p k) (slab_apply x2 0 _ p g))).trans (zero_add _)

theorem cf3_apply : Body.cf3 (F := Ideal) x0 x1 x2 x3 x4 x7 x8 (ix2 p g)
    = ((fgt x0 x1 x2 x3 x4 x7 x8 p g 0 + fgt x0 x1 x2 x3 x4 x7 x8 p g 1) + fgt x0 x1 x2 x3 x4 x7 x8 p g 2)
        + fgt x0 x1 x2 x3 x4 x7 x8 p g 3 := by
  unfold Body.cf3 k0_pay18 k0_pay15 k0_pay16
  exact congrArg₂ (· + ·) (congrArg₂ (· + ·) (congrArg₂ (· + ·) (cf0_apply x0 x1 x2 x3 x4 x7 x8 p g)
    (fchild x0 x1 x2 x3 x4 x7 x8 p g 1 _ _ _ _ _ (xWf_apply x0 x3 x4 p g) (uf_eq x7) (buf_eq x8)
      (fun k => kid1_apply x1 p k) (slab_apply x2 1 _ p g)))
    (fchild x0 x1 x2 x3 x4 x7 x8 p g 2 _ _ _ _ _ (xWf_apply x0 x3 x4 p g) (uf_eq x7) (buf_eq x8)
      (fun k => slab_apply x1 2 _ p k) (slab_apply x2 2 _ p g)))
    (fchild x0 x1 x2 x3 x4 x7 x8 p g 3 _ _ _ _ _ (xWf_apply x0 x3 x4 p g) (uf_eq x7) (buf_eq x8)
      (fun k => slab_apply x1 3 _ p k) (slab_apply x2 3 _ p g))

theorem cf6_apply : Body.cf6 (F := Ideal) x0 x1 x2 x3 x4 x7 x8 (ix2 p g)
    = (((((fgt x0 x1 x2 x3 x4 x7 x8 p g 0 + fgt x0 x1 x2 x3 x4 x7 x8 p g 1) + fgt x0 x1 x2 x3 x4 x7 x8 p g 2)
        + fgt x0 x1 x2 x3 x4 x7 x8 p g 3) + fgt x0 x1 x2 x3 x4 x7 x8 p g 4) + fgt x0 x1 x2 x3 x4 x7 x8 p g 5)
        + fgt x0 x1 x2 x3 x4 x7 x8 p g 6 := by
  unfold Body.cf6 k0_pay23 k0_pay20 k0_pay21
  exact congrArg₂ (· + ·) (congrArg₂ (· + ·) (congrArg₂ (· + ·) (cf3_apply x0 x1 x2 x3 x4 x7 x8 p g)
    (fchild x0 x1 x2 x3 x4 x7 x8 p g 4 _ _ _ _ _ (xWf_apply x0 x3 x4 p g) (uf_eq x7) (buf_eq x8)
      (fun k => kid4_apply x1 p k) (slab_apply x2 4 _ p g)))
    (fchild x0 x1 x2 x3 x4 x7 x8 p g 5 _ _ _ _ _ (xWf_apply x0 x3 x4 p g) (uf_eq x7) (buf_eq x8)
      (fun k => slab_apply x1 5 _ p k) (slab_apply x2 5 _ p g)))
    (fchild x0 x1 x2 x3 x4 x7 x8 p g 6 _ _ _ _ _ (xWf_apply x0 x3 x4 p g) (uf_eq x7) (buf_eq x8)
      (fun k => slab_apply x1 6 _ p k) (slab_apply x2 6 _ p g))

end Forget

/-- The summed children's rows through the three node gates' recurrent weights side by side, plus the biases, at an
    entry. -/
theorem pay1_apply (v101 v111 : FVec Ideal S256x512 .f32) (v124 : Vec Ideal S512x1536 .bf16) (v126 : Vec Ideal S1x1536 .f32)
    (p : Fin 256) (c : Fin 1536) :
    k0_pay1 (F := Ideal) v101 v111 v124 v126 (ix2 p c)
      = (∑ k : Fin 512, (v101 (ix2 p k) + v111 (ix2 p k)) * v124 (ix2 k c)) + v126 (ix2 (0 : Fin 1) c) := by
  unfold k0_pay1
  refine congrArg₂ (· + ·) ((mm1536 _ _ p c).trans ?_) ((broadcastTo_1b_ab_apply _ _ p c).trans ?_)
  · rw [shapeCast_self]; rfl
  · rw [shapeCast_self]

section Gates
variable (x0 : Vec Ideal S256x512 .f32) (x1 x2 : Vec Ideal S256x8x512 .f32) (x3 : Vec Ideal S512x2048 .bf16) (x4 : Vec Ideal S1x2048 .f32)
  (x5 : Vec Ideal S512x1536 .bf16) (x6 : Vec Ideal S1x1536 .f32) (x7 : Vec Ideal S512x512 .bf16) (x8 : Vec Ideal S1x512 .f32)
  (p : Fin 256) (g : Fin 512)

/-- One node gate's band of the recurrent projection: the summed children's row through that gate's recurrent weights,
    plus its recurrent bias. -/
theorem uband_apply (o : Nat) (h : o + 512 ≤ 1536) (hsl : S256x1536.Slices ![0, o] S256x512) :
    extractStridedSlice S256x512 ![0, o]
        (k0_pay1 (F := Ideal) (Body.hsum6 x1) (Body.kid7 x1) (View.ld x5 Body.rU) (View.ld x6 Body.rbU)) hsl (ix2 p g)
      = dot (hs (kidsOf x1 p)) (colsAt o h x5) g + rowAt o h x6 g := by
  rw [ld_rU, ld_rbU]
  refine (slice2_axis1_eq o _ hsl p g).trans ((pay1_apply _ _ x5 x6 p _).trans ?_)
  refine congrArg₂ (· + ·) ?_ rfl
  exact Finset.sum_congr rfl fun k _ => congrArg₂ (· * ·) (hsAll_apply x1 p k) rfl

/-- What a node gate applies its nonlinearity to: the band of the node projection plus the band of the recurrent
    projection, re-associated to the specification's order of additions. -/
theorem gate_apply (o : Nat) (hW : o + 512 ≤ 2048) (hU : o + 512 ≤ 1536) (hsl : S256x1536.Slices ![0, o] S256x512)
    (v : FVec Ideal S256x512 .f32)
    (hv : v (ix2 p g) = dot (rowOf x0 p) (colsAt o hW x3) g + rowAt o hW x4 g) :
    v (ix2 p g) + extractStridedSlice S256x512 ![0, o]
        (k0_pay1 (F := Ideal) (Body.hsum6 x1) (Body.kid7 x1) (View.ld x5 Body.rU) (View.ld x6 Body.rbU)) hsl (ix2 p g)
      = gatePre (colsAt o hW x3) (rowAt o hW x4) (colsAt o hU x5) (rowAt o hU x6) (rowOf x0 p) (kidsOf x1 p) g := by
  rw [hv, uband_apply x1 x5 x6 p g o hU hsl]
  unfold gatePre
  exact (add_assoc _ _ _).symm

/-- The new cell block the body stores, at an entry, is the specification's cell row. -/
theorem cTerm_apply : Body.cTerm (F := Ideal) x0 x1 x2 x3 x4 x5 x6 x7 x8 (ix2 p g) =
    cRow (colsAt 0 (by omega) x3) (rowAt 0 (by omega) x4) (colsAt 0 (by omega) x5) (rowAt 0 (by omega) x6)
      (colsAt 1536 (by omega) x3) (rowAt 1536 (by omega) x4) (fun k g' => x7 (ix2 k g')) (fun g' => x8 (ix2 (0 : Fin 1) g'))
      (colsAt 1024 (by omega) x3) (rowAt 1024 (by omega) x4) (colsAt 1024 (by omega) x5) (rowAt 1024 (by omega) x6)
      (rowOf x0 p) (kidsOf x1 p) (kidsOf x2 p) g := by
  unfold Body.cTerm k0_pay2 cRow
  refine congrArg₂ (· + ·) (congrArg₂ (· * ·)
      (congrArg Ideal.logistic (gate_apply x0 x1 x3 x4 x5 x6 p g 0 _ _ _ _ (xWi_apply x0 x3 x4 p g)))
      (congrArg Ideal.tanh (gate_apply x0 x1 x3 x4 x5 x6 p g 1024 _ _ _ _ (xWu_apply x0 x3 x4 p g)))) ?_
  rw [Fin.sum_univ_eight]
  exact congrArg₂ (· + ·) (cf6_apply x0 x1 x2 x3 x4 x7 x8 p g)
    (fchild x0 x1 x2 x3 x4 x7 x8 p g 7 _ _ _ _ _ (xWf_apply x0 x3 x4 p g) (uf_eq x7) (buf_eq x8)
      (fun k => kid7_apply x1 p k) (slab_apply x2 7 _ p g))

/-- The new hidden block the body stores, at an entry, is the specification's hidden row. -/
theorem hTerm_apply : Body.hTerm (F := Ideal) x0 x1 x2 x3 x4 x5 x6 x7 x8 (ix2 p g) =
    hRow (colsAt 0 (by omega) x3) (rowAt 0 (by omega) x4) (colsAt 0 (by omega) x5) (rowAt 0 (by omega) x6)
      (colsAt 1536 (by omega) x3) (rowAt 1536 (by omega) x4) (fun k g' => x7 (ix2 k g')) (fun g' => x8 (ix2 (0 : Fin 1) g'))
      (colsAt 512 (by omega) x3) (rowAt 512 (by omega) x4) (colsAt 512 (by omega) x5) (rowAt 512 (by omega) x6)
      (colsAt 1024 (by omega) x3) (rowAt 1024 (by omega) x4) (colsAt 1024 (by omega) x5) (rowAt 1024 (by omega) x6)
      (rowOf x0 p) (kidsOf x1 p) (kidsOf x2 p) g := by
  unfold Body.hTerm k0_pay3 hRow
  exact congrArg₂ (· * ·)
    (congrArg Ideal.logistic (gate_apply x0 x1 x3 x4 x5 x6 p g 512 _ _ _ _ (xWo_apply x0 x3 x4 p g)))
    (congrArg Ideal.tanh (cTerm_apply x0 x1 x2 x3 x4 x5 x6 x7 x8 p g))

end Gates

end Cert.KernelIdeal.BodyValue

end
-- ==== Proof.PackedWeights.lean ====
/-
  The packed weights, read back one gate at a time, on the extended reals.

  Several gates' [512,512] weight matrices are laid side by side along the column axis into one [512,2048] (four gates)
  or [512,1536] (three gates) matrix, and their [512] biases are laid end to end into one [2048] or [1536] vector that is
  then viewed as a single row [1,2048] / [1,1536]. A narrowing format change is the identity on extended reals. So the
  band of columns `512*j … 512*j + 511` of the side-by-side matrix is the `j`-th matrix, and the entries
  `512*j … 512*j + 511` of the one row are the `j`-th bias: a concatenation read at an index whose axis coordinate
  falls in piece `j`'s span is piece `j` read at that coordinate less the extents before it, and a [n] vector viewed as
  [1,n] reads, at `(0, g)`, the vector at `g` (the same row-major position).
-/
import proofs.«116957_j34574486733551_2_alg».proof.Proof.Spec
import proofs.«116957_j34574486733551_2_alg».proof.Proof.Gen.KernelIdeal
import Idealize.ShloMosaic.Lib.Pipeline.Value
import Idealize.ShloMosaic.Lib.ValueIdx
import Idealize.ShloMosaic.Lib.ValueLayout

noncomputable section

namespace Cert.KernelIdeal.Packed

open Idealize.ShloMosaic Idealize.ShloMosaic.ValueIdx Cert.TreeCell Cert.KernelIdeal Cert.KernelIdeal.Gen

/-! ## Four gates side by side: [512,2048] -/

/-- Columns 0 … 511 of four matrices laid side by side (then narrowed: the identity) are the first matrix. -/
theorem cols4_0 (a b c d : Vec Ideal S512x512 .f32) :
    colsAt 0 (by omega) (truncf (F := Ideal) .bf16 (concatenate S512x2048 1 [⟨S512x512, a⟩, ⟨S512x512, b⟩, ⟨S512x512, c⟩, ⟨S512x512, d⟩]
      concatenates_S512x512_S512x512_S512x512_S512x512_S512x2048_d1) bitsLt_bf16_f32) = mat a := by
  funext k g
  unfold colsAt
  rw [truncf_apply]
  -- piece 0 spans columns 0 … 511; the row coordinate is untouched
  exact concatenate_apply_piece (t := S512x2048) 1 _ _ _ 0 (by show 0 < 4; omega) S512x512 a rfl rfl 0 rfl (ix2 k g)
    (fun e he => by match e with | ⟨0, _⟩ => rfl | ⟨1, _⟩ => exact absurd rfl he) rfl

/-- Columns 512 … 1023 of four matrices laid side by side (then narrowed: the identity) are the second matrix. -/
theorem cols4_1 (a b c d : Vec Ideal S512x512 .f32) :
    colsAt 512 (by omega) (truncf (F := Ideal) .bf16 (concatenate S512x2048 1 [⟨S512x512, a⟩, ⟨S512x512, b⟩, ⟨S512x512, c⟩, ⟨S512x512, d⟩]
      concatenates_S512x512_S512x512_S512x512_S512x512_S512x2048_d1) bitsLt_bf16_f32) = mat b := by
  funext k g
  unfold colsAt
  rw [truncf_apply]
  -- piece 1 spans columns 512 … 1023; the row coordinate is untouched
  exact concatenate_apply_piece (t := S512x2048) 1 _ _ _ 1 (by show 1 < 4; omega) S512x512 b rfl rfl 512 rfl (ix2 k g)
    (fun e he => by match e with | ⟨0, _⟩ => rfl | ⟨1, _⟩ => exact absurd rfl he) rfl

/-- Columns 1024 … 1535 of four matrices laid side by side (then narrowed: the identity) are the third matrix. -/
theorem cols4_2 (a b c d : Vec Ideal S512x512 .f32) :
    colsAt 1024 (by omega) (truncf (F := Ideal) .bf16 (concatenate S512x2048 1 [⟨S512x512, a⟩, ⟨S512x512, b⟩, ⟨S512x512, c⟩, ⟨S512x512, d⟩]
      concatenates_S512x512_S512x512_S512x512_S512x512_S512x2048_d1) bitsLt_bf16_f32) = mat c := by
  funext k g
  unfold colsAt
  rw [truncf_apply]
  -- piece 2 spans columns 1024 … 1535; the row coordinate is untouched
  exact concatenate_apply_piece (t := S512x2048) 1 _ _ _ 2 (by show 2 < 4; omega) S512x512 c rfl rfl 1024 rfl (ix2 k g)
    (fun e he => by match e with | ⟨0, _⟩ => rfl | ⟨1, _⟩ => exact absurd rfl he) rfl

/-- Columns 1536 … 2047 of four matrices laid side by side (then narrowed: the identity) are the fourth matrix. -/
theorem cols4_3 (a b c d : Vec Ideal S512x512 .f32) :
    colsAt 1536 (by omega) (truncf (F := Ideal) .bf16 (concatenate S512x2048 1 [⟨S512x512, a⟩, ⟨S512x512, b⟩, ⟨S512x512, c⟩, ⟨S512x512, d⟩]
      concatenates_S512x512_S512x512_S512x512_S512x512_S512x2048_d1) bitsLt_bf16_f32) = mat d := by
  funext k g
  unfold colsAt
  rw [truncf_apply]
  -- piece 3 spans columns 1536 … 2047; the row coordinate is untouched
  exact concatenate_apply_piece (t := S512x2048) 1 _ _ _ 3 (by show 3 < 4; omega) S512x512 d rfl rfl 1536 rfl (ix2 k g)
    (fun e he => by match e with | ⟨0, _⟩ => rfl | ⟨1, _⟩ => exact absurd rfl he) rfl

/-! ## Four biases end to end, as one row: [2048] viewed as [1,2048] -/

/-- Entries 0 … 511 of the one row made of four biases laid end to end are the first bias. -/
theorem row4_0 (p q r s : Vec Ideal S512 .f32) :
    rowAt 0 (by omega) (shapeCast S1x2048 (concatenate S2048 0 [⟨S512, p⟩, ⟨S512, q⟩, ⟨S512, r⟩, ⟨S512, s⟩]
      concatenates_S512_S512_S512_S512_S2048_d0) shapeCasts_S2048_S1x2048) = vec p := by
  funext g
  unfold rowAt
  -- the row view reads the vector at the same position …
  refine (shapeCast_a_1a_apply _ _ _ _).trans ?_
  -- … which falls in piece 0's span 0 … 511
  exact concatenate_apply_piece (t := S2048) 0 _ _ _ 0 (by show 0 < 4; omega) S512 p rfl rfl 0 rfl (ix1 g)
    (fun e he => by match e with | ⟨0, _⟩ => exact absurd rfl he) rfl

/-- Entries 512 … 1023 of the one row made of four biases laid end to end are the second bias. -/
theorem row4_1 (p q r s : Vec Ideal S512 .f32) :
    rowAt 512 (by omega) (shapeCast S1x2048 (concatenate S2048 0 [⟨S512, p⟩, ⟨S512, q⟩, ⟨S512, r⟩, ⟨S512, s⟩]
      concatenates_S512_S512_S512_S512_S2048_d0) shapeCasts_S2048_S1x2048) = vec q := by
  funext g
  unfold rowAt
  -- the row view reads the vector at the same position …
  refine (shapeCast_a_1a_apply _ _ _ _).trans ?_
  -- … which falls in piece 1's span 512 … 1023
  exact concatenate_apply_piece (t := S2048) 0 _ _ _ 1 (by show 1 < 4; omega) S512 q rfl rfl 512 rfl (ix1 g)
    (fun e he => by match e with | ⟨0, _⟩ => exact absurd rfl he) rfl

/-- Entries 1024 … 1535 of the one row made of four biases laid end to end are the third bias. -/
theorem row4_2 (p q r s : Vec Ideal S512 .f32) :
    rowAt 1024 (by omega) (shapeCast S1x2048 (concatenate S2048 0 [⟨S512, p⟩, ⟨S512, q⟩, ⟨S512, r⟩, ⟨S512, s⟩]
      concatenates_S512_S512_S512_S512_S2048_d0) shapeCasts_S2048_S1x2048) = vec r := by
  funext g
  unfold rowAt
  -- the row view reads the vector at the same position …
  refine (shapeCast_a_1a_apply _ _ _ _).trans ?_
  -- … which falls in piece 2's span 1024 … 1535
  exact concatenate_apply_piece (t := S2048) 0 _ _ _ 2 (by show 2 < 4; omega) S512 r rfl rfl 1024 rfl (ix1 g)
    (fun e he => by match e with | ⟨0, _⟩ => exact absurd rfl he) rfl

/-- Entries 1536 … 2047 of the one row made of four biases laid end to end are the fourth bias. -/
theorem row4_3 (p q r s : Vec Ideal S512 .f32) :
    rowAt 1536 (by omega) (shapeCast S1x2048 (concatenate S2048 0 [⟨S512, p⟩, ⟨S512, q⟩, ⟨S512, r⟩, ⟨S512, s⟩]
      concatenates_S512_S512_S512_S512_S2048_d0) shapeCasts_S2048_S1x2048) = vec s := by
  funext g
  unfold rowAt
  -- the row view reads the vector at the same position …
  refine (shapeCast_a_1a_apply _ _ _ _).trans ?_
  -- … which falls in piece 3's span 1536 … 2047
  exact concatenate_apply_piece (t := S2048) 0 _ _ _ 3 (by show 3 < 4; omega) S512 s rfl rfl 1536 rfl (ix1 g)
    (fun e he => by match e with | ⟨0, _⟩ => exact absurd rfl he) rfl

/-! ## Three gates side by side: [512,1536] -/

/-- Columns 0 … 511 of three matrices laid side by side (then narrowed: the identity) are the first matrix. -/
theorem cols3_0 (a b c : Vec Ideal S512x512 .f32) :
    colsAt 0 (by omega) (truncf (F := Ideal) .bf16 (concatenate S512x1536 1 [⟨S512x512, a⟩, ⟨S512x512, b⟩, ⟨S512x512, c⟩]
      concatenates_S512x512_S512x512_S512x512_S512x1536_d1) bitsLt_bf16_f32) = mat a := by
  funext k g
  unfold colsAt
  rw [truncf_apply]
  exact concatenate_apply_piece (t := S512x1536) 1 _ _ _ 0 (by show 0 < 3; omega) S512x512 a rfl rfl 0 rfl (ix2 k g)
    (fun e he => by match e with | ⟨0, _⟩ => rfl | ⟨1, _⟩ => exact absurd rfl he) rfl

/-- Columns 512 … 1023 of three matrices laid side by side (then narrowed: the identity) are the second matrix. -/
theorem cols3_1 (a b c : Vec Ideal S512x512 .f32) :
    colsAt 512 (by omega) (truncf (F := Ideal) .bf16 (concatenate S512x1536 1 [⟨S512x512, a⟩, ⟨S512x512, b⟩, ⟨S512x512, c⟩]
      concatenates_S512x512_S512x512_S512x512_S512x1536_d1) bitsLt_bf16_f32) = mat b := by
  funext k g
  unfold colsAt
  rw [truncf_apply]
  exact concatenate_apply_piece (t := S512x1536) 1 _ _ _ 1 (by show 1 < 3; omega) S512x512 b rfl rfl 512 rfl (ix2 k g)
    (fun e he => by match e with | ⟨0, _⟩ => rfl | ⟨1, _⟩ => exact absurd rfl he) rfl

/-- Columns 1024 … 1535 of three matrices laid side by side (then narrowed: the identity) are the third matrix. -/
theorem cols3_2 (a b c : Vec Ideal S512x512 .f32) :
    colsAt 1024 (by omega) (truncf (F := Ideal) .bf16 (concatenate S512x1536 1 [⟨S512x512, a⟩, ⟨S512x512, b⟩, ⟨S512x512, c⟩]
      concatenates_S512x512_S512x512_S512x512_S512x1536_d1) bitsLt_bf16_f32) = mat c := by
  funext k g
  unfold colsAt
  rw [truncf_apply]
  exact concatenate_apply_piece (t := S512x1536) 1 _ _ _ 2 (by show 2 < 3; omega) S512x512 c rfl rfl 1024 rfl (ix2 k g)
    (fun e he => by match e with | ⟨0, _⟩ => rfl | ⟨1, _⟩ => exact absurd rfl he) rfl

/-! ## Three biases end to end, as one row: [1536] viewed as [1,1536] -/

/-- Entries 0 … 511 of the one row made of three biases laid end to end are the first bias. -/
theorem row3_0 (p q r : Vec Ideal S512 .f32) :
    rowAt 0 (by omega) (shapeCast S1x1536 (concatenate S1536 0 [⟨S512, p⟩, ⟨S512, q⟩, ⟨S512, r⟩]
      concatenates_S512_S512_S512_S1536_d0) shapeCasts_S1536_S1x1536) = vec p := by
  funext g
  unfold rowAt
  refine (shapeCast_a_1a_apply _ _ _ _).trans ?_
  exact concatenate_apply_piece (t := S1536) 0 _ _ _ 0 (by show 0 < 3; omega) S512 p rfl rfl 0 rfl (ix1 g)
    (fun e he => by match e with | ⟨0, _⟩ => exact absurd rfl he) rfl

/-- Entries 512 … 1023 of the one row made of three biases laid end to end are the second bias. -/
theorem row3_1 (p q r : Vec Ideal S512 .f32) :
    rowAt 512 (by omega) (shapeCast S1x1536 (concatenate S1536 0 [⟨S512, p⟩, ⟨S512, q⟩, ⟨S512, r⟩]
      concatenates_S512_S512_S512_S1536_d0) shapeCasts_S1536_S1x1536) = vec q := by
  funext g
  unfold rowAt
  refine (shapeCast_a_1a_apply _ _ _ _).trans ?_
  exact concatenate_apply_piece (t := S1536) 0 _ _ _ 1 (by show 1 < 3; omega) S512 q rfl rfl 512 rfl (ix1 g)
    (fun e he => by match e with | ⟨0, _⟩ => exact absurd rfl he) rfl

/-- Entries 1024 … 1535 of the one row made of three biases laid end to end are the third bias. -/
theorem row3_2 (p q r : Vec Ideal S512 .f32) :
    rowAt 1024 (by omega) (shapeCast S1x1536 (concatenate S1536 0 [⟨S512, p⟩, ⟨S512, q⟩, ⟨S512, r⟩]
      concatenates_S512_S512_S512_S1536_d0) shapeCasts_S1536_S1x1536) = vec r := by
  funext g
  unfold rowAt
  refine (shapeCast_a_1a_apply _ _ _ _).trans ?_
  exact concatenate_apply_piece (t := S1536) 0 _ _ _ 2 (by show 2 < 3; omega) S512 r rfl rfl 1024 rfl (ix1 g)
    (fun e he => by match e with | ⟨0, _⟩ => exact absurd rfl he) rfl

/-! ## The one matrix and the one bias that are not packed with others -/

/-- A narrowed matrix is the matrix: the format change is the identity on extended reals. -/
theorem uf_eq (a : Vec Ideal S512x512 .f32) :
    (fun k g' => (truncf (F := Ideal) .bf16 a bitsLt_bf16_f32 : Vec Ideal S512x512 .bf16) (ix2 k g')) = mat a := rfl

/-- A [512] bias viewed as the one row [1,512] reads, at `(0, g')`, the bias at `g'`. -/
theorem buf_eq (p : Vec Ideal S512 .f32) :
    (fun g' => (shapeCast S1x512 p shapeCasts_S512_S1x512) (ix2 (0 : Fin 1) g')) = vec p := by
  funext g'
  exact shapeCast_a_1a_apply _ _ _ _

end Cert.KernelIdeal.Packed

end
-- ==== Proof.BlocksKI.lean ====
/-
  From the blocks the grid points write back to the two whole output arrays, and the host lines after the region: the
  cell kernel's program ends with its result buffer at the stack of the new hidden array and the new cell array of the
  nineteen arguments, the arguments unchanged.

  Point `t` of the 32 handles rows 256·t … 256·t + 255: its node-row and children blocks are those rows of the
  arguments, its weight blocks are the whole packed weight arrays (whose index never moves), which are the gates'
  own weights laid side by side; so the block it writes back is rows 256·t … of the array the row functions define,
  and the 32 blocks cover the array.
-/
import proofs.«116957_j34574486733551_2_alg».proof.Proof.RunKI
import proofs.«116957_j34574486733551_2_alg».proof.Proof.HostPrefixKI
import proofs.«116957_j34574486733551_2_alg».proof.Proof.Spec
import proofs.«116957_j34574486733551_2_alg».proof.Proof.BodyValue
import proofs.«116957_j34574486733551_2_alg».proof.Proof.PackedWeights
import Idealize.ShloMosaic.Lib.Pipeline.Value
import Idealize.ShloMosaic.Lib.ValueIdx
import Idealize.ShloMosaic.Lib.StableHlo.Run

set_option maxRecDepth 16384

noncomputable section

namespace Cert.KernelIdeal.Frame

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.TreeCell

variable (m : (ℓ : Loc nD τ sig) → Buf (Elt Ideal) ℓ) (ρ : Dev nD → PrngReg)

/-! ## The two arrays of the arguments -/

/-- The new hidden array of the arguments as launched on core `c`. -/
def hK (c : Dev nD) : S8192x512.Idx → EReal := hArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
/-- The new cell array of the arguments as launched on core `c`. -/
def cK (c : Dev nD) : S8192x512.Idx → EReal := cArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

/-! ## The index maps over the grid -/

theorem hz : (![0, 0] : Fin 2 → Nat) = fun _ => 0 := funext fun a => by fin_cases a <;> rfl

/-- The printed index maps, decided over the grid: the node rows, the children and the two outputs move with the
    point along the leading axis and sit at zero elsewhere; the weights sit at zero. -/
theorem idx_facts : ∀ t : Fin cfg0.N, win0_0.index t (0 : Fin 2) = t.val
    ∧ win0_0.index t (1 : Fin 2) = 0
    ∧ win0_1.index t (0 : Fin 3) = t.val
    ∧ win0_1.index t (1 : Fin 3) = 0
    ∧ win0_1.index t (2 : Fin 3) = 0
    ∧ win0_2.index t (0 : Fin 3) = t.val
    ∧ win0_2.index t (1 : Fin 3) = 0
    ∧ win0_2.index t (2 : Fin 3) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = t.val
    ∧ win0_9.index t (1 : Fin 2) = 0
    ∧ win0_10.index t (0 : Fin 2) = t.val
    ∧ win0_10.index t (1 : Fin 2) = 0 :=
  (by decide +kernel : ∀ t : Fin grid0.N, _)

/-- The row of the arrays that row `p` of point `t`'s blocks is. -/
def rowIx (t : Fin cfg0.N) (p : Fin 256) : Fin 8192 :=
  ⟨t.val * 256 + p.val, by have ht : t.val < 32 := lt_of_lt_of_eq t.isLt N_0; have hp := p.isLt; omega⟩

/-! ## The input blocks read off the arguments -/

/-- Row `p` of point `t`'s node-row block is row `256·t + p` of the node rows. -/
theorem row0 (c : Dev nD) (t : Fin cfg0.N) (p : Fin 256) :
    rowOf (iblk m c 0 t : (⟨2, ![256, 512]⟩ : Shape).Idx → EReal) p = rowOf (m ((c : Thread nD τ).loc main_arg0)) (rowIx t p) := by
  obtain ⟨f0, f1, f2, f3, f4, f5, f6, f7, f8, f9, f10, f11, f12, f13, f14, f15, f16, f17, f18, f19, f20, f21, f22, f23⟩ := idx_facts t
  funext k
  show iblk m c 0 t (ix2 p k) = (m ((c : Thread nD τ).loc main_arg0)) (ix2 (rowIx t p) k)
  unfold iblk
  show V m c main_arg0 (((cfg0.win 0).blk t).view.emb (ix2 p k)) = _
  rw [V_main_arg0]
  have e : ((cfg0.win 0).blk t).view.emb (ix2 p k) = ix2 (rowIx t p) k := by
    funext a; apply Fin.ext
    match a with
    | ⟨0, _⟩ => show win0_0.index t (0 : Fin 2) * 256 + 1 * p.val = t.val * 256 + p.val; omega
    | ⟨1, _⟩ => show win0_0.index t (1 : Fin 2) * 512 + 1 * k.val = k.val; omega
  rw [e]

/-- Node `p` of point `t`'s block of children's hidden rows is node `256·t + p`'s children. -/
theorem kids1 (c : Dev nD) (t : Fin cfg0.N) (p : Fin 256) :
    kidsOf (iblk m c 1 t : (⟨3, ![256, 8, 512]⟩ : Shape).Idx → EReal) p = kidsOf (m ((c : Thread nD τ).loc main_arg1)) (rowIx t p) := by
  obtain ⟨f0, f1, f2, f3, f4, f5, f6, f7, f8, f9, f10, f11, f12, f13, f14, f15, f16, f17, f18, f19, f20, f21, f22, f23⟩ := idx_facts t
  funext j k
  show iblk m c 1 t (ix3 p j k) = (m ((c : Thread nD τ).loc main_arg1)) (ix3 (rowIx t p) j k)
  unfold iblk
  show V m c main_arg1 (((cfg0.win 1).blk t).view.emb (ix3 p j k)) = _
  rw [V_main_arg1]
  have e : ((cfg0.win 1).blk t).view.emb (ix3 p j k) = ix3 (rowIx t p) j k := by
    funext a; apply Fin.ext
    match a with
    | ⟨0, _⟩ => show win0_1.index t (0 : Fin 3) * 256 + 1 * p.val = t.val * 256 + p.val; omega
    | ⟨1, _⟩ => show win0_1.index t (1 : Fin 3) * 8 + 1 * j.val = j.val; omega
    | ⟨2, _⟩ => show win0_1.index t (2 : Fin 3) * 512 + 1 * k.val = k.val; omega
  rw [e]

/-- The same for the children's cell rows. -/
theorem kids2 (c : Dev nD) (t : Fin cfg0.N) (p : Fin 256) :
    kidsOf (iblk m c 2 t : (⟨3, ![256, 8, 512]⟩ : Shape).Idx → EReal) p = kidsOf (m ((c : Thread nD τ).loc main_arg2)) (rowIx t p) := by
  obtain ⟨f0, f1, f2, f3, f4, f5, f6, f7, f8, f9, f10, f11, f12, f13, f14, f15, f16, f17, f18, f19, f20, f21, f22, f23⟩ := idx_facts t
  funext j k
  show iblk m c 2 t (ix3 p j k) = (m ((c : Thread nD τ).loc main_arg2)) (ix3 (rowIx t p) j k)
  unfold iblk
  show V m c main_arg2 (((cfg0.win 2).blk t).view.emb (ix3 p j k)) = _
  rw [V_main_arg2]
  have e : ((cfg0.win 2).blk t).view.emb (ix3 p j k) = ix3 (rowIx t p) j k := by
    funext a; apply Fin.ext
    match a with
    | ⟨0, _⟩ => show win0_2.index t (0 : Fin 3) * 256 + 1 * p.val = t.val * 256 + p.val; omega
    | ⟨1, _⟩ => show win0_2.index t (1 : Fin 3) * 8 + 1 * j.val = j.val; omega
    | ⟨2, _⟩ => show win0_2.index t (2 : Fin 3) * 512 + 1 * k.val = k.val; omega
  rw [e]

/-- Window 3's block is its whole array at every point: its index never moves from zero. -/
theorem blk3_eq (c : Dev nD) (t : Fin cfg0.N) : (iblk m c 3 t : S512x2048.Idx → EReal) = V m c main_v1 := by
  obtain ⟨f0, f1, f2, f3, f4, f5, f6, f7, f8, f9, f10, f11, f12, f13, f14, f15, f16, f17, f18, f19, f20, f21, f22, f23⟩ := idx_facts t
  funext y
  unfold iblk
  show V m c main_v1 (((cfg0.win 3).blk t).view.emb y) = V m c main_v1 y
  have e : ((cfg0.win 3).blk t).view.emb y = y := by
    funext a; apply Fin.ext
    match a with
    | ⟨0, _⟩ => show win0_3.index t (0 : Fin 2) * 512 + 1 * (y 0).val = (y 0).val; omega
    | ⟨1, _⟩ => show win0_3.index t (1 : Fin 2) * 2048 + 1 * (y 1).val = (y 1).val; omega
  rw [e]

/-- Window 4's block is its whole array at every point: its index never moves from zero. -/
theorem blk4_eq (c : Dev nD) (t : Fin cfg0.N) : (iblk m c 4 t : S1x2048.Idx → EReal) = V m c main_v3 := by
  obtain ⟨f0, f1, f2, f3, f4, f5, f6, f7, f8, f9, f10, f11, f12, f13, f14, f15, f16, f17, f18, f19, f20, f21, f22, f23⟩ := idx_facts t
  funext y
  unfold iblk
  show V m c main_v3 (((cfg0.win 4).blk t).view.emb y) = V m c main_v3 y
  have e : ((cfg0.win 4).blk t).view.emb y = y := by
    funext a; apply Fin.ext
    match a with
    | ⟨0, _⟩ => show win0_4.index t (0 : Fin 2) * 1 + 1 * (y 0).val = (y 0).val; omega
    | ⟨1, _⟩ => show win0_4.index t (1 : Fin 2) * 2048 + 1 * (y 1).val = (y 1).val; omega
  rw [e]

/-- Window 5's block is its whole array at every point: its index never moves from zero. -/
theorem blk5_eq (c : Dev nD) (t : Fin cfg0.N) : (iblk m c 5 t : S512x1536.Idx → EReal) = V m c main_v5 := by
  obtain ⟨f0, f1, f2, f3, f4, f5, f6, f7, f8, f9, f10, f11, f12, f13, f14, f15, f16, f17, f18, f19, f20, f21, f22, f23⟩ := idx_facts t
  funext y
  unfold iblk
  show V m c main_v5 (((cfg0.win 5).blk t).view.emb y) = V m c main_v5 y
  have e : ((cfg0.win 5).blk t).view.emb y = y := by
    funext a; apply Fin.ext
    match a with
    | ⟨0, _⟩ => show win0_5.index t (0 : Fin 2) * 512 + 1 * (y 0).val = (y 0).val; omega
    | ⟨1, _⟩ => show win0_5.index t (1 : Fin 2) * 1536 + 1 * (y 1).val = (y 1).val; omega
  rw [e]

/-- Window 6's block is its whole array at every point: its index never moves from zero. -/
theorem blk6_eq (c : Dev nD) (t : Fin cfg0.N) : (iblk m c 6 t : S1x1536.Idx → EReal) = V m c main_v7 := by
  obtain ⟨f0, f1, f2, f3, f4, f5, f6, f7, f8, f9, f10, f11, f12, f13, f14, f15, f16, f17, f18, f19, f20, f21, f22, f23⟩ := idx_facts t
  funext y
  unfold iblk
  show V m c main_v7 (((cfg0.win 6).blk t).view.emb y) = V m c main_v7 y
  have e : ((cfg0.win 6).blk t).view.emb y = y := by
    funext a; apply Fin.ext
    match a with
    | ⟨0, _⟩ => show win0_6.index t (0 : Fin 2) * 1 + 1 * (y 0).val = (y 0).val; omega
    | ⟨1, _⟩ => show win0_6.index t (1 : Fin 2) * 1536 + 1 * (y 1).val = (y 1).val; omega
  rw [e]

/-- Window 7's block is its whole array at every point: its index never moves from zero. -/
theorem blk7_eq (c : Dev nD) (t : Fin cfg0.N) : (iblk m c 7 t : S512x512.Idx → EReal) = V m c main_v8 := by
  obtain ⟨f0, f1, f2, f3, f4, f5, f6, f7, f8, f9, f10, f11, f12, f13, f14, f15, f16, f17, f18, f19, f20, f21, f22, f23⟩ := idx_facts t
  funext y
  unfold iblk
  show V m c main_v8 (((cfg0.win 7).blk t).view.emb y) = V m c main_v8 y
  have e : ((cfg0.win 7).blk t).view.emb y = y := by
    funext a; apply Fin.ext
    match a with
    | ⟨0, _⟩ => show win0_7.index t (0 : Fin 2) * 512 + 1 * (y 0).val = (y 0).val; omega
    | ⟨1, _⟩ => show win0_7.index t (1 : Fin 2) * 512 + 1 * (y 1).val = (y 1).val; omega
  rw [e]

/-- Window 8's block is its whole array at every point: its index never moves from zero. -/
theorem blk8_eq (c : Dev nD) (t : Fin cfg0.N) : (iblk m c 8 t : S1x512.Idx → EReal) = V m c main_v9 := by
  obtain ⟨f0, f1, f2, f3, f4, f5, f6, f7, f8, f9, f10, f11, f12, f13, f14, f15, f16, f17, f18, f19, f20, f21, f22, f23⟩ := idx_facts t
  funext y
  unfold iblk
  show V m c main_v9 (((cfg0.win 8).blk t).view.emb y) = V m c main_v9 y
  have e : ((cfg0.win 8).blk t).view.emb y = y := by
    funext a; apply Fin.ext
    match a with
    | ⟨0, _⟩ => show win0_8.index t (0 : Fin 2) * 1 + 1 * (y 0).val = (y 0).val; omega
    | ⟨1, _⟩ => show win0_8.index t (1 : Fin 2) * 512 + 1 * (y 1).val = (y 1).val; omega
  rw [e]

/-! ## Each gate's weights inside the packed blocks -/

/-- The input gate's input weights are columns 0–511 of the packed input weights. -/
theorem w_Wi (c : Dev nD) (t : Fin cfg0.N) : colsAt 0 (by omega) (iblk m c 3 t : (⟨2, ![512, 2048]⟩ : Shape).Idx → EReal) = mat (m ((c : Thread nD τ).loc main_arg3)) := by
  rw [blk3_eq m c t, V_v1 m c]
  exact Cert.KernelIdeal.Packed.cols4_0 _ _ _ _

/-- The output gate's are columns 512–1023. -/
theorem w_Wo (c : Dev nD) (t : Fin cfg0.N) : colsAt 512 (by omega) (iblk m c 3 t : (⟨2, ![512, 2048]⟩ : Shape).Idx → EReal) = mat (m ((c : Thread nD τ).loc main_arg11)) := by
  rw [blk3_eq m c t, V_v1 m c]
  exact Cert.KernelIdeal.Packed.cols4_1 _ _ _ _

/-- The update gate's are columns 1024–1535. -/
theorem w_Wu (c : Dev nD) (t : Fin cfg0.N) : colsAt 1024 (by omega) (iblk m c 3 t : (⟨2, ![512, 2048]⟩ : Shape).Idx → EReal) = mat (m ((c : Thread nD τ).loc main_arg15)) := by
  rw [blk3_eq m c t, V_v1 m c]
  exact Cert.KernelIdeal.Packed.cols4_2 _ _ _ _

/-- The forget gate's are columns 1536–2047. -/
theorem w_Wf (c : Dev nD) (t : Fin cfg0.N) : colsAt 1536 (by omega) (iblk m c 3 t : (⟨2, ![512, 2048]⟩ : Shape).Idx → EReal) = mat (m ((c : Thread nD τ).loc main_arg7)) := by
  rw [blk3_eq m c t, V_v1 m c]
  exact Cert.KernelIdeal.Packed.cols4_3 _ _ _ _

/-- The input gate's input bias is entries 0–511 of the packed input biases. -/
theorem w_bWi (c : Dev nD) (t : Fin cfg0.N) : rowAt 0 (by omega) (iblk m c 4 t : (⟨2, ![1, 2048]⟩ : Shape).Idx → EReal) = vec (m ((c : Thread nD τ).loc main_arg4)) := by
  rw [blk4_eq m c t, V_v3 m c]
  exact Cert.KernelIdeal.Packed.row4_0 _ _ _ _

/-- The output gate's is entries 512–1023. -/
theorem w_bWo (c : Dev nD) (t : Fin cfg0.N) : rowAt 512 (by omega) (iblk m c 4 t : (⟨2, ![1, 2048]⟩ : Shape).Idx → EReal) = vec (m ((c : Thread nD τ).loc main_arg12)) := by
  rw [blk4_eq m c t, V_v3 m c]
  exact Cert.KernelIdeal.Packed.row4_1 _ _ _ _

/-- The update gate's is entries 1024–1535. -/
theorem w_bWu (c : Dev nD) (t : Fin cfg0.N) : rowAt 1024 (by omega) (iblk m c 4 t : (⟨2, ![1, 2048]⟩ : Shape).Idx → EReal) = vec (m ((c : Thread nD τ).loc main_arg16)) := by
  rw [blk4_eq m c t, V_v3 m c]
  exact Cert.KernelIdeal.Packed.row4_2 _ _ _ _

/-- The forget gate's is entries 1536–2047. -/
theorem w_bWf (c : Dev nD) (t : Fin cfg0.N) : rowAt 1536 (by omega) (iblk m c 4 t : (⟨2, ![1, 2048]⟩ : Shape).Idx → EReal) = vec (m ((c : Thread nD τ).loc main_arg8)) := by
  rw [blk4_eq m c t, V_v3 m c]
  exact Cert.KernelIdeal.Packed.row4_3 _ _ _ _

/-- The input gate's recurrent weights are columns 0–511 of the packed recurrent weights. -/
theorem w_Ui (c : Dev nD) (t : Fin cfg0.N) : colsAt 0 (by omega) (iblk m c 5 t : (⟨2, ![512, 1536]⟩ : Shape).Idx → EReal) = mat (m ((c : Thread nD τ).loc main_arg5)) := by
  rw [blk5_eq m c t, V_v5 m c]
  exact Cert.KernelIdeal.Packed.cols3_0 _ _ _

/-- The output gate's are columns 512–1023. -/
theorem w_Uo (c : Dev nD) (t : Fin cfg0.N) : colsAt 512 (by omega) (iblk m c 5 t : (⟨2, ![512, 1536]⟩ : Shape).Idx → EReal) = mat (m ((c : Thread nD τ).loc main_arg13)) := by
  rw [blk5_eq m c t, V_v5 m c]
  exact Cert.KernelIdeal.Packed.cols3_1 _ _ _

/-- The update gate's are columns 1024–1535. -/
theorem w_Uu (c : Dev nD) (t : Fin cfg0.N) : colsAt 1024 (by omega) (iblk m c 5 t : (⟨2, ![512, 1536]⟩ : Shape).Idx → EReal) = mat (m ((c : Thread nD τ).loc main_arg17)) := by
  rw [blk5_eq m c t, V_v5 m c]
  exact Cert.KernelIdeal.Packed.cols3_2 _ _ _

/-- The input gate's recurrent bias is entries 0–511 of the packed recurrent biases. -/
theorem w_bUi (c : Dev nD) (t : Fin cfg0.N) : rowAt 0 (by omega) (iblk m c 6 t : (⟨2, ![1, 1536]⟩ : Shape).Idx → EReal) = vec (m ((c : Thread nD τ).loc main_arg6)) := by
  rw [blk6_eq m c t, V_v7 m c]
  exact Cert.KernelIdeal.Packed.row3_0 _ _ _

/-- The output gate's is entries 512–1023. -/
theorem w_bUo (c : Dev nD) (t : Fin cfg0.N) : rowAt 512 (by omega) (iblk m c 6 t : (⟨2, ![1, 1536]⟩ : Shape).Idx → EReal) = vec (m ((c : Thread nD τ).loc main_arg14)) := by
  rw [blk6_eq m c t, V_v7 m c]
  exact Cert.KernelIdeal.Packed.row3_1 _ _ _

/-- The update gate's is entries 1024–1535. -/
theorem w_bUu (c : Dev nD) (t : Fin cfg0.N) : rowAt 1024 (by omega) (iblk m c 6 t : (⟨2, ![1, 1536]⟩ : Shape).Idx → EReal) = vec (m ((c : Thread nD τ).loc main_arg18)) := by
  rw [blk6_eq m c t, V_v7 m c]
  exact Cert.KernelIdeal.Packed.row3_2 _ _ _

/-- The forget gate's recurrent weights are their own block. -/
theorem w_Uf (c : Dev nD) (t : Fin cfg0.N) : (fun k g' => (iblk m c 7 t : (⟨2, ![512, 512]⟩ : Shape).Idx → EReal) (ix2 k g')) = mat (m ((c : Thread nD τ).loc main_arg9)) := by
  rw [blk7_eq m c t, V_v8 m c]
  exact Cert.KernelIdeal.Packed.uf_eq _

/-- The forget gate's recurrent bias is its own one-row block. -/
theorem w_bUf (c : Dev nD) (t : Fin cfg0.N) : (fun g' => (iblk m c 8 t : (⟨2, ![1, 512]⟩ : Shape).Idx → EReal) (ix2 (0 : Fin 1) g')) = vec (m ((c : Thread nD τ).loc main_arg10)) := by
  rw [blk8_eq m c t, V_v9 m c]
  exact Cert.KernelIdeal.Packed.buf_eq _

/-! ## What each point writes back -/

/-- What point `t` writes back through output window 9 is block `t` of the new hidden array of the arguments. -/
theorem flushed9_eq (c : Dev nD) (t : Fin cfg0.N) :
    (dats m 0 c).flushed 9 t = ((cfg0.win 9).blk t).view.read (Elt Ideal) (hK m c) := by
  obtain ⟨f0, f1, f2, f3, f4, f5, f6, f7, f8, f9, f10, f11, f12, f13, f14, f15, f16, f17, f18, f19, f20, f21, f22, f23⟩ := idx_facts t
  show (cfg0.win 9).cut (grid0.coords t) ((dats m 0 c).after 9 t) = _
  rw [after0_9]
  unfold out0_9
  rw [View.canon_unit_zero hz]
  funext j
  obtain ⟨p, g, rfl⟩ : ∃ (p : Fin 256) (g : Fin 512), j = ix2 p g := ⟨j 0, j 1, eq_ix2 j⟩
  refine (Cert.KernelIdeal.BodyValue.hTerm_apply (iblk m c 0 t) (iblk m c 1 t) (iblk m c 2 t) (iblk m c 3 t) (iblk m c 4 t) (iblk m c 5 t) (iblk m c 6 t) (iblk m c 7 t) (iblk m c 8 t) p g).trans ?_
  rw [w_Wi m c t, w_bWi m c t, w_Ui m c t, w_bUi m c t, w_Wf m c t, w_bWf m c t, w_Uf m c t, w_bUf m c t,
    w_Wo m c t, w_bWo m c t, w_Uo m c t, w_bUo m c t,
    w_Wu m c t, w_bWu m c t, w_Uu m c t, w_bUu m c t, row0 m c t p, kids1 m c t p, kids2 m c t p]
  show _ = hK m c (((cfg0.win 9).blk t).view.emb (ix2 p g))
  have e : ((cfg0.win 9).blk t).view.emb (ix2 p g) = ix2 (rowIx t p) g := by
    funext a; apply Fin.ext
    match a with
    | ⟨0, _⟩ => show win0_9.index t (0 : Fin 2) * 256 + 1 * p.val = t.val * 256 + p.val; omega
    | ⟨1, _⟩ => show win0_9.index t (1 : Fin 2) * 512 + 1 * g.val = g.val; omega
  rw [e]
  rfl

/-- What point `t` writes back through output window 10 is block `t` of the new cell array of the arguments. -/
theorem flushed10_eq (c : Dev nD) (t : Fin cfg0.N) :
    (dats m 0 c).flushed 10 t = ((cfg0.win 10).blk t).view.read (Elt Ideal) (cK m c) := by
  obtain ⟨f0, f1, f2, f3, f4, f5, f6, f7, f8, f9, f10, f11, f12, f13, f14, f15, f16, f17, f18, f19, f20, f21, f22, f23⟩ := idx_facts t
  show (cfg0.win 10).cut (grid0.coords t) ((dats m 0 c).after 10 t) = _
  rw [after0_10]
  unfold out0_10
  rw [View.canon_unit_zero hz]
  funext j
  obtain ⟨p, g, rfl⟩ : ∃ (p : Fin 256) (g : Fin 512), j = ix2 p g := ⟨j 0, j 1, eq_ix2 j⟩
  refine (Cert.KernelIdeal.BodyValue.cTerm_apply (iblk m c 0 t) (iblk m c 1 t) (iblk m c 2 t) (iblk m c 3 t) (iblk m c 4 t) (iblk m c 5 t) (iblk m c 6 t) (iblk m c 7 t) (iblk m c 8 t) p g).trans ?_
  rw [w_Wi m c t, w_bWi m c t, w_Ui m c t, w_bUi m c t, w_Wf m c t, w_bWf m c t, w_Uf m c t, w_bUf m c t,
    w_Wu m c t, w_bWu m c t, w_Uu m c t, w_bUu m c t, row0 m c t p, kids1 m c t p, kids2 m c t p]
  show _ = cK m c (((cfg0.win 10).blk t).view.emb (ix2 p g))
  have e : ((cfg0.win 10).blk t).view.emb (ix2 p g) = ix2 (rowIx t p) g := by
    funext a; apply Fin.ext
    match a with
    | ⟨0, _⟩ => show win0_10.index t (0 : Fin 2) * 256 + 1 * p.val = t.val * 256 + p.val; omega
    | ⟨1, _⟩ => show win0_10.index t (1 : Fin 2) * 512 + 1 * g.val = g.val; omega
  rw [e]
  rfl

/-! ## The cover, and the arrays after the run -/

/-- An index of the array is in point `t`'s block iff each coordinate is in the block's range on its axis. -/
theorem mem_blk9 (t : Fin cfg0.N) (i : S8192x512.Idx) :
    i ∈ ((cfg0.win 9).blk t).view.set ↔ ∀ a : Fin 2, win0_9.index t a * S256x512.size a ≤ (i a).val ∧ (i a).val < win0_9.index t a * S256x512.size a + S256x512.size a := by
  show i ∈ ((View.whole main_v10_0).slice (win0_9.rect t)).set ↔ _
  rw [View.set_slice_whole, Rect.mem_set_unit]
  exact Iff.rfl

/-- Every row of the array lies in the block of the point that its row number divided by 256 names. -/
theorem cover9 (i : S8192x512.Idx) : ∃ t : Fin cfg0.N, (cfg0.win 9).flush t = true ∧ i ∈ ((cfg0.win 9).blk t).view.set := by
  have hi0 : (i 0).val < 8192 := (i 0).isLt
  have hi1 : (i 1).val < 512 := (i 1).isLt
  have ht : (i 0).val / 256 < cfg0.N := lt_of_lt_of_eq (by omega : (i 0).val / 256 < 32) N_0.symm
  obtain ⟨f0, f1, f2, f3, f4, f5, f6, f7, f8, f9, f10, f11, f12, f13, f14, f15, f16, f17, f18, f19, f20, f21, f22, f23⟩ := idx_facts ⟨(i 0).val / 256, ht⟩
  have h0 : win0_9.index ⟨(i 0).val / 256, ht⟩ (0 : Fin 2) = (i 0).val / 256 := f20
  have h1 : win0_9.index ⟨(i 0).val / 256, ht⟩ (1 : Fin 2) = 0 := f21
  refine ⟨⟨(i 0).val / 256, ht⟩, flush0_9 _, ?_⟩
  rw [mem_blk9]
  intro a
  match a with
  | ⟨0, _⟩ => show win0_9.index ⟨(i 0).val / 256, ht⟩ (0 : Fin 2) * 256 ≤ (i 0).val ∧ (i 0).val < win0_9.index ⟨(i 0).val / 256, ht⟩ (0 : Fin 2) * 256 + 256; omega
  | ⟨1, _⟩ => show win0_9.index ⟨(i 0).val / 256, ht⟩ (1 : Fin 2) * 512 ≤ (i 1).val ∧ (i 1).val < win0_9.index ⟨(i 0).val / 256, ht⟩ (1 : Fin 2) * 512 + 512; omega

/-- An index of the array is in point `t`'s block iff each coordinate is in the block's range on its axis. -/
theorem mem_blk10 (t : Fin cfg0.N) (i : S8192x512.Idx) :
    i ∈ ((cfg0.win 10).blk t).view.set ↔ ∀ a : Fin 2, win0_10.index t a * S256x512.size a ≤ (i a).val ∧ (i a).val < win0_10.index t a * S256x512.size a + S256x512.size a := by
  show i ∈ ((View.whole main_v10_1).slice (win0_10.rect t)).set ↔ _
  rw [View.set_slice_whole, Rect.mem_set_unit]
  exact Iff.rfl

/-- Every row of the array lies in the block of the point that its row number divided by 256 names. -/
theorem cover10 (i : S8192x512.Idx) : ∃ t : Fin cfg0.N, (cfg0.win 10).flush t = true ∧ i ∈ ((cfg0.win 10).blk t).view.set := by
  have hi0 : (i 0).val < 8192 := (i 0).isLt
  have hi1 : (i 1).val < 512 := (i 1).isLt
  have ht : (i 0).val / 256 < cfg0.N := lt_of_lt_of_eq (by omega : (i 0).val / 256 < 32) N_0.symm
  obtain ⟨f0, f1, f2, f3, f4, f5, f6, f7, f8, f9, f10, f11, f12, f13, f14, f15, f16, f17, f18, f19, f20, f21, f22, f23⟩ := idx_facts ⟨(i 0).val / 256, ht⟩
  have h0 : win0_10.index ⟨(i 0).val / 256, ht⟩ (0 : Fin 2) = (i 0).val / 256 := f22
  have h1 : win0_10.index ⟨(i 0).val / 256, ht⟩ (1 : Fin 2) = 0 := f23
  refine ⟨⟨(i 0).val / 256, ht⟩, flush0_10 _, ?_⟩
  rw [mem_blk10]
  intro a
  match a with
  | ⟨0, _⟩ => show win0_10.index ⟨(i 0).val / 256, ht⟩ (0 : Fin 2) * 256 ≤ (i 0).val ∧ (i 0).val < win0_10.index ⟨(i 0).val / 256, ht⟩ (0 : Fin 2) * 256 + 256; omega
  | ⟨1, _⟩ => show win0_10.index ⟨(i 0).val / 256, ht⟩ (1 : Fin 2) * 512 ≤ (i 1).val ∧ (i 1).val < win0_10.index ⟨(i 0).val / 256, ht⟩ (1 : Fin 2) * 512 + 512; omega

/-- The hidden-state array after the run. -/
theorem final9 (c : Dev nD) : (dats m 0 c).arrAt 9 cfg0.N = hK m c :=
  (dats m 0 c).arrAt_eq_of_cover 9 (hK m c) (fun t _ => flushed9_eq m c t) cover9

/-- The cell-state array after the run. -/
theorem final10 (c : Dev nD) : (dats m 0 c).arrAt 10 cfg0.N = cK m c :=
  (dats m 0 c).arrAt_eq_of_cover 10 (cK m c) (fun t _ => flushed10_eq m c t) cover10

/-! ## The host lines after the region -/

/-- The two arrays stacked along a new leading axis, as the host writes it. -/
def stackHC (h c' : S8192x512.Idx → EReal) : S2x8192x512.Idx → EReal :=
  concatenate S2x8192x512 0 [⟨S1x8192x512, broadcastInDim S1x8192x512 ![1, 2] bcast_S8192x512_S1x8192x512_1_2 h⟩,
    ⟨S1x8192x512, broadcastInDim S1x8192x512 ![1, 2] bcast_S8192x512_S1x8192x512_1_2 c'⟩] concatenates_S1x8192x512_S1x8192x512_S2x8192x512_d0

/-- The three lines after the region leave, in the result buffer, the stack of what they find in the two output arrays. -/
theorem tail_eq (W : Valuation τ sig (Elt Ideal)) :
    StableHlo.after hostOps1 W (Proc.devRef .tc main_v13) = stackHC (W (Proc.devRef .tc main_v10_0)) (W (Proc.devRef .tc main_v10_1)) := by
  after_results
  rfl

/-- The result buffer after the whole program. -/
theorem result_eq (c : Dev nD) :
    Pipeline.afterTail₀ cfgs (dats m) 0 (V0 m) [hostOps1] c main_v13 = stackHC (hK m c) (cK m c) := by
  unfold Pipeline.afterTail₀
  show StableHlo.after hostOps1 _ (Proc.devRef .tc main_v13) = _
  rw [tail_eq]
  have e9 : Pipeline.withArrays spec0 c (V0 m c) (fun w => (dats m 0 c).arrAt w cfg0.N) (Proc.devRef .tc main_v10_0) = hK m c :=
    (Pipeline.withArrays_arr spec0 launch0.win.arr_inj c _ _ 9).trans (final9 m c)
  have e10 : Pipeline.withArrays spec0 c (V0 m c) (fun w => (dats m 0 c).arrAt w cfg0.N) (Proc.devRef .tc main_v10_1) = cK m c :=
    (Pipeline.withArrays_arr spec0 launch0.win.arr_inj c _ _ 10).trans (final10 m c)
  exact congrArg₂ stackHC e9 e10

/-! ## The run, read -/

/-- Every weakly fair execution of the program at the ideal instance terminates with the result buffer at the stack of
    the new hidden and cell arrays of the arguments, the arguments unchanged. -/
theorem run : θ_run defs (onTc (τ := τ) (main (F := Ideal))) ⟨m, fun _ => 0, ρ⟩ fun r => ∀ c : Dev nD,
      r.2.mem ((c.tc : Thread nD τ).loc main_v13) = stackHC (hK m c) (cK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨((h c).2 main_v13 (Pipeline.mem_restRefs_of main_v13 (by decide) (by decide))).trans (result_eq m c),
      ((h c).1 0).trans ((((dats m) 0 c).arrAt_in 0 rfl _).trans ((A_eq m c 0).trans (V_main_arg0 m c))),
      ((h c).1 1).trans ((((dats m) 0 c).arrAt_in 1 rfl _).trans ((A_eq m c 1).trans (V_main_arg1 m c))),
      ((h c).1 2).trans ((((dats m) 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c)⟩)
    (run_main m ρ)

end Cert.KernelIdeal.Frame

end
-- ==== Proof.RefIsSpec.lean ====
/-
  The reference program of the Child-Sum Tree-LSTM cell computes the specification.

  The reference is read one operation at a time (the generated stages `val_main_vN` and their `_apply` lemmas).
  Each stage is identified, at an index split into its coordinates, with the matching piece of the row functions of
  `Cert.TreeCell`: the sum of the eight children's hidden rows, a row times a weight matrix, a bias row repeated over
  the nodes, a gate's pre-activation (the four summands in the specification's order), the logistic function spelled
  `1 / (1 + exp (-z))`, the per-child forget gate, and the sum over the children of forget gate times cell row.
  Beyond the definitions the proof uses only: the word `0x3F800000` denotes one and the zero word denotes zero,
  `0 + a = a`, and two finite sums with equal terms are equal. No law of the extended reals that needs finiteness
  appears: both sides add the same summands in the same order.
-/
import proofs.«116957_j34574486733551_2_alg».proof.Proof.Spec
import proofs.«116957_j34574486733551_2_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo
open Cert.TreeCell

/-- The single-precision word `0x3F800000` denotes the number one. -/
theorem one_f32 : Ideal.ofBits .f32 0x3F800000#32 = 1 := by
  simp [Ideal.ofBits, Ideal.ieee, -EReal.coe_mul]; norm_num

/-! ## The pieces shared by the gates -/

/-- The reduction over the children axis, started at zero, is the sum of the eight children's rows. -/
theorem kids_sum (x1 : (⟨S8192x8x512, .f32⟩ : BufTy).Contents (Elt Ideal)) (n : Fin 8192) (k : Fin 512) :
    val_main_v0 (F := Ideal) x1 (ix2 n k) = hs (kidsOf x1 n) k := by
  rw [val_main_v0_apply, val_main_cst_apply]
  simp only [Ideal.ofBits_def, Ideal.ofBits_zero_f32, zero_add]
  unfold hs
  refine Finset.sum_congr rfl fun j _ => ?_
  exact congrArg x1 (funext fun a => Fin.ext (by match a with | ⟨0, _⟩ => rfl | ⟨1, _⟩ => rfl | ⟨2, _⟩ => rfl))

/-- A [8192,512] array times a [512,512] matrix, at row `n` and column `g`: the row's plain product with the matrix. -/
theorem dot_at (a : (⟨S8192x512, .f32⟩ : BufTy).Contents (Elt Ideal)) (W : (⟨S512x512, .f32⟩ : BufTy).Contents (Elt Ideal)) (n : Fin 8192) (g : Fin 512) :
    val_main_v1 (F := Ideal) a W (ix2 n g) = dot (rowOf a n) (mat W) g := by
  rw [val_main_v1_apply]
  unfold dot
  refine Finset.sum_congr rfl fun k _ => ?_
  have el : lidx_main_v1 (ix2 n g) k = ix2 n k :=
    funext fun a => Fin.ext (by match a with | ⟨0, _⟩ => rfl | ⟨1, _⟩ => rfl)
  have er : ridx_main_v1 (ix2 n g) k = ix2 k g :=
    funext fun a => Fin.ext (by match a with | ⟨0, _⟩ => rfl | ⟨1, _⟩ => rfl)
  rw [el, er]

/-- The same product when the left operand is the summed children's rows. -/
theorem sum_dot_at (x1 : (⟨S8192x8x512, .f32⟩ : BufTy).Contents (Elt Ideal)) (U : (⟨S512x512, .f32⟩ : BufTy).Contents (Elt Ideal)) (n : Fin 8192) (g : Fin 512) :
    val_main_v5 (F := Ideal) x1 U (ix2 n g) = dot (hs (kidsOf x1 n)) (mat U) g := by
  show val_main_v1 (F := Ideal) (val_main_v0 (F := Ideal) x1) U (ix2 n g) = _
  rw [dot_at]
  exact congrArg (fun r => dot r (mat U) g) (funext fun k => kids_sum x1 n k)

/-- A bias row repeated over the nodes, at row `n` and column `g`: the bias at `g`. -/
theorem bias_at (b : (⟨S512, .f32⟩ : BufTy).Contents (Elt Ideal)) (n : Fin 8192) (g : Fin 512) :
    val_main_v3 (F := Ideal) b (ix2 n g) = vec b g := by
  rw [val_main_v3_apply, val_main_v2_apply]
  exact congrArg b (funext fun a => Fin.ext (by match a with | ⟨0, _⟩ => rfl))

/-- A node gate's pre-activation: the node's row through `W`, plus `bW`, plus the summed children's row through `U`,
    plus `bU`, in the specification's order. -/
theorem pre_at (x0 : (⟨S8192x512, .f32⟩ : BufTy).Contents (Elt Ideal)) (x1 : (⟨S8192x8x512, .f32⟩ : BufTy).Contents (Elt Ideal)) (W : (⟨S512x512, .f32⟩ : BufTy).Contents (Elt Ideal)) (bW : (⟨S512, .f32⟩ : BufTy).Contents (Elt Ideal)) (U : (⟨S512x512, .f32⟩ : BufTy).Contents (Elt Ideal)) (bU : (⟨S512, .f32⟩ : BufTy).Contents (Elt Ideal)) (n : Fin 8192) (g : Fin 512) :
    val_main_v9 (F := Ideal) x0 x1 W bW U bU (ix2 n g)
      = gatePre (mat W) (vec bW) (mat U) (vec bU) (rowOf x0 n) (kidsOf x1 n) g := by
  rw [val_main_v9_apply, val_main_v6_apply, val_main_v4_apply, dot_at, bias_at, sum_dot_at]
  rw [show val_main_v8 (F := Ideal) bU (ix2 n g) = vec bU g from bias_at bU n g]
  rfl

/-! ## The node gates -/

/-- `1 / (1 + exp (-z))` over a node gate's pre-activation is the logistic function of it. -/
theorem sig_at (x0 : (⟨S8192x512, .f32⟩ : BufTy).Contents (Elt Ideal)) (x1 : (⟨S8192x8x512, .f32⟩ : BufTy).Contents (Elt Ideal)) (W : (⟨S512x512, .f32⟩ : BufTy).Contents (Elt Ideal)) (bW : (⟨S512, .f32⟩ : BufTy).Contents (Elt Ideal)) (U : (⟨S512x512, .f32⟩ : BufTy).Contents (Elt Ideal)) (bU : (⟨S512, .f32⟩ : BufTy).Contents (Elt Ideal)) (n : Fin 8192) (g : Fin 512) :
    val_main_v15 (F := Ideal) x0 x1 W bW U bU (ix2 n g)
      = Ideal.logistic (gatePre (mat W) (vec bW) (mat U) (vec bU) (rowOf x0 n) (kidsOf x1 n) g) := by
  rw [val_main_v15_apply, val_main_v14_apply, val_main_cst_1_apply, val_main_v13_apply, val_main_v12_apply,
    val_main_cst_0_apply, val_main_v11_apply, val_main_v10_apply, pre_at]
  simp only [Ideal.ofBits_def, one_f32, Ideal.hostDivf_def, Ideal.addf_def, Ideal.hostUnary_exp_def,
    Ideal.hostNegf_def, Ideal.negf_def]
  rfl

/-- The update gate: tanh of its pre-activation. -/
theorem tanh_at (x0 : (⟨S8192x512, .f32⟩ : BufTy).Contents (Elt Ideal)) (x1 : (⟨S8192x8x512, .f32⟩ : BufTy).Contents (Elt Ideal)) (W : (⟨S512x512, .f32⟩ : BufTy).Contents (Elt Ideal)) (bW : (⟨S512, .f32⟩ : BufTy).Contents (Elt Ideal)) (U : (⟨S512x512, .f32⟩ : BufTy).Contents (Elt Ideal)) (bU : (⟨S512, .f32⟩ : BufTy).Contents (Elt Ideal)) (n : Fin 8192) (g : Fin 512) :
    val_main_v40 (F := Ideal) x0 x1 W bW U bU (ix2 n g)
      = Ideal.tanh (gatePre (mat W) (vec bW) (mat U) (vec bU) (rowOf x0 n) (kidsOf x1 n) g) := by
  rw [val_main_v40_apply]
  rw [show val_main_v39 (F := Ideal) x0 x1 W bW U bU (ix2 n g)
      = gatePre (mat W) (vec bW) (mat U) (vec bU) (rowOf x0 n) (kidsOf x1 n) g from pre_at x0 x1 W bW U bU n g]
  rfl

/-! ## The per-child forget gate -/

/-- Child `j`'s forget gate pre-activation at node `n`, column `g`: the node's row through `Wf` plus `bWf` (the same
    for every child), plus that child's hidden row through `Uf`, plus `bUf`. -/
theorem fpre_at (x0 : (⟨S8192x512, .f32⟩ : BufTy).Contents (Elt Ideal)) (x1 : (⟨S8192x8x512, .f32⟩ : BufTy).Contents (Elt Ideal)) (Wf : (⟨S512x512, .f32⟩ : BufTy).Contents (Elt Ideal)) (bWf : (⟨S512, .f32⟩ : BufTy).Contents (Elt Ideal)) (Uf : (⟨S512x512, .f32⟩ : BufTy).Contents (Elt Ideal)) (bUf : (⟨S512, .f32⟩ : BufTy).Contents (Elt Ideal))
    (n : Fin 8192) (j : Fin 8) (g : Fin 512) :
    val_main_v51 (F := Ideal) x0 x1 Wf bWf Uf bUf (ix3 n j g)
      = forgetPre (mat Wf) (vec bWf) (mat Uf) (vec bUf) (rowOf x0 n) (kidsOf x1 n) j g := by
  rw [val_main_v51_apply, val_main_v48_apply, val_main_v47_apply, val_main_v45_apply, val_main_v44_apply,
    val_main_v46_apply, val_main_v50_apply, val_main_v49_apply]
  have e : idx_main_v45 (idx_main_v47 (ix3 n j g)) = ix2 n g :=
    funext fun a => Fin.ext (by match a with | ⟨0, _⟩ => rfl | ⟨1, _⟩ => rfl)
  have eb : idx_main_v49 (idx_main_v50 (ix3 n j g)) = ix1 g :=
    funext fun a => Fin.ext (by match a with | ⟨0, _⟩ => rfl)
  rw [e, eb]
  rw [show val_main_v41 (F := Ideal) x0 Wf (ix2 n g) = dot (rowOf x0 n) (mat Wf) g from dot_at x0 Wf n g]
  rw [show val_main_v43 (F := Ideal) bWf (ix2 n g) = vec bWf g from bias_at bWf n g]
  have ed : (∑ k : Fin 512, x1 (lidx_main_v46 (ix3 n j g) k) * Uf (ridx_main_v46 (ix3 n j g) k))
      = dot (kidsOf x1 n j) (mat Uf) g := by
    unfold dot
    refine Finset.sum_congr rfl fun k _ => ?_
    have el : lidx_main_v46 (ix3 n j g) k = ix3 n j k :=
      funext fun a => Fin.ext (by match a with | ⟨0, _⟩ => rfl | ⟨1, _⟩ => rfl | ⟨2, _⟩ => rfl)
    have er : ridx_main_v46 (ix3 n j g) k = ix2 k g :=
      funext fun a => Fin.ext (by match a with | ⟨0, _⟩ => rfl | ⟨1, _⟩ => rfl)
    rw [el, er]
  rw [ed]
  rfl

/-- Child `j`'s forget gate: the logistic function of its pre-activation. -/
theorem fgate_at (x0 : (⟨S8192x512, .f32⟩ : BufTy).Contents (Elt Ideal)) (x1 : (⟨S8192x8x512, .f32⟩ : BufTy).Contents (Elt Ideal)) (Wf : (⟨S512x512, .f32⟩ : BufTy).Contents (Elt Ideal)) (bWf : (⟨S512, .f32⟩ : BufTy).Contents (Elt Ideal)) (Uf : (⟨S512x512, .f32⟩ : BufTy).Contents (Elt Ideal)) (bUf : (⟨S512, .f32⟩ : BufTy).Contents (Elt Ideal))
    (n : Fin 8192) (j : Fin 8) (g : Fin 512) :
    val_main_v57 (F := Ideal) x0 x1 Wf bWf Uf bUf (ix3 n j g)
      = Ideal.logistic (forgetPre (mat Wf) (vec bWf) (mat Uf) (vec bUf) (rowOf x0 n) (kidsOf x1 n) j g) := by
  rw [val_main_v57_apply, val_main_v56_apply, val_main_cst_5_apply, val_main_v55_apply, val_main_v54_apply,
    val_main_cst_4_apply, val_main_v53_apply, val_main_v52_apply, fpre_at]
  simp only [Ideal.ofBits_def, one_f32, Ideal.hostDivf_def, Ideal.addf_def, Ideal.hostUnary_exp_def,
    Ideal.hostNegf_def, Ideal.negf_def]
  rfl

/-! ## The two results -/

/-- The reference's new cell array is the specification's. -/
theorem ref_c (x0 : (⟨S8192x512, .f32⟩ : BufTy).Contents (Elt Ideal)) (x1 x2 : (⟨S8192x8x512, .f32⟩ : BufTy).Contents (Elt Ideal))
    (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal))
    (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal))
    (x11 : (⟨S512x512, .f32⟩ : BufTy).Contents (Elt Ideal)) (x12 : (⟨S512, .f32⟩ : BufTy).Contents (Elt Ideal)) (x13 : (⟨S512x512, .f32⟩ : BufTy).Contents (Elt Ideal)) (x14 : (⟨S512, .f32⟩ : BufTy).Contents (Elt Ideal))
    (x15 : (⟨S512x512, .f32⟩ : BufTy).Contents (Elt Ideal)) (x16 : (⟨S512, .f32⟩ : BufTy).Contents (Elt Ideal)) (x17 : (⟨S512x512, .f32⟩ : BufTy).Contents (Elt Ideal)) (x18 : (⟨S512, .f32⟩ : BufTy).Contents (Elt Ideal)) :
    val_main_v61 (F := Ideal) x0 x1 x2 x3 x4 x5 x6 x7 x8 x9 x10 x15 x16 x17 x18
      = cArr x0 x1 x2 x3 x4 x5 x6 x7 x8 x9 x10 x11 x12 x13 x14 x15 x16 x17 x18 := by
  funext i
  obtain ⟨n, g, rfl⟩ : ∃ (n : Fin 8192) (g : Fin 512), i = ix2 n g := ⟨i 0, i 1, eq_ix2 i⟩
  rw [val_main_v61_apply, val_main_v58_apply, sig_at, tanh_at, val_main_v60_apply, val_main_cst_6_apply]
  simp only [Ideal.ofBits_def, Ideal.ofBits_zero_f32, zero_add, Ideal.addf_def, Ideal.mulf_def]
  unfold cArr cRow
  refine congrArg (_ + ·) (Finset.sum_congr rfl fun j _ => ?_)
  have e : idx_main_v60 (ix2 n g) j = ix3 n j g :=
    funext fun a => Fin.ext (by match a with | ⟨0, _⟩ => rfl | ⟨1, _⟩ => rfl | ⟨2, _⟩ => rfl)
  rw [e, val_main_v59_apply, fgate_at]
  rfl

/-- The reference's new hidden array is the specification's. -/
theorem ref_h (x0 : (⟨S8192x512, .f32⟩ : BufTy).Contents (Elt Ideal)) (x1 x2 : (⟨S8192x8x512, .f32⟩ : BufTy).Contents (Elt Ideal))
    (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal))
    (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal))
    (x11 : (⟨S512x512, .f32⟩ : BufTy).Contents (Elt Ideal)) (x12 : (⟨S512, .f32⟩ : BufTy).Contents (Elt Ideal)) (x13 : (⟨S512x512, .f32⟩ : BufTy).Contents (Elt Ideal)) (x14 : (⟨S512, .f32⟩ : BufTy).Contents (Elt Ideal))
    (x15 : (⟨S512x512, .f32⟩ : BufTy).Contents (Elt Ideal)) (x16 : (⟨S512, .f32⟩ : BufTy).Contents (Elt Ideal)) (x17 : (⟨S512x512, .f32⟩ : BufTy).Contents (Elt Ideal)) (x18 : (⟨S512, .f32⟩ : BufTy).Contents (Elt Ideal)) :
    val_main_v63 (F := Ideal) x0 x1 x2 x3 x4 x5 x6 x7 x8 x9 x10 x11 x12 x13 x14 x15 x16 x17 x18
      = hArr x0 x1 x2 x3 x4 x5 x6 x7 x8 x9 x10 x11 x12 x13 x14 x15 x16 x17 x18 := by
  funext i
  obtain ⟨n, g, rfl⟩ : ∃ (n : Fin 8192) (g : Fin 512), i = ix2 n g := ⟨i 0, i 1, eq_ix2 i⟩
  rw [val_main_v63_apply, val_main_v62_apply, ref_c x0 x1 x2 x3 x4 x5 x6 x7 x8 x9 x10 x11 x12 x13 x14 x15 x16 x17 x18]
  rw [show val_main_v30 (F := Ideal) x0 x1 x11 x12 x13 x14 (ix2 n g)
      = Ideal.logistic (gatePre (mat x11) (vec x12) (mat x13) (vec x14) (rowOf x0 n) (kidsOf x1 n) g)
      from sig_at x0 x1 x11 x12 x13 x14 n g]
  rfl

/-! ## The program's result -/

/-- The reference's result buffer: the stack, along a new leading axis, of the specification's hidden array and cell
    array of the nineteen arguments as the run finds them. The two re-shapings to [1,8192,512] and the join are left
    as the program writes them. -/
theorem ref_result (m : (ℓ : Loc nD τ sig) → Buf (Elt Ideal) ℓ) (c : Dev nD) :
    Cert.ReferenceIdeal.Value.res_main_v66 (F := Ideal) m c
      = concatenate S2x8192x512 0
          [⟨S1x8192x512, broadcastInDim S1x8192x512 ![1, 2] bcast_S8192x512_S1x8192x512_1_2
              (hArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)))⟩,
           ⟨S1x8192x512, broadcastInDim S1x8192x512 ![1, 2] bcast_S8192x512_S1x8192x512_1_2
              (cArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)))⟩]
          concatenates_S1x8192x512_S1x8192x512_S2x8192x512_d0 := by
  rw [val_main_v66_eq]
  unfold val_main_v66 val_main_v64 val_main_v65
  rw [ref_h, ref_c _ _ _ _ _ _ _ _ _ _ _ (m ((c.tc : Thread nD τ).loc main_arg11)) (m ((c.tc : Thread nD τ).loc main_arg12)) (m ((c.tc : Thread nD τ).loc main_arg13)) (m ((c.tc : Thread nD τ).loc main_arg14))]

end Cert.ReferenceIdeal.RefValue

end
-- ==== Proof.lean ====
/-
  A Child-Sum Tree-LSTM cell, 8192 nodes of 8 children each at width 512, as one fused kernel against its plain
  array-program reference, compared on the extended reals.

  Both programs compute, for every node row, the input, output and update gates from the node's row and the sum of its
  children's hidden rows, one forget gate per child from the node's row and that child's hidden row, the new cell row
  `i * u + Σ_k f_k * c_k` and the new hidden row `o * tanh c`, and return the two arrays stacked. The kernel handles 256
  rows per grid point, multiplies the node rows once against the four gates' input weights laid side by side (and the
  children's summed rows against the three node gates' recurrent weights likewise), slices the gates back out, and runs
  the eight children as an unrolled left-nested sum; the reference multiplies gate by gate and reduces over the
  children's axis. On the extended reals the two differ only by how sums are grouped — `(a + b) + (c + d)` against
  `((a + b) + c) + d`, a left-nested sum from zero against a finite sum — and by where a column of a matrix product is
  read; the logistic function the kernel applies IS the quotient `1 / (1 + exp (-z))` the reference spells. No law used
  needs its operands finite, so the precondition is never opened.

  The frames: the reference's is its generated run with the result dropped; the kernel's, at the word level and at the
  ideal instance, rest on the body's triple (each output buffer stored once, whole), on the host lines around the
  region writing no argument and no array of the pipeline, and on every input block being found in its staging buffer
  at every grid point. `preserves` has no entry to state.
-/
import proofs.«116957_j34574486733551_2_alg».proof.Defs
import proofs.«116957_j34574486733551_2_alg».proof.Proof.Gen.Kernel
import proofs.«116957_j34574486733551_2_alg».proof.Proof.Gen.Kernel.Skeleton
import proofs.«116957_j34574486733551_2_alg».proof.Proof.Gen.Kernel.Launch
import proofs.«116957_j34574486733551_2_alg».proof.Proof.Gen.Kernel.Points
import proofs.«116957_j34574486733551_2_alg».proof.Proof.Gen.KernelIdeal
import proofs.«116957_j34574486733551_2_alg».proof.Proof.Gen.KernelIdeal.Skeleton
import proofs.«116957_j34574486733551_2_alg».proof.Proof.Gen.KernelIdeal.Launch
import proofs.«116957_j34574486733551_2_alg».proof.Proof.Gen.KernelIdeal.Points
import proofs.«116957_j34574486733551_2_alg».proof.Proof.Gen.ReferenceIdeal
import proofs.«116957_j34574486733551_2_alg».proof.Proof.Gen.Pre_finite_inputs
import proofs.«116957_j34574486733551_2_alg».proof.Proof.Gen.ReferenceIdeal.Run
import proofs.«116957_j34574486733551_2_alg».proof.Proof.Gen.ReferenceIdeal.Read
import proofs.«116957_j34574486733551_2_alg».proof.Proof.RunK
import proofs.«116957_j34574486733551_2_alg».proof.Proof.RunKI
import proofs.«116957_j34574486733551_2_alg».proof.Proof.BlocksKI
import proofs.«116957_j34574486733551_2_alg».proof.Proof.RefIsSpec
import Idealize.ShloMosaic.Adequacy
import Idealize.ShloMosaic.Init

noncomputable section

namespace Cert.Proof

open Idealize.ShloMosaic Idealize.SL.Sem

/-- The word-level kernel program runs to its end and leaves its nineteen arguments as launched. -/
theorem frame_k : Cert.frame_Kernel := fun m ρ _ => Cert.Kernel.Frame.frame m ρ

/-- So does the kernel program read at the ideal instance. -/
theorem frame_ki : Cert.frame_KernelIdeal := fun m ρ _ => Cert.KernelIdeal.Frame.frame m ρ

/-- The reference is host lines only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Run from memories that agree on the arguments, the kernel's result buffer ends at the stack of the new hidden and
    cell arrays of its arguments, and the reference's at the same stack of its own: one function of equal arguments. -/
theorem algebraic : Cert.algebraic_KernelIdeal_ReferenceIdeal := by
  intro m ρ m' ρ' _ hagree
  refine ⟨fun c => Cert.KernelIdeal.Frame.stackHC (Cert.KernelIdeal.Frame.hK m c) (Cert.KernelIdeal.Frame.cK m c),
    Cert.KernelIdeal.Frame.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18⟩ := hagree c
  rw [Cert.ReferenceIdeal.RefValue.ref_result, a0, a1, a2, a3, a4, a5, a6, a7, a8, a9, a10, a11, a12, a13, a14, a15, a16, a17, a18]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
